-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x256 : Shape := ⟨3, ![32, 128, 256]⟩
abbrev S32x128x4096 : Shape := ⟨3, ![32, 128, 4096]⟩
abbrev S32x64 : Shape := ⟨2, ![32, 64]⟩
abbrev S3x256x256 : Shape := ⟨3, ![3, 256, 256]⟩
abbrev S3x256 : Shape := ⟨2, ![3, 256]⟩
abbrev S3x320x256 : Shape := ⟨3, ![3, 320, 256]⟩
abbrev S_ : Shape := ⟨0, ![]⟩

class Facts : Prop where
  bcast_S_S32x128x256 : S_.BroadcastsInDim S32x128x256 (![] : Fin 0 → Fin S32x128x256.rank)
  reducesTo_S32x128x256_S_d0_1_2 : S32x128x256.ReducesTo [0, 1, 2] S_
  h_S_ : 0 < S_.numel
  bcast_S_S32x128x4096 : S_.BroadcastsInDim S32x128x4096 (![] : Fin 0 → Fin S32x128x4096.rank)
  reducesTo_S32x128x4096_S_d0_1_2 : S32x128x4096.ReducesTo [0, 1, 2] S_
  bcast_S_S32x64 : S_.BroadcastsInDim S32x64 (![] : Fin 0 → Fin S32x64.rank)
  reducesTo_S32x64_S_d0_1 : S32x64.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S3x320x256 : S_.BroadcastsInDim S3x320x256 (![] : Fin 0 → Fin S3x320x256.rank)
  reducesTo_S3x320x256_S_d0_1_2 : S3x320x256.ReducesTo [0, 1, 2] S_

variable [Facts]

def fn_part1 {F : FTy → Type} [FloatOps F] (main_arg4 : FVec F S3x256 .f32) (main_arg5 : FVec F S3x320x256 .f32) (main_arg6 : FVec F S3x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg4
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x320x256 .f32 := Host.absf main_arg5
  let main_cst_8 : FVec F S_ .f32 := constant S_ .f32 0x7F800000#32
  let main_v25 : FVec F S3x320x256 .f32 := broadcastInDim S3x320x256 ![] bcast_S_S3x320x256 main_cst_8
  let main_v26 : IVec S3x320x256 1 := cmpf .olt main_v24 main_v25
  let main_c_9 : IVec S_ 1 := constantI S_ 1 1#1
  let main_v27 : IVec S_ 1 := (fun x v => Host.reduce IntOp.andi x v reducesTo_S3x320x256_S_d0_1_2 h_S_) main_v26 main_c_9
  let main_v28 : IVec S_ 1 := andi main_v23 main_v27
  let main_v29 : FVec F S3x256 .f32 := Host.absf main_arg6
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  main_v33

def fn {F : FTy → Type} [FloatOps F] (main_arg0 : FVec F S32x128x256 .f32) (main_arg1 : FVec F S32x128x4096 .f32) (main_arg2 : FVec F S32x64 .f32) (main_arg3 : FVec F S3x256x256 .f32) (main_arg4 : FVec F S3x256 .f32) (main_arg5 : FVec F S3x320x256 .f32) (main_arg6 : FVec F S3x256 .f32) : IVec S_ 1 :=
  let main_v0 : FVec F S32x128x256 .f32 := Host.absf main_arg0
  let main_cst : FVec F S_ .f32 := constant S_ .f32 0x7F800000#32
  let main_v1 : FVec F S32x128x256 .f32 := broadcastInDim S32x128x256 ![] bcast_S_S32x128x256 main_cst
  let main_v2 : IVec S32x128x256 1 := cmpf .olt main_v0 main_v1
  let main_c : IVec S_ 1 := constantI S_ 1 1#1
  let main_v3 : IVec S_ 1 := (fun x v => Host.reduce IntOp.andi x v reducesTo_S32x128x256_S_d0_1_2 h_S_) main_v2 main_c
  let main_v4 : FVec F S32x128x4096 .f32 := Host.absf main_arg1
  let main_cst_0 : FVec F S_ .f32 := constant S_ .f32 0x7F800000#32
  let main_v5 : FVec F S32x128x4096 .f32 := broadcastInDim S32x128x4096 ![] bcast_S_S32x128x4096 main_cst_0
  let main_v6 : IVec S32x128x4096 1 := cmpf .olt main_v4 main_v5
  let main_c_1 : IVec S_ 1 := constantI S_ 1 1#1
  let main_v7 : IVec S_ 1 := (fun x v => Host.reduce IntOp.andi x v reducesTo_S32x128x4096_S_d0_1_2 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S3x256x256 .f32 := Host.absf main_arg3
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg4 main_arg5 main_arg6 main_v13 main_v16
-- ==== Kernel.lean ====
abbrev S32x128x256 : Shape := ⟨3, ![32, 128, 256]⟩
abbrev S32x128x4096 : Shape := ⟨3, ![32, 128, 4096]⟩
abbrev S32x64 : Shape := ⟨2, ![32, 64]⟩
abbrev S3x256x256 : Shape := ⟨3, ![3, 256, 256]⟩
abbrev S3x256 : Shape := ⟨2, ![3, 256]⟩
abbrev S3x320x256 : Shape := ⟨3, ![3, 320, 256]⟩
abbrev S4096 : Shape := ⟨1, ![4096]⟩
abbrev S4096x1 : Shape := ⟨2, ![4096, 1]⟩
abbrev S128 : Shape := ⟨1, ![128]⟩
abbrev S1x128 : Shape := ⟨2, ![1, 128]⟩
abbrev S32 : Shape := ⟨1, ![32]⟩
abbrev S1x32 : Shape := ⟨2, ![1, 32]⟩
abbrev S_ : Shape := ⟨0, ![]⟩
abbrev S4096x128 : Shape := ⟨2, ![4096, 128]⟩
abbrev S4096x32 : Shape := ⟨2, ![4096, 32]⟩
abbrev S4096x96 : Shape := ⟨2, ![4096, 96]⟩
abbrev S4096x256 : Shape := ⟨2, ![4096, 256]⟩
abbrev S1x128x4096 : Shape := ⟨3, ![1, 128, 4096]⟩
abbrev S1x128x256 : Shape := ⟨3, ![1, 128, 256]⟩
abbrev S128x4096 : Shape := ⟨2, ![128, 4096]⟩
abbrev S128x256 : Shape := ⟨2, ![128, 256]⟩
abbrev S32x128x128 : Shape := ⟨3, ![32, 128, 128]⟩
abbrev S32x128x32 : Shape := ⟨3, ![32, 128, 32]⟩
abbrev S1x256x256 : Shape := ⟨3, ![1, 256, 256]⟩
abbrev S256x256 : Shape := ⟨2, ![256, 256]⟩
abbrev S1x64x256 : Shape := ⟨3, ![1, 64, 256]⟩
abbrev S64x256 : Shape := ⟨2, ![64, 256]⟩
abbrev S32x256 : Shape := ⟨2, ![32, 256]⟩
abbrev S1x256 : Shape := ⟨2, ![1, 256]⟩
abbrev S256 : Shape := ⟨1, ![256]⟩
abbrev S1x128x128 : Shape := ⟨3, ![1, 128, 128]⟩
abbrev S1x128x32 : Shape := ⟨3, ![1, 128, 32]⟩
abbrev S128x128 : Shape := ⟨2, ![128, 128]⟩
abbrev S128x32 : Shape := ⟨2, ![128, 32]⟩

abbrev nBuf : Space → Nat
  | .hbm => 115
  | .vmem => 41
  | .smem => 0
  | _ => 0

abbrev bufTy : (tb : Table) → Fin (tcTables nBuf tb) → BufTy
  | .hbm, ⟨0, _⟩ => ⟨S32x128x256, .f32⟩
  | .hbm, ⟨1, _⟩ => ⟨S32x128x4096, .f32⟩
  | .hbm, ⟨2, _⟩ => ⟨S32x64, .f32⟩
  | .hbm, ⟨3, _⟩ => ⟨S3x256x256, .f32⟩
  | .hbm, ⟨4, _⟩ => ⟨S3x256, .f32⟩
  | .hbm, ⟨5, _⟩ => ⟨S3x320x256, .f32⟩
  | .hbm, ⟨6, _⟩ => ⟨S3x256, .f32⟩
  | .hbm, ⟨7, _⟩ => ⟨S4096, .i32⟩
  | .hbm, ⟨8, _⟩ => ⟨S4096x1, .i32⟩
  | .hbm, ⟨9, _⟩ => ⟨S128, .i32⟩
  | .hbm, ⟨10, _⟩ => ⟨S1x128, .i32⟩
  | .hbm, ⟨11, _⟩ => ⟨S32, .i32⟩
  | .hbm, ⟨12, _⟩ => ⟨S1x32, .i32⟩
  | .hbm, ⟨13, _⟩ => ⟨S_, .i32⟩
  | .hbm, ⟨14, _⟩ => ⟨S_, .i32⟩
  | .hbm, ⟨15, _⟩ => ⟨S4096x1, .i32⟩
  | .hbm, ⟨16, _⟩ => ⟨S4096x1, .i32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S4096x1, .i32⟩
  | .hbm, ⟨22, _⟩ => ⟨S4096x1, .i32⟩
  | .hbm, ⟨23, _⟩ => ⟨S_, .i32⟩
  | .hbm, ⟨24, _⟩ => ⟨S4096x1, .i32⟩
  | .hbm, ⟨25, _⟩ => ⟨S4096x1, .i1⟩
  | .hbm, ⟨26, _⟩ => ⟨S4096x1, .i1⟩
  | .hbm, ⟨27, _⟩ => ⟨S_, .i32⟩
  | .hbm, ⟨28, _⟩ => ⟨S4096x1, .i32⟩
  | .hbm, ⟨29, _⟩ => ⟨S4096x1, .i32⟩
  | .hbm, ⟨30, _⟩ => ⟨S4096x1, .i32⟩
  | .hbm, ⟨31, _⟩ => ⟨S4096x128, .i32⟩
  | .hbm, ⟨32, _⟩ => ⟨S4096x128, .i32⟩
  | .hbm, ⟨33, _⟩ => ⟨S4096x128, .i1⟩
  | .hbm, ⟨34, _⟩ => ⟨S4096x128, .bf16⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S_, .i32⟩
  | .hbm, ⟨44, _⟩ => ⟨S4096x1, .i32⟩
  | .hbm, ⟨45, _⟩ => ⟨S4096x1, .i1⟩
  | .hbm, ⟨46, _⟩ => ⟨S_, .i32⟩
  | .hbm, ⟨47, _⟩ => ⟨S4096x1, .i32⟩
  | .hbm, ⟨48, _⟩ => ⟨S4096x1, .i1⟩
  | .hbm, ⟨49, _⟩ => ⟨S_, .i32⟩
  | .hbm, ⟨50, _⟩ => ⟨S_, .i1⟩
  | .hbm, ⟨51, _⟩ => ⟨S4096x1, .i1⟩
  | .hbm, ⟨52, _⟩ => ⟨S4096x1, .i1⟩
  | .hbm, ⟨53, _⟩ => ⟨S4096x1, .i1⟩
  | .hbm, ⟨54, _⟩ => ⟨S4096x1, .i32⟩
  | .hbm, ⟨55, _⟩ => ⟨S4096x1, .i32⟩
  | .hbm, ⟨56, _⟩ => ⟨S4096x1, .i32⟩
  | .hbm, ⟨57, _⟩ => ⟨S4096x32, .i32⟩
  | .hbm, ⟨58, _⟩ => ⟨S4096x32, .i32⟩
  | .hbm, ⟨59, _⟩ => ⟨S4096x32, .i1⟩
  | .hbm, ⟨60, _⟩ => ⟨S4096x32, .bf16⟩
  | .hbm, ⟨61, _⟩ => ⟨S_, .bf16⟩
  | .hbm, ⟨62, _⟩ => ⟨S4096x96, .bf16⟩
  | .hbm, ⟨63, _⟩ => ⟨S4096x256, .bf16⟩
  | .hbm, ⟨64, _⟩ => ⟨S32x128x256, .f32⟩
  | .hbm, ⟨65, _⟩ => ⟨S32x128x128, .f32⟩
  | .hbm, ⟨66, _⟩ => ⟨S32x128x32, .f32⟩
  | .hbm, ⟨67, _⟩ => ⟨S1x256x256, .f32⟩
  | .hbm, ⟨68, _⟩ => ⟨S256x256, .f32⟩
  | .hbm, ⟨69, _⟩ => ⟨S1x64x256, .f32⟩
  | .hbm, ⟨70, _⟩ => ⟨S64x256, .f32⟩
  | .hbm, ⟨71, _⟩ => ⟨S32x256, .f32⟩
  | .hbm, ⟨72, _⟩ => ⟨S1x256, .f32⟩
  | .hbm, ⟨73, _⟩ => ⟨S256, .f32⟩
  | .hbm, ⟨74, _⟩ => ⟨S1x256, .f32⟩
  | .hbm, ⟨75, _⟩ => ⟨S32x256, .f32⟩
  | .hbm, ⟨76, _⟩ => ⟨S32x256, .f32⟩
  | .hbm, ⟨77, _⟩ => ⟨S1x256, .f32⟩
  | .hbm, ⟨78, _⟩ => ⟨S256, .f32⟩
  | .hbm, ⟨79, _⟩ => ⟨S1x256, .f32⟩
  | .hbm, ⟨80, _⟩ => ⟨S1x256x256, .f32⟩
  | .hbm, ⟨81, _⟩ => ⟨S256x256, .f32⟩
  | .hbm, ⟨82, _⟩ => ⟨S32x128x256, .f32⟩
  | .hbm, ⟨83, _⟩ => ⟨S1x256x256, .f32⟩
  | .hbm, ⟨84, _⟩ => ⟨S256x256, .f32⟩
  | .hbm, ⟨85, _⟩ => ⟨S1x64x256, .f32⟩
  | .hbm, ⟨86, _⟩ => ⟨S64x256, .f32⟩
  | .hbm, ⟨87, _⟩ => ⟨S32x256, .f32⟩
  | .hbm, ⟨88, _⟩ => ⟨S1x256, .f32⟩
  | .hbm, ⟨89, _⟩ => ⟨S256, .f32⟩
  | .hbm, ⟨90, _⟩ => ⟨S1x256, .f32⟩
  | .hbm, ⟨91, _⟩ => ⟨S32x256, .f32⟩
  | .hbm, ⟨92, _⟩ => ⟨S32x256, .f32⟩
  | .hbm, ⟨93, _⟩ => ⟨S1x256, .f32⟩
  | .hbm, ⟨94, _⟩ => ⟨S256, .f32⟩
  | .hbm, ⟨95, _⟩ => ⟨S1x256, .f32⟩
  | .hbm, ⟨96, _⟩ => ⟨S1x256x256, .f32⟩
  | .hbm, ⟨97, _⟩ => ⟨S256x256, .f32⟩
  | .hbm, ⟨98, _⟩ => ⟨S32x128x256, .f32⟩
  | .hbm, ⟨99, _⟩ => ⟨S1x256x256, .f32⟩
  | .hbm, ⟨100, _⟩ => ⟨S256x256, .f32⟩
  | .hbm, ⟨101, _⟩ => ⟨S1x64x256, .f32⟩
  | .hbm, ⟨102, _⟩ => ⟨S64x256, .f32⟩
  | .hbm, ⟨103, _⟩ => ⟨S32x256, .f32⟩
  | .hbm, ⟨104, _⟩ => ⟨S1x256, .f32⟩
  | .hbm, ⟨105, _⟩ => ⟨S256, .f32⟩
  | .hbm, ⟨106, _⟩ => ⟨S1x256, .f32⟩
  | .hbm, ⟨107, _⟩ => ⟨S32x256, .f32⟩
  | .hbm, ⟨108, _⟩ => ⟨S32x256, .f32⟩
  | .hbm, ⟨109, _⟩ => ⟨S1x256, .f32⟩
  | .hbm, ⟨110, _⟩ => ⟨S256, .f32⟩
  | .hbm, ⟨111, _⟩ => ⟨S1x256, .f32⟩
  | .hbm, ⟨112, _⟩ => ⟨S1x256x256, .f32⟩
  | .hbm, ⟨113, _⟩ => ⟨S256x256, .f32⟩
  | .hbm, ⟨114, _⟩ => ⟨S32x128x256, .f32⟩
  | .local _ .vmem, ⟨0, _⟩ => ⟨S1x128x4096, .f32⟩
  | .local _ .vmem, ⟨1, _⟩ => ⟨S1x128x4096, .f32⟩
  | .local _ .vmem, ⟨2, _⟩ => ⟨S4096x256, .bf16⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x128, .f32⟩
  | .local _ .vmem, ⟨8, _⟩ => ⟨S1x128x128, .f32⟩
  | .local _ .vmem, ⟨9, _⟩ => ⟨S1x128x32, .f32⟩
  | .local _ .vmem, ⟨10, _⟩ => ⟨S1x128x32, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S32x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x128x256, .f32⟩
  | .local _ .vmem, ⟨19, _⟩ => ⟨S1x128x128, .f32⟩
  | .local _ .vmem, ⟨20, _⟩ => ⟨S1x128x128, .f32⟩
  | .local _ .vmem, ⟨21, _⟩ => ⟨S1x128x32, .f32⟩
  | .local _ .vmem, ⟨22, _⟩ => ⟨S1x128x32, .f32⟩
  | .local _ .vmem, ⟨23, _⟩ => ⟨S256x256, .f32⟩
  | .local _ .vmem, ⟨24, _⟩ => ⟨S1x256, .f32⟩
  | .local _ .vmem, ⟨25, _⟩ => ⟨S256x256, .f32⟩
  | .local _ .vmem, ⟨26, _⟩ => ⟨S32x256, .f32⟩
  | .local _ .vmem, ⟨27, _⟩ => ⟨S1x128x256, .f32⟩
  | .local _ .vmem, ⟨28, _⟩ => ⟨S1x128x256, .f32⟩
  | .local _ .vmem, ⟨29, _⟩ => ⟨S1x128x256, .f32⟩
  | .local _ .vmem, ⟨30, _⟩ => ⟨S1x128x256, .f32⟩
  | .local _ .vmem, ⟨31, _⟩ => ⟨S1x128x128, .f32⟩
  | .local _ .vmem, ⟨32, _⟩ => ⟨S1x128x128, .f32⟩
  | .local _ .vmem, ⟨33, _⟩ => ⟨S1x128x32, .f32⟩
  | .local _ .vmem, ⟨34, _⟩ => ⟨S1x128x32, .f32⟩
  | .local _ .vmem, ⟨35, _⟩ => ⟨S256x256, .f32⟩
  | .local _ .vmem, ⟨36, _⟩ => ⟨S1x256, .f32⟩
  | .local _ .vmem, ⟨37, _⟩ => ⟨S256x256, .f32⟩
  | .local _ .vmem, ⟨38, _⟩ => ⟨S32x256, .f32⟩
  | .local _ .vmem, ⟨39, _⟩ => ⟨S1x128x256, .f32⟩
  | .local _ .vmem, ⟨40, _⟩ => ⟨S1x128x256, .f32⟩
  | _, _ => ⟨S32x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_cst : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg7_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem7_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x128x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x128x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1x128x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S4096_S4096x1 : S4096.ShapeCasts S4096x1
  shapeCasts_S128_S1x128 : S128.ShapeCasts S1x128
  shapeCasts_S32_S1x32 : S32.ShapeCasts S1x32
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  bcast_S4096x1_S4096x32_0_1 : S4096x1.BroadcastsInDim S4096x32 (![0, 1] : Fin 2 → Fin S4096x32.rank)
  bcast_S1x32_S4096x32_0_1 : S1x32.BroadcastsInDim S4096x32 (![0, 1] : Fin 2 → Fin S4096x32.rank)
  bcast_S_S4096x96 : S_.BroadcastsInDim S4096x96 (![] : Fin 0 → Fin S4096x96.rank)
  concatenates_S4096x128_S4096x32_S4096x96_S4096x256_d1 : Shape.Concatenates [S4096x128, S4096x32, S4096x96] S4096x256 1
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  slices_S32x128x256_S32x128x128_0_0_0 : S32x128x256.Slices ![0, 0, 0] S32x128x128
  slices_S32x128x256_S32x128x32_0_0_128 : S32x128x256.Slices ![0, 0, 128] S32x128x32
  slices_S3x320x256_S1x256x256_0_0_0 : S3x320x256.Slices ![0, 0, 0] S1x256x256
  shapeCasts_S1x256x256_S256x256 : S1x256x256.ShapeCasts S256x256
  slices_S3x320x256_S1x64x256_0_256_0 : S3x320x256.Slices ![0, 256, 0] S1x64x256
  shapeCasts_S1x64x256_S64x256 : S1x64x256.ShapeCasts S64x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  shapeCasts_S256_S1x256 : S256.ShapeCasts S1x256
  slices_S3x256x256_S1x256x256_0_0_0 : S3x256x256.Slices ![0, 0, 0] S1x256x256
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  broadcasts_S1x256_S128x256 : S1x256.Broadcasts S128x256
  slices_S3x320x256_S1x256x256_1_0_0 : S3x320x256.Slices ![1, 0, 0] S1x256x256
  slices_S3x320x256_S1x64x256_1_256_0 : S3x320x256.Slices ![1, 256, 0] S1x64x256
  slices_S3x256_S1x256_1_0 : S3x256.Slices ![1, 0] S1x256
  slices_S3x256x256_S1x256x256_1_0_0 : S3x256x256.Slices ![1, 0, 0] S1x256x256
  slices_S3x320x256_S1x256x256_2_0_0 : S3x320x256.Slices ![2, 0, 0] S1x256x256
  slices_S3x320x256_S1x64x256_2_256_0 : S3x320x256.Slices ![2, 256, 0] S1x64x256
  slices_S3x256_S1x256_2_0 : S3x256.Slices ![2, 0] S1x256
  slices_S3x256x256_S1x256x256_2_0_0 : S3x256x256.Slices ![2, 0, 0] S1x256x256
  dot_S128x4096_S4096x256_S128x256_1_0_0_1_n_n_wf : DotDims.WF S128x4096 S4096x256 S128x256 [1] [0] [0] [1] [] []
  dot_S32x64_S64x256_S32x256_1_0_0_1_n_n_wf : DotDims.WF S32x64 S64x256 S32x256 [1] [0] [0] [1] [] []
  dot_S128x256_S256x256_S128x256_1_0_0_1_n_n_wf : DotDims.WF S128x256 S256x256 S128x256 [1] [0] [0] [1] [] []
  dot_S128x128_S128x256_S128x256_1_0_0_1_n_n_wf : DotDims.WF S128x128 S128x256 S128x256 [1] [0] [0] [1] [] []
  dot_S128x32_S32x256_S128x256_1_0_0_1_n_n_wf : DotDims.WF S128x32 S32x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S32x128x4096.size a
  hwx0_0 : ∀ i : grid0.Coords, EltTy.bits .f32 = 32 ∨ (Rect.block (s := S32x128x4096) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S32x128x256.size a
  hwx0_2 : ∀ i : grid0.Coords, EltTy.bits .f32 = 32 ∨ (Rect.block (s := S32x128x256) S1x128x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x256.size a ≤ S32x128x256.size a
  hwx1_0 : ∀ i : grid1.Coords, EltTy.bits .f32 = 32 ∨ (Rect.block (s := S32x128x256) S1x128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S32x128x128.size a
  hwx1_1 : ∀ i : grid1.Coords, EltTy.bits .f32 = 32 ∨ (Rect.block (s := S32x128x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x32.size a ≤ S32x128x32.size a
  hwx1_2 : ∀ i : grid1.Coords, EltTy.bits .f32 = 32 ∨ (Rect.block (s := S32x128x32) S1x128x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x256.size a ≤ S32x256.size a
  hwx1_6 : ∀ i : grid1.Coords, EltTy.bits .f32 = 32 ∨ (Rect.block (s := S32x256) S32x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x256.size a ≤ S32x128x256.size a
  hwx1_7 : ∀ i : grid1.Coords, EltTy.bits .f32 = 32 ∨ (Rect.block (s := S32x128x256) S1x128x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x256.size a ≤ S32x128x256.size a
  hwx2_0 : ∀ i : grid2.Coords, EltTy.bits .f32 = 32 ∨ (Rect.block (s := S32x128x256) S1x128x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x128.size a ≤ S32x128x128.size a
  hwx2_1 : ∀ i : grid2.Coords, EltTy.bits .f32 = 32 ∨ (Rect.block (s := S32x128x128) S1x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128x32.size a ≤ S32x128x32.size a
  hwx2_2 : ∀ i : grid2.Coords, EltTy.bits .f32 = 32 ∨ (Rect.block (s := S32x128x32) S1x128x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x256.size a ≤ S32x256.size a
  hwx2_6 : ∀ i : grid2.Coords, EltTy.bits .f32 = 32 ∨ (Rect.block (s := S32x256) S32x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x128x256.size a ≤ S32x128x256.size a
  hwx2_7 : ∀ i : grid2.Coords, EltTy.bits .f32 = 32 ∨ (Rect.block (s := S32x128x256) S1x128x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x128x256.size a ≤ S32x128x256.size a
  hwx3_0 : ∀ i : grid3.Coords, EltTy.bits .f32 = 32 ∨ (Rect.block (s := S32x128x256) S1x128x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x128x128.size a ≤ S32x128x128.size a
  hwx3_1 : ∀ i : grid3.Coords, EltTy.bits .f32 = 32 ∨ (Rect.block (s := S32x128x128) S1x128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x128x32.size a ≤ S32x128x32.size a
  hwx3_2 : ∀ i : grid3.Coords, EltTy.bits .f32 = 32 ∨ (Rect.block (s := S32x128x32) S1x128x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S32x256.size a ≤ S32x256.size a
  hwx3_6 : ∀ i : grid3.Coords, EltTy.bits .f32 = 32 ∨ (Rect.block (s := S32x256) S32x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x128x256.size a ≤ S32x128x256.size a
  hwx3_7 : ∀ i : grid3.Coords, EltTy.bits .f32 = 32 ∨ (Rect.block (s := S32x128x256) S1x128x256.size (cc3_transform_7 i) (hinb3_7 i)).WholeWords (EltTy.packing .f32)

variable [Facts₀]

def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf
def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x32_S32x256_S128x256_1_0_0_1_n_n : DotDims S128x32 S32x256 S128x256 where
  lhsContracting := [1]
  rhsContracting := [0]
  lhsNonContracting := [0]
  rhsNonContracting := [1]
  lhsBatch := []
  rhsBatch := []
  wf := dot_S128x32_S32x256_S128x256_1_0_0_1_n_n_wf

abbrev win0_0 : Pipeline.Window sig grid0 :=
  Pipeline.Window.ofSpec (Memref.whole main_arg1) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S32x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x128x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36) S1x128x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x128x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S32x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S1x128x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v52) S1x128x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1x128x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x128x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S32x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v68) S1x128x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S32x128x256 : Shape := ⟨3, ![32, 128, 256]⟩
abbrev S32x128x4096 : Shape := ⟨3, ![32, 128, 4096]⟩
abbrev S32x64 : Shape := ⟨2, ![32, 64]⟩
abbrev S3x256x256 : Shape := ⟨3, ![3, 256, 256]⟩
abbrev S3x256 : Shape := ⟨2, ![3, 256]⟩
abbrev S3x320x256 : Shape := ⟨3, ![3, 320, 256]⟩
abbrev S1x32x1x64 : Shape := ⟨4, ![1, 32, 1, 64]⟩
abbrev S128x32x1x64 : Shape := ⟨4, ![128, 32, 1, 64]⟩
abbrev S4096x64 : Shape := ⟨2, ![4096, 64]⟩
abbrev S32x4096x64 : Shape := ⟨3, ![32, 4096, 64]⟩
abbrev S32x128x32x256 : Shape := ⟨4, ![32, 128, 32, 256]⟩
abbrev S32x4096x256 : Shape := ⟨3, ![32, 4096, 256]⟩
abbrev S32x4096x320 : Shape := ⟨3, ![32, 4096, 320]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x256 : Shape := ⟨3, ![1, 1, 256]⟩
abbrev S1x320x256 : Shape := ⟨3, ![1, 320, 256]⟩
abbrev S320x256 : Shape := ⟨2, ![320, 256]⟩

abbrev nBuf : Space → Nat
  | .hbm => 80
  | .vmem => 0
  | .smem => 0
  | _ => 0

abbrev bufTy : (tb : Table) → Fin (tcTables nBuf tb) → BufTy
  | .hbm, ⟨0, _⟩ => ⟨S32x128x256, .f32⟩
  | .hbm, ⟨1, _⟩ => ⟨S32x128x4096, .f32⟩
  | .hbm, ⟨2, _⟩ => ⟨S32x64, .f32⟩
  | .hbm, ⟨3, _⟩ => ⟨S3x256x256, .f32⟩
  | .hbm, ⟨4, _⟩ => ⟨S3x256, .f32⟩
  | .hbm, ⟨5, _⟩ => ⟨S3x320x256, .f32⟩
  | .hbm, ⟨6, _⟩ => ⟨S3x256, .f32⟩
  | .hbm, ⟨7, _⟩ => ⟨S1x32x1x64, .f32⟩
  | .hbm, ⟨8, _⟩ => ⟨S128x32x1x64, .f32⟩
  | .hbm, ⟨9, _⟩ => ⟨S4096x64, .f32⟩
  | .hbm, ⟨10, _⟩ => ⟨S32x4096x64, .f32⟩
  | .hbm, ⟨11, _⟩ => ⟨S32x128x32x256, .f32⟩
  | .hbm, ⟨12, _⟩ => ⟨S32x4096x256, .f32⟩
  | .hbm, ⟨13, _⟩ => ⟨S32x4096x320, .f32⟩
  | .hbm, ⟨14, _⟩ => ⟨S1x256x256, .f32⟩
  | .hbm, ⟨15, _⟩ => ⟨S256x256, .f32⟩
  | .hbm, ⟨16, _⟩ => ⟨S32x128x256, .f32⟩
  | .hbm, ⟨17, _⟩ => ⟨S1x256, .f32⟩
  | .hbm, ⟨18, _⟩ => ⟨S256, .f32⟩
  | .hbm, ⟨19, _⟩ => ⟨S1x1x256, .f32⟩
  | .hbm, ⟨20, _⟩ => ⟨S32x128x256, .f32⟩
  | .hbm, ⟨21, _⟩ => ⟨S32x128x256, .f32⟩
  | .hbm, ⟨22, _⟩ => ⟨S1x320x256, .f32⟩
  | .hbm, ⟨23, _⟩ => ⟨S320x256, .f32⟩
  | .hbm, ⟨24, _⟩ => ⟨S32x4096x256, .f32⟩
  | .hbm, ⟨25, _⟩ => ⟨S1x256, .f32⟩
  | .hbm, ⟨26, _⟩ => ⟨S256, .f32⟩
  | .hbm, ⟨27, _⟩ => ⟨S1x1x256, .f32⟩
  | .hbm, ⟨28, _⟩ => ⟨S32x4096x256, .f32⟩
  | .hbm, ⟨29, _⟩ => ⟨S32x4096x256, .f32⟩
  | .hbm, ⟨30, _⟩ => ⟨S32x128x256, .f32⟩
  | .hbm, ⟨31, _⟩ => ⟨S32x128x256, .f32⟩
  | .hbm, ⟨32, _⟩ => ⟨S32x128x256, .f32⟩
  | .hbm, ⟨33, _⟩ => ⟨S32x128x256, .f32⟩
  | .hbm, ⟨34, _⟩ => ⟨S32x128x32x256, .f32⟩
  | .hbm, ⟨35, _⟩ => ⟨S32x4096x256, .f32⟩
  | .hbm, ⟨36, _⟩ => ⟨S32x4096x320, .f32⟩
  | .hbm, ⟨37, _⟩ => ⟨S1x256x256, .f32⟩
  | .hbm, ⟨38, _⟩ => ⟨S256x256, .f32⟩
  | .hbm, ⟨39, _⟩ => ⟨S32x128x256, .f32⟩
  | .hbm, ⟨40, _⟩ => ⟨S1x256, .f32⟩
  | .hbm, ⟨41, _⟩ => ⟨S256, .f32⟩
  | .hbm, ⟨42, _⟩ => ⟨S1x1x256, .f32⟩
  | .hbm, ⟨43, _⟩ => ⟨S32x128x256, .f32⟩
  | .hbm, ⟨44, _⟩ => ⟨S32x128x256, .f32⟩
  | .hbm, ⟨45, _⟩ => ⟨S1x320x256, .f32⟩
  | .hbm, ⟨46, _⟩ => ⟨S320x256, .f32⟩
  | .hbm, ⟨47, _⟩ => ⟨S32x4096x256, .f32⟩
  | .hbm, ⟨48, _⟩ => ⟨S1x256, .f32⟩
  | .hbm, ⟨49, _⟩ => ⟨S256, .f32⟩
  | .hbm, ⟨50, _⟩ => ⟨S1x1x256, .f32⟩
  | .hbm, ⟨51, _⟩ => ⟨S32x4096x256, .f32⟩
  | .hbm, ⟨52, _⟩ => ⟨S32x4096x256, .f32⟩
  | .hbm, ⟨53, _⟩ => ⟨S32x128x256, .f32⟩
  | .hbm, ⟨54, _⟩ => ⟨S32x128x256, .f32⟩
  | .hbm, ⟨55, _⟩ => ⟨S32x128x256, .f32⟩
  | .hbm, ⟨56, _⟩ => ⟨S32x128x256, .f32⟩
  | .hbm, ⟨57, _⟩ => ⟨S32x128x32x256, .f32⟩
  | .hbm, ⟨58, _⟩ => ⟨S32x4096x256, .f32⟩
  | .hbm, ⟨59, _⟩ => ⟨S32x4096x320, .f32⟩
  | .hbm, ⟨60, _⟩ => ⟨S1x256x256, .f32⟩
  | .hbm, ⟨61, _⟩ => ⟨S256x256, .f32⟩
  | .hbm, ⟨62, _⟩ => ⟨S32x128x256, .f32⟩
  | .hbm, ⟨63, _⟩ => ⟨S1x256, .f32⟩
  | .hbm, ⟨64, _⟩ => ⟨S256, .f32⟩
  | .hbm, ⟨65, _⟩ => ⟨S1x1x256, .f32⟩
  | .hbm, ⟨66, _⟩ => ⟨S32x128x256, .f32⟩
  | .hbm, ⟨67, _⟩ => ⟨S32x128x256, .f32⟩
  | .hbm, ⟨68, _⟩ => ⟨S1x320x256, .f32⟩
  | .hbm, ⟨69, _⟩ => ⟨S320x256, .f32⟩
  | .hbm, ⟨70, _⟩ => ⟨S32x4096x256, .f32⟩
  | .hbm, ⟨71, _⟩ => ⟨S1x256, .f32⟩
  | .hbm, ⟨72, _⟩ => ⟨S256, .f32⟩
  | .hbm, ⟨73, _⟩ => ⟨S1x1x256, .f32⟩
  | .hbm, ⟨74, _⟩ => ⟨S32x4096x256, .f32⟩
  | .hbm, ⟨75, _⟩ => ⟨S32x4096x256, .f32⟩
  | .hbm, ⟨76, _⟩ => ⟨S32x128x256, .f32⟩
  | .hbm, ⟨77, _⟩ => ⟨S32x128x256, .f32⟩
  | .hbm, ⟨78, _⟩ => ⟨S32x128x256, .f32⟩
  | .hbm, ⟨79, _⟩ => ⟨S32x128x256, .f32⟩
  | _, _ => ⟨S32x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩

abbrev nD : Nat := 1
abbrev τ : Topo := Topo.v7x

variable {F : FTy → Type} [FloatOps F]

class Facts₀ : Prop where
  shapeCasts_S32x64_S1x32x1x64 : S32x64.ShapeCasts S1x32x1x64
  bcast_S1x32x1x64_S128x32x1x64_0_1_2_3 : S1x32x1x64.BroadcastsInDim S128x32x1x64 (![0, 1, 2, 3] : Fin 4 → Fin S128x32x1x64.rank)
  shapeCasts_S128x32x1x64_S4096x64 : S128x32x1x64.ShapeCasts S4096x64
  bcast_S4096x64_S32x4096x64_1_2 : S4096x64.BroadcastsInDim S32x4096x64 (![1, 2] : Fin 2 → Fin S32x4096x64.rank)
  bcast_S32x128x256_S32x128x32x256_0_1_3 : S32x128x256.BroadcastsInDim S32x128x32x256 (![0, 1, 3] : Fin 3 → Fin S32x128x32x256.rank)
  shapeCasts_S32x128x32x256_S32x4096x256 : S32x128x32x256.ShapeCasts S32x4096x256
  concatenates_S32x4096x256_S32x4096x64_S32x4096x320_d2 : Shape.Concatenates [S32x4096x256, S32x4096x64] S32x4096x320 2
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S32x128x256_0_1_2 : S1x1x256.BroadcastsInDim S32x128x256 (![0, 1, 2] : Fin 3 → Fin S32x128x256.rank)
  slices_S3x320x256_S1x320x256_0_0_0 : S3x320x256.Slices ![0, 0, 0] S1x320x256
  shapeCasts_S1x320x256_S320x256 : S1x320x256.ShapeCasts S320x256
  bcast_S1x1x256_S32x4096x256_0_1_2 : S1x1x256.BroadcastsInDim S32x4096x256 (![0, 1, 2] : Fin 3 → Fin S32x4096x256.rank)
  slices_S3x256x256_S1x256x256_1_0_0 : S3x256x256.Slices ![1, 0, 0] S1x256x256
  slices_S3x256_S1x256_1_0 : S3x256.Slices ![1, 0] S1x256
  slices_S3x320x256_S1x320x256_1_0_0 : S3x320x256.Slices ![1, 0, 0] S1x320x256
  slices_S3x256x256_S1x256x256_2_0_0 : S3x256x256.Slices ![2, 0, 0] S1x256x256
  slices_S3x256_S1x256_2_0 : S3x256.Slices ![2, 0] S1x256
  slices_S3x320x256_S1x320x256_2_0_0 : S3x320x256.Slices ![2, 0, 0] S1x320x256
  dot_S32x128x256_S256x256_S32x128x256_2_0_01_1_n_n_wf : DotDims.WF S32x128x256 S256x256 S32x128x256 [2] [0] [0, 1] [1] [] []
  dot_S32x4096x320_S320x256_S32x4096x256_2_0_01_1_n_n_wf : DotDims.WF S32x4096x320 S320x256 S32x4096x256 [2] [0] [0, 1] [1] [] []
  dot_S32x128x4096_S32x4096x256_S32x128x256_2_1_1_2_0_0_wf : DotDims.WF S32x128x4096 S32x4096x256 S32x128x256 [2] [1] [1] [2] [0] [0]

variable [Facts₀]

def dot_S32x128x256_S256x256_S32x128x256_2_0_01_1_n_n : DotDims S32x128x256 S256x256 S32x128x256 where
  lhsContracting := [2]
  rhsContracting := [0]
  lhsNonContracting := [0, 1]
  rhsNonContracting := [1]
  lhsBatch := []
  rhsBatch := []
  wf := dot_S32x128x256_S256x256_S32x128x256_2_0_01_1_n_n_wf
def dot_S32x4096x320_S320x256_S32x4096x256_2_0_01_1_n_n : DotDims S32x4096x320 S320x256 S32x4096x256 where
  lhsContracting := [2]
  rhsContracting := [0]
  lhsNonContracting := [0, 1]
  rhsNonContracting := [1]
  lhsBatch := []
  rhsBatch := []
  wf := dot_S32x4096x320_S320x256_S32x4096x256_2_0_01_1_n_n_wf
def dot_S32x128x4096_S32x4096x256_S32x128x256_2_1_1_2_0_0 : DotDims S32x128x4096 S32x4096x256 S32x128x256 where
  lhsContracting := [2]
  rhsContracting := [1]
  lhsNonContracting := [1]
  rhsNonContracting := [2]
  lhsBatch := [0]
  rhsBatch := [0]
  wf := dot_S32x128x4096_S32x4096x256_S32x128x256_2_1_1_2_0_0_wf

class Facts : Prop extends Facts₀ where

variable [Facts]
-- ==== Proof.KernelReg0.lean ====
/-
  Pipeline 0, the adjacency reduction: one grid point per batch entry stages that entry's 128 × 4096 adjacency block and the whole
  4096 × 256 selection matrix, and writes their product, a 128 × 256 block, back. Stated at any contents `V` the region is entered
  from and at any float instance: the block each window holds at a point, what the body leaves in the output buffer, the body's
  triple, the proof data and the body obligation of the pipeline.
-/
import proofs.«144859_j68152541053088_1_alg».proof.Proof.Gen.Kernel.Launch
import proofs.«144859_j68152541053088_1_alg».proof.Proof.Gen.Kernel.Skeleton
import proofs.«144859_j68152541053088_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0 of @main: pipeline 0, the kernel `cc0__reduce_kernel`, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev r0_0 : Rect S1x128x4096 := Rect.unit (s := S1x128x4096) ![0, 0, 0] S1x128x4096.size inb_S1x128x4096_S1x128x4096_0_0_0
abbrev r0_1 : Rect S4096x256 := Rect.unit (s := S4096x256) ![0, 0] S4096x256.size inb_S4096x256_S4096x256_0_0
abbrev r0_2 : Rect S1x128x256 := Rect.unit (s := S1x128x256) ![0, 0, 0] S1x128x256.size inb_S1x128x256_S1x128x256_0_0_0

/-- The output window's staging buffer after the body, from the input windows' blocks: its one store, of the body's
    arithmetic on the loaded blocks. -/
def out0_2 (x0 : Vec F S1x128x4096 .f32) (x1 : Vec F S4096x256 .bf16) : Vec F S1x128x256 .f32 :=
  View.canon [⟨r0_2, k0_pay1 (View.ld x0 r0_0) (View.ld x1 r0_1)⟩]

/-- The store covers the buffer. -/
theorem cover0_2 (p0 : Vec F S1x128x256 .f32) (y : S1x128x256.Idx) :
    ∃ pc ∈ ([⟨r0_2, p0⟩] : List (View.Piece (Elt F) S1x128x256 .f32)), y ∈ pc.1.set :=
  View.cover_of_tiled [⟨r0_2, p0⟩] S1x128x256.size (by rfl) y

set_option maxHeartbeats 1000000 in
/-- The kernel body on whole staging memrefs, the inputs' at contents `xW` and the output's at anything, runs to the
    continuation holding the inputs' as they were and the output's at `out0_2` of the inputs'. -/
theorem sound_kernel0 (c : Dev nD) (E : Set ℕ) (i : grid0.Coords) (arg1 : Memref sig .tc .vmem S1x128x4096 .f32) (harg1 : arg1.IsWhole) (arg2 : Memref sig .tc .vmem S4096x256 .bf16) (harg2 : arg2.IsWhole) (arg3 : Memref sig .tc .vmem S1x128x256 .f32) (harg3 : arg3.IsWhole)
    (x0 : Vec F S1x128x4096 .f32) (x1 : Vec F S4096x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each input's
    buffer at its block and the output's at `out0_2` of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KernelReg1.lean ====
/-
  Pipeline 1, depth step 0: one grid point per batch entry stages that entry's features (128 × 256), its two reduced adjacency
  blocks (128 × 128 and 128 × 32) and, once, the step's four parameter matrices, and writes the new features back. Stated at any
  contents `V` the region is entered from and at any float instance: the block each window holds at a point, what the body leaves
  in the output buffer, the body's triple, the proof data and the body obligation of the pipeline.
-/
import proofs.«144859_j68152541053088_1_alg».proof.Proof.Gen.Kernel.Launch
import proofs.«144859_j68152541053088_1_alg».proof.Proof.Gen.Kernel.Skeleton
import proofs.«144859_j68152541053088_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 of @main: pipeline 1, the kernel `cc1__depth_kernel`, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_0 : Rect S1x128x256 := Rect.unit (s := S1x128x256) ![0, 0, 0] S1x128x256.size inb_S1x128x256_S1x128x256_0_0_0
abbrev r1_1 : Rect S1x128x128 := Rect.unit (s := S1x128x128) ![0, 0, 0] S1x128x128.size inb_S1x128x128_S1x128x128_0_0_0
abbrev r1_2 : Rect S1x128x32 := Rect.unit (s := S1x128x32) ![0, 0, 0] S1x128x32.size inb_S1x128x32_S1x128x32_0_0_0
abbrev r1_3 : Rect S256x256 := Rect.unit (s := S256x256) ![0, 0] S256x256.size inb_S256x256_S256x256_0_0
abbrev r1_4 : Rect S1x256 := Rect.unit (s := S1x256) ![0, 0] S1x256.size inb_S1x256_S1x256_0_0
abbrev r1_5 : Rect S256x256 := Rect.unit (s := S256x256) ![0, 0] S256x256.size inb_S256x256_S256x256_0_0
abbrev r1_6 : Rect S32x256 := Rect.unit (s := S32x256) ![0, 0] S32x256.size inb_S32x256_S32x256_0_0
abbrev r1_7 : Rect S1x128x256 := Rect.unit (s := S1x128x256) ![0, 0, 0] S1x128x256.size inb_S1x128x256_S1x128x256_0_0_0

/-- The output window's staging buffer after the body, from the input windows' blocks: its one store, of the body's
    arithmetic on the loaded blocks. -/
def out1_7 (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) : Vec F S1x128x256 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store covers the buffer. -/
theorem cover1_7 (p0 : Vec F S1x128x256 .f32) (y : S1x128x256.Idx) :
    ∃ pc ∈ ([⟨r1_7, p0⟩] : List (View.Piece (Elt F) S1x128x256 .f32)), y ∈ pc.1.set :=
  View.cover_of_tiled [⟨r1_7, p0⟩] S1x128x256.size (by rfl) y

set_option maxHeartbeats 1000000 in
/-- The kernel body on whole staging memrefs, the inputs' at contents `xW` and the output's at anything, runs to the
    continuation holding the inputs' as they were and the output's at `out1_7` of the inputs'. -/
theorem sound_kernel1 (c : Dev nD) (E : Set ℕ) (i : grid1.Coords) (arg1 : Memref sig .tc .vmem S1x128x256 .f32) (harg1 : arg1.IsWhole) (arg2 : Memref sig .tc .vmem S1x128x128 .f32) (harg2 : arg2.IsWhole) (arg3 : Memref sig .tc .vmem S1x128x32 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S32x256 .f32) (harg7 : arg7.IsWhole) (arg8 : Memref sig .tc .vmem S1x128x256 .f32) (harg8 : arg8.IsWhole)
    (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__depth_kernel i arg1 harg1 arg2 harg2 arg3 harg3 arg4 harg4 arg5 harg5 arg6 harg6 arg7 harg7 arg8 harg8) K := by
  simp only [cc1__depth_kernel_eq_skeleton]; unfold cc1__depth_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of pipeline 1 on core `c`: the arrays as the region finds them; after the body at point `t` each input's
    buffer at its block and the output's at `out1_7` of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KernelReg2.lean ====
/-
  Pipeline 2, depth step 1: one grid point per batch entry stages that entry's features (128 × 256), its two reduced adjacency
  blocks (128 × 128 and 128 × 32) and, once, the step's four parameter matrices, and writes the new features back. Stated at any
  contents `V` the region is entered from and at any float instance: the block each window holds at a point, what the body leaves
  in the output buffer, the body's triple, the proof data and the body obligation of the pipeline.
-/
import proofs.«144859_j68152541053088_1_alg».proof.Proof.Gen.Kernel.Launch
import proofs.«144859_j68152541053088_1_alg».proof.Proof.Gen.Kernel.Skeleton
import proofs.«144859_j68152541053088_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 of @main: pipeline 2, the kernel `cc2__depth_kernel`, at the entry contents `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data
    whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_0 : Rect S1x128x256 := Rect.unit (s := S1x128x256) ![0, 0, 0] S1x128x256.size inb_S1x128x256_S1x128x256_0_0_0
abbrev r2_1 : Rect S1x128x128 := Rect.unit (s := S1x128x128) ![0, 0, 0] S1x128x128.size inb_S1x128x128_S1x128x128_0_0_0
abbrev r2_2 : Rect S1x128x32 := Rect.unit (s := S1x128x32) ![0, 0, 0] S1x128x32.size inb_S1x128x32_S1x128x32_0_0_0
abbrev r2_3 : Rect S256x256 := Rect.unit (s := S256x256) ![0, 0] S256x256.size inb_S256x256_S256x256_0_0
abbrev r2_4 : Rect S1x256 := Rect.unit (s := S1x256) ![0, 0] S1x256.size inb_S1x256_S1x256_0_0
abbrev r2_5 : Rect S256x256 := Rect.unit (s := S256x256) ![0, 0] S256x256.size inb_S256x256_S256x256_0_0
abbrev r2_6 : Rect S32x256 := Rect.unit (s := S32x256) ![0, 0] S32x256.size inb_S32x256_S32x256_0_0
abbrev r2_7 : Rect S1x128x256 := Rect.unit (s := S1x128x256) ![0, 0, 0] S1x128x256.size inb_S1x128x256_S1x128x256_0_0_0

/-- The output window's staging buffer after the body, from the input windows' blocks: its one store, of the body's
    arithmetic on the loaded blocks. -/
def out2_7 (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) : Vec F S1x128x256 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The store covers the buffer. -/
theorem cover2_7 (p0 : Vec F S1x128x256 .f32) (y : S1x128x256.Idx) :
    ∃ pc ∈ ([⟨r2_7, p0⟩] : List (View.Piece (Elt F) S1x128x256 .f32)), y ∈ pc.1.set :=
  View.cover_of_tiled [⟨r2_7, p0⟩] S1x128x256.size (by rfl) y

set_option maxHeartbeats 1000000 in
/-- The kernel body on whole staging memrefs, the inputs' at contents `xW` and the output's at anything, runs to the
    continuation holding the inputs' as they were and the output's at `out2_7` of the inputs'. -/
theorem sound_kernel2 (c : Dev nD) (E : Set ℕ) (i : grid2.Coords) (arg1 : Memref sig .tc .vmem S1x128x256 .f32) (harg1 : arg1.IsWhole) (arg2 : Memref sig .tc .vmem S1x128x128 .f32) (harg2 : arg2.IsWhole) (arg3 : Memref sig .tc .vmem S1x128x32 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S32x256 .f32) (harg7 : arg7.IsWhole) (arg8 : Memref sig .tc .vmem S1x128x256 .f32) (harg8 : arg8.IsWhole)
    (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__depth_kernel i arg1 harg1 arg2 harg2 arg3 harg3 arg4 harg4 arg5 harg5 arg6 harg6 arg7 harg7 arg8 harg8) K := by
  simp only [cc2__depth_kernel_eq_skeleton]; unfold cc2__depth_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of pipeline 2 on core `c`: the arrays as the region finds them; after the body at point `t` each input's
    buffer at its block and the output's at `out2_7` of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KernelReg3.lean ====
/-
  Pipeline 3, depth step 2: one grid point per batch entry stages that entry's features (128 × 256), its two reduced adjacency
  blocks (128 × 128 and 128 × 32) and, once, the step's four parameter matrices, and writes the new features back. Stated at any
  contents `V` the region is entered from and at any float instance: the block each window holds at a point, what the body leaves
  in the output buffer, the body's triple, the proof data and the body obligation of the pipeline.
-/
import proofs.«144859_j68152541053088_1_alg».proof.Proof.Gen.Kernel.Launch
import proofs.«144859_j68152541053088_1_alg».proof.Proof.Gen.Kernel.Skeleton
import proofs.«144859_j68152541053088_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3 of @main: pipeline 3, the kernel `cc3__depth_kernel`, at the entry contents `V` -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof data
    whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof data
    whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole staging buffer -/

abbrev r3_0 : Rect S1x128x256 := Rect.unit (s := S1x128x256) ![0, 0, 0] S1x128x256.size inb_S1x128x256_S1x128x256_0_0_0
abbrev r3_1 : Rect S1x128x128 := Rect.unit (s := S1x128x128) ![0, 0, 0] S1x128x128.size inb_S1x128x128_S1x128x128_0_0_0
abbrev r3_2 : Rect S1x128x32 := Rect.unit (s := S1x128x32) ![0, 0, 0] S1x128x32.size inb_S1x128x32_S1x128x32_0_0_0
abbrev r3_3 : Rect S256x256 := Rect.unit (s := S256x256) ![0, 0] S256x256.size inb_S256x256_S256x256_0_0
abbrev r3_4 : Rect S1x256 := Rect.unit (s := S1x256) ![0, 0] S1x256.size inb_S1x256_S1x256_0_0
abbrev r3_5 : Rect S256x256 := Rect.unit (s := S256x256) ![0, 0] S256x256.size inb_S256x256_S256x256_0_0
abbrev r3_6 : Rect S32x256 := Rect.unit (s := S32x256) ![0, 0] S32x256.size inb_S32x256_S32x256_0_0
abbrev r3_7 : Rect S1x128x256 := Rect.unit (s := S1x128x256) ![0, 0, 0] S1x128x256.size inb_S1x128x256_S1x128x256_0_0_0

/-- The output window's staging buffer after the body, from the input windows' blocks: its one store, of the body's
    arithmetic on the loaded blocks. -/
def out3_7 (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) : Vec F S1x128x256 .f32 :=
  View.canon [⟨r3_7, k3_pay1 (View.ld x0 r3_0) (View.ld x1 r3_1) (View.ld x2 r3_2) (View.ld x3 r3_3) (View.ld x4 r3_4) (View.ld x5 r3_5) (View.ld x6 r3_6)⟩]

/-- The store covers the buffer. -/
theorem cover3_7 (p0 : Vec F S1x128x256 .f32) (y : S1x128x256.Idx) :
    ∃ pc ∈ ([⟨r3_7, p0⟩] : List (View.Piece (Elt F) S1x128x256 .f32)), y ∈ pc.1.set :=
  View.cover_of_tiled [⟨r3_7, p0⟩] S1x128x256.size (by rfl) y

set_option maxHeartbeats 1000000 in
/-- The kernel body on whole staging memrefs, the inputs' at contents `xW` and the output's at anything, runs to the
    continuation holding the inputs' as they were and the output's at `out3_7` of the inputs'. -/
theorem sound_kernel3 (c : Dev nD) (E : Set ℕ) (i : grid3.Coords) (arg1 : Memref sig .tc .vmem S1x128x256 .f32) (harg1 : arg1.IsWhole) (arg2 : Memref sig .tc .vmem S1x128x128 .f32) (harg2 : arg2.IsWhole) (arg3 : Memref sig .tc .vmem S1x128x32 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S32x256 .f32) (harg7 : arg7.IsWhole) (arg8 : Memref sig .tc .vmem S1x128x256 .f32) (harg8 : arg8.IsWhole)
    (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__depth_kernel i arg1 harg1 arg2 harg2 arg3 harg3 arg4 harg4 arg5 harg5 arg6 harg6 arg7 harg7 arg8 harg8) K := by
  simp only [cc3__depth_kernel_eq_skeleton]; unfold cc3__depth_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover3_7 _)

/-! ## The pipeline's proof data -/

/-- The proof data of pipeline 3 on core `c`: the arrays as the region finds them; after the body at point `t` each input's
    buffer at its block and the output's at `out3_7` of the input blocks; the scoped rest and the generator register
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so `sound_kernel3` applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KernelRun.lean ====
/-
  The run of @main as twelve items — five stretches of host operations, then four pipelines with a stretch before each of the
  last three — from the launch to the return, at any float instance. The contents of every unscoped buffer at each boundary
  are a fold from the launch memory (`B0` … `B12`): a stretch applies its operations; a pipeline replaces its windows' arrays
  by what its write-backs leave and keeps every other buffer. `run_all`: every weakly fair execution terminates, nothing
  faulting, with every unscoped buffer at `B12`. The frame (the seven argument arrays end as launched) is read off it, each
  argument walked back through the fold: no stretch writes an argument, and a pipeline only reads it.
-/
import proofs.«144859_j68152541053088_1_alg».proof.Proof.KernelReg0
import proofs.«144859_j68152541053088_1_alg».proof.Proof.KernelReg1
import proofs.«144859_j68152541053088_1_alg».proof.Proof.KernelReg2
import proofs.«144859_j68152541053088_1_alg».proof.Proof.KernelReg3
import proofs.«144859_j68152541053088_1_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After `hostOps0`. -/
abbrev B1 : Dev nD → Valuation τ sig (Elt F) := fun c => StableHlo.after hostOps0 (B0 m ρ c)
/-- After `hostOps0_1`. -/
abbrev B2 : Dev nD → Valuation τ sig (Elt F) := fun c => StableHlo.after hostOps0_1 (B1 m ρ c)
/-- After `hostOps0_2`. -/
abbrev B3 : Dev nD → Valuation τ sig (Elt F) := fun c => StableHlo.after hostOps0_2 (B2 m ρ c)
/-- After `hostOps0_3`. -/
abbrev B4 : Dev nD → Valuation τ sig (Elt F) := fun c => StableHlo.after hostOps0_3 (B3 m ρ c)
/-- After `hostOps0_4`. -/
abbrev B5 : Dev nD → Valuation τ sig (Elt F) := fun c => StableHlo.after hostOps0_4 (B4 m ρ c)
/-- The same read at the TensorCore's references (what pipeline 0's proof data take). -/
abbrev C5 : (c : Dev nD) → (b : Ref sig .tc) → Buf (Elt F) ((c : Thread nD τ).loc b) := fun c b => B5 m ρ c b
/-- At pipeline 0's exit: its arrays at what the pipeline leaves, every other buffer as entered. -/
def B6 (c : Dev nD) : Valuation τ sig (Elt F) :=
  Pipeline.withArrays spec0 c (B5 m ρ c) fun w => (dat0 (C5 m ρ) c).arrAt w cfg0.N
theorem B6_arr (c : Dev nD) (w : Fin cfg0.W) :
    B6 m ρ c (Proc.devRef .tc (Pipeline.arrRef spec0 w)) = (dat0 (C5 m ρ) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m ρ c (Proc.devRef .tc b) = B5 m ρ c (Proc.devRef .tc b) := by
  unfold B6; exact Pipeline.withArrays_of_ne spec0 c _ _ b hb
abbrev C6 : (c : Dev nD) → (b : Ref sig .tc) → Buf (Elt F) ((c : Thread nD τ).loc b) := fun c b => B6 m ρ c b
theorem hF0 (c : Dev nD) (w : Fin cfg0.W) : (dat0 (C5 m ρ) c).arrAt w cfg0.N = C6 m ρ c (Pipeline.arrRef spec0 w) :=
  (B6_arr m ρ c w).symm
theorem hrest0 (c : Dev nD) : ∀ b, b ∉ Finset.univ.image (Pipeline.arrRef spec0) → C6 m ρ c b = C5 m ρ c b :=
  fun b hb => B6_of_ne m ρ c b fun w e => hb (Finset.mem_image.mpr ⟨w, Finset.mem_univ _, e⟩)

/-- After `hostOps1` (pipeline 1's entry). -/
abbrev B7 : Dev nD → Valuation τ sig (Elt F) := fun c => StableHlo.after hostOps1 (B6 m ρ c)
/-- The same read at the TensorCore's references (what pipeline 1's proof data take). -/
abbrev C7 : (c : Dev nD) → (b : Ref sig .tc) → Buf (Elt F) ((c : Thread nD τ).loc b) := fun c b => B7 m ρ c b
/-- At pipeline 1's exit: its arrays at what the pipeline leaves, every other buffer as entered. -/
def B8 (c : Dev nD) : Valuation τ sig (Elt F) :=
  Pipeline.withArrays spec1 c (B7 m ρ c) fun w => (dat1 (C7 m ρ) c).arrAt w cfg1.N
theorem B8_arr (c : Dev nD) (w : Fin cfg1.W) :
    B8 m ρ c (Proc.devRef .tc (Pipeline.arrRef spec1 w)) = (dat1 (C7 m ρ) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m ρ c (Proc.devRef .tc b) = B7 m ρ c (Proc.devRef .tc b) := by
  unfold B8; exact Pipeline.withArrays_of_ne spec1 c _ _ b hb
abbrev C8 : (c : Dev nD) → (b : Ref sig .tc) → Buf (Elt F) ((c : Thread nD τ).loc b) := fun c b => B8 m ρ c b
theorem hF1 (c : Dev nD) (w : Fin cfg1.W) : (dat1 (C7 m ρ) c).arrAt w cfg1.N = C8 m ρ c (Pipeline.arrRef spec1 w) :=
  (B8_arr m ρ c w).symm
theorem hrest1 (c : Dev nD) : ∀ b, b ∉ Finset.univ.image (Pipeline.arrRef spec1) → C8 m ρ c b = C7 m ρ c b :=
  fun b hb => B8_of_ne m ρ c b fun w e => hb (Finset.mem_image.mpr ⟨w, Finset.mem_univ _, e⟩)

/-- After `hostOps2` (pipeline 2's entry). -/
abbrev B9 : Dev nD → Valuation τ sig (Elt F) := fun c => StableHlo.after hostOps2 (B8 m ρ c)
/-- The same read at the TensorCore's references (what pipeline 2's proof data take). -/
abbrev C9 : (c : Dev nD) → (b : Ref sig .tc) → Buf (Elt F) ((c : Thread nD τ).loc b) := fun c b => B9 m ρ c b
/-- At pipeline 2's exit: its arrays at what the pipeline leaves, every other buffer as entered. -/
def B10 (c : Dev nD) : Valuation τ sig (Elt F) :=
  Pipeline.withArrays spec2 c (B9 m ρ c) fun w => (dat2 (C9 m ρ) c).arrAt w cfg2.N
theorem B10_arr (c : Dev nD) (w : Fin cfg2.W) :
    B10 m ρ c (Proc.devRef .tc (Pipeline.arrRef spec2 w)) = (dat2 (C9 m ρ) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m ρ c (Proc.devRef .tc b) = B9 m ρ c (Proc.devRef .tc b) := by
  unfold B10; exact Pipeline.withArrays_of_ne spec2 c _ _ b hb
abbrev C10 : (c : Dev nD) → (b : Ref sig .tc) → Buf (Elt F) ((c : Thread nD τ).loc b) := fun c b => B10 m ρ c b
theorem hF2 (c : Dev nD) (w : Fin cfg2.W) : (dat2 (C9 m ρ) c).arrAt w cfg2.N = C10 m ρ c (Pipeline.arrRef spec2 w) :=
  (B10_arr m ρ c w).symm
theorem hrest2 (c : Dev nD) : ∀ b, b ∉ Finset.univ.image (Pipeline.arrRef spec2) → C10 m ρ c b = C9 m ρ c b :=
  fun b hb => B10_of_ne m ρ c b fun w e => hb (Finset.mem_image.mpr ⟨w, Finset.mem_univ _, e⟩)

/-- After `hostOps3` (pipeline 3's entry). -/
abbrev B11 : Dev nD → Valuation τ sig (Elt F) := fun c => StableHlo.after hostOps3 (B10 m ρ c)
/-- The same read at the TensorCore's references (what pipeline 3's proof data take). -/
abbrev C11 : (c : Dev nD) → (b : Ref sig .tc) → Buf (Elt F) ((c : Thread nD τ).loc b) := fun c b => B11 m ρ c b
/-- At pipeline 3's exit: its arrays at what the pipeline leaves, every other buffer as entered. -/
def B12 (c : Dev nD) : Valuation τ sig (Elt F) :=
  Pipeline.withArrays spec3 c (B11 m ρ c) fun w => (dat3 (C11 m ρ) c).arrAt w cfg3.N
theorem B12_arr (c : Dev nD) (w : Fin cfg3.W) :
    B12 m ρ c (Proc.devRef .tc (Pipeline.arrRef spec3 w)) = (dat3 (C11 m ρ) c).arrAt w cfg3.N := by
  unfold B12; exact Pipeline.withArrays_arr spec3 launch3.win.arr_inj c _ _ w
theorem B12_of_ne (c : Dev nD) (b : Ref sig .tc) (hb : ∀ w, Pipeline.arrRef spec3 w ≠ b) :
    B12 m ρ c (Proc.devRef .tc b) = B11 m ρ c (Proc.devRef .tc b) := by
  unfold B12; exact Pipeline.withArrays_of_ne spec3 c _ _ b hb
abbrev C12 : (c : Dev nD) → (b : Ref sig .tc) → Buf (Elt F) ((c : Thread nD τ).loc b) := fun c b => B12 m ρ c b
theorem hF3 (c : Dev nD) (w : Fin cfg3.W) : (dat3 (C11 m ρ) c).arrAt w cfg3.N = C12 m ρ c (Pipeline.arrRef spec3 w) :=
  (B12_arr m ρ c w).symm
theorem hrest3 (c : Dev nD) : ∀ b, b ∉ Finset.univ.image (Pipeline.arrRef spec3) → C12 m ρ c b = C11 m ρ c b :=
  fun b hb => B12_of_ne m ρ c b fun w e => hb (Finset.mem_image.mpr ⟨w, Finset.mem_univ _, e⟩)

/-! ## What a stretch leaves alone: a reference none of its operations writes -/

theorem B1_of (c : Dev nD) (r : Ref sig .tc) (h : r ∉ hostOps0_W) : B1 m ρ c r = B0 m ρ c r :=
  StableHlo.after_of_writes_sub hostOps0 _ hostOps0_writes h
theorem B2_of (c : Dev nD) (r : Ref sig .tc) (h : r ∉ hostOps0_1_W) : B2 m ρ c r = B1 m ρ c r :=
  StableHlo.after_of_writes_sub hostOps0_1 _ hostOps0_1_writes h
theorem B3_of (c : Dev nD) (r : Ref sig .tc) (h : r ∉ hostOps0_2_W) : B3 m ρ c r = B2 m ρ c r :=
  StableHlo.after_of_writes_sub hostOps0_2 _ hostOps0_2_writes h
theorem B4_of (c : Dev nD) (r : Ref sig .tc) (h : r ∉ hostOps0_3_W) : B4 m ρ c r = B3 m ρ c r :=
  StableHlo.after_of_writes_sub hostOps0_3 _ hostOps0_3_writes h
theorem B5_of (c : Dev nD) (r : Ref sig .tc) (h : r ∉ hostOps0_4_W) : B5 m ρ c r = B4 m ρ c r :=
  StableHlo.after_of_writes_sub hostOps0_4 _ hostOps0_4_writes h
theorem B7_of (c : Dev nD) (r : Ref sig .tc) (h : r ∉ hostOps1_W) : B7 m ρ c r = B6 m ρ c r :=
  StableHlo.after_of_writes_sub hostOps1 _ hostOps1_writes h
theorem B9_of (c : Dev nD) (r : Ref sig .tc) (h : r ∉ hostOps2_W) : B9 m ρ c r = B8 m ρ c r :=
  StableHlo.after_of_writes_sub hostOps2 _ hostOps2_writes h
theorem B11_of (c : Dev nD) (r : Ref sig .tc) (h : r ∉ hostOps3_W) : B11 m ρ c r = B10 m ρ c r :=
  StableHlo.after_of_writes_sub hostOps3 _ hostOps3_writes h

/-! ## The arguments end as launched -/

theorem B12_main_arg0 (c : Dev nD) : B12 m ρ c (Proc.devRef .tc main_arg0) = m ((c : Thread nD τ).loc main_arg0) :=
  (B12_of_ne m ρ c main_arg0 (by decide)).trans <| (B11_of m ρ c main_arg0 (by decide)).trans <| (B10_of_ne m ρ c main_arg0 (by decide)).trans <| (B9_of m ρ c main_arg0 (by decide)).trans <| ((B8_arr m ρ c 0).trans (((dat1 (C7 m ρ) c).arrAt_in 0 rfl _).trans (A_eq1 (C7 m ρ) c 0))).trans <| (B7_of m ρ c main_arg0 (by decide)).trans <| (B6_of_ne m ρ c main_arg0 (by decide)).trans <| (B5_of m ρ c main_arg0 (by decide)).trans <| (B4_of m ρ c main_arg0 (by decide)).trans <| (B3_of m ρ c main_arg0 (by decide)).trans <| (B2_of m ρ c main_arg0 (by decide)).trans <| (B1_of m ρ c main_arg0 (by decide)).trans rfl
theorem B12_main_arg1 (c : Dev nD) : B12 m ρ c (Proc.devRef .tc main_arg1) = m ((c : Thread nD τ).loc main_arg1) :=
  (B12_of_ne m ρ c main_arg1 (by decide)).trans <| (B11_of m ρ c main_arg1 (by decide)).trans <| (B10_of_ne m ρ c main_arg1 (by decide)).trans <| (B9_of m ρ c main_arg1 (by decide)).trans <| (B8_of_ne m ρ c main_arg1 (by decide)).trans <| (B7_of m ρ c main_arg1 (by decide)).trans <| ((B6_arr m ρ c 0).trans (((dat0 (C5 m ρ) c).arrAt_in 0 rfl _).trans (A_eq0 (C5 m ρ) c 0))).trans <| (B5_of m ρ c main_arg1 (by decide)).trans <| (B4_of m ρ c main_arg1 (by decide)).trans <| (B3_of m ρ c main_arg1 (by decide)).trans <| (B2_of m ρ c main_arg1 (by decide)).trans <| (B1_of m ρ c main_arg1 (by decide)).trans rfl
theorem B12_main_arg2 (c : Dev nD) : B12 m ρ c (Proc.devRef .tc main_arg2) = m ((c : Thread nD τ).loc main_arg2) :=
  (B12_of_ne m ρ c main_arg2 (by decide)).trans <| (B11_of m ρ c main_arg2 (by decide)).trans <| (B10_of_ne m ρ c main_arg2 (by decide)).trans <| (B9_of m ρ c main_arg2 (by decide)).trans <| (B8_of_ne m ρ c main_arg2 (by decide)).trans <| (B7_of m ρ c main_arg2 (by decide)).trans <| (B6_of_ne m ρ c main_arg2 (by decide)).trans <| (B5_of m ρ c main_arg2 (by decide)).trans <| (B4_of m ρ c main_arg2 (by decide)).trans <| (B3_of m ρ c main_arg2 (by decide)).trans <| (B2_of m ρ c main_arg2 (by decide)).trans <| (B1_of m ρ c main_arg2 (by decide)).trans rfl
theorem B12_main_arg3 (c : Dev nD) : B12 m ρ c (Proc.devRef .tc main_arg3) = m ((c : Thread nD τ).loc main_arg3) :=
  (B12_of_ne m ρ c main_arg3 (by decide)).trans <| (B11_of m ρ c main_arg3 (by decide)).trans <| (B10_of_ne m ρ c main_arg3 (by decide)).trans <| (B9_of m ρ c main_arg3 (by decide)).trans <| (B8_of_ne m ρ c main_arg3 (by decide)).trans <| (B7_of m ρ c main_arg3 (by decide)).trans <| (B6_of_ne m ρ c main_arg3 (by decide)).trans <| (B5_of m ρ c main_arg3 (by decide)).trans <| (B4_of m ρ c main_arg3 (by decide)).trans <| (B3_of m ρ c main_arg3 (by decide)).trans <| (B2_of m ρ c main_arg3 (by decide)).trans <| (B1_of m ρ c main_arg3 (by decide)).trans rfl
theorem B12_main_arg4 (c : Dev nD) : B12 m ρ c (Proc.devRef .tc main_arg4) = m ((c : Thread nD τ).loc main_arg4) :=
  (B12_of_ne m ρ c main_arg4 (by decide)).trans <| (B11_of m ρ c main_arg4 (by decide)).trans <| (B10_of_ne m ρ c main_arg4 (by decide)).trans <| (B9_of m ρ c main_arg4 (by decide)).trans <| (B8_of_ne m ρ c main_arg4 (by decide)).trans <| (B7_of m ρ c main_arg4 (by decide)).trans <| (B6_of_ne m ρ c main_arg4 (by decide)).trans <| (B5_of m ρ c main_arg4 (by decide)).trans <| (B4_of m ρ c main_arg4 (by decide)).trans <| (B3_of m ρ c main_arg4 (by decide)).trans <| (B2_of m ρ c main_arg4 (by decide)).trans <| (B1_of m ρ c main_arg4 (by decide)).trans rfl
theorem B12_main_arg5 (c : Dev nD) : B12 m ρ c (Proc.devRef .tc main_arg5) = m ((c : Thread nD τ).loc main_arg5) :=
  (B12_of_ne m ρ c main_arg5 (by decide)).trans <| (B11_of m ρ c main_arg5 (by decide)).trans <| (B10_of_ne m ρ c main_arg5 (by decide)).trans <| (B9_of m ρ c main_arg5 (by decide)).trans <| (B8_of_ne m ρ c main_arg5 (by decide)).trans <| (B7_of m ρ c main_arg5 (by decide)).trans <| (B6_of_ne m ρ c main_arg5 (by decide)).trans <| (B5_of m ρ c main_arg5 (by decide)).trans <| (B4_of m ρ c main_arg5 (by decide)).trans <| (B3_of m ρ c main_arg5 (by decide)).trans <| (B2_of m ρ c main_arg5 (by decide)).trans <| (B1_of m ρ c main_arg5 (by decide)).trans rfl
theorem B12_main_arg6 (c : Dev nD) : B12 m ρ c (Proc.devRef .tc main_arg6) = m ((c : Thread nD τ).loc main_arg6) :=
  (B12_of_ne m ρ c main_arg6 (by decide)).trans <| (B11_of m ρ c main_arg6 (by decide)).trans <| (B10_of_ne m ρ c main_arg6 (by decide)).trans <| (B9_of m ρ c main_arg6 (by decide)).trans <| (B8_of_ne m ρ c main_arg6 (by decide)).trans <| (B7_of m ρ c main_arg6 (by decide)).trans <| (B6_of_ne m ρ c main_arg6 (by decide)).trans <| (B5_of m ρ c main_arg6 (by decide)).trans <| (B4_of m ρ c main_arg6 (by decide)).trans <| (B3_of m ρ c main_arg6 (by decide)).trans <| (B2_of m ρ c main_arg6 (by decide)).trans <| (B1_of m ρ c main_arg6 (by decide)).trans rfl

/-! ## The proof data family and the thread state -/

/-- No pipeline has a prefetched table. -/
abbrev noTables : (p : Fin 4) → (pcfgs (F := F) p).Adm := fun p => (cfgs p).toPCfg_adm
/-- Every pipeline's proof data, each at its region's entry contents. -/
def pdata : (p : Fin 4) → (c : Dev nD) → Dat τ (Elt F) Unit ℕ (UR sig nD τ) ℕ (Pipeline.pin (pcfgs (F := F)) noTables p) c
  | ⟨0, _⟩ => fun c => dat0 (C5 m ρ) c
  | ⟨1, _⟩ => fun c => dat1 (C7 m ρ) c
  | ⟨2, _⟩ => fun c => dat2 (C9 m ρ) c
  | ⟨3, _⟩ => fun c => dat3 (C11 m ρ) c
abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every item: the core's generator register at some state and its dues, at nothing. -/
abbrev Rest (c : Dev nD) : sProp 𝕄 := iprop((∃ r, prngReg c r) ∗ ∃ W, owes (c : Thread nD τ) (0 : CellTallies nD τ sig Unit) W)
/-- A host stretch as an item, from the contents `W`, `Rest` riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B12`, the generator register at some state. -/
abbrev Tlast (c : Dev nD) : sProp 𝕄 := iprop(StableHlo.held (c : Thread nD τ) (Pipeline.ucRefs τ sig) (B12 m ρ c) ∗ ∃ r, prngReg c r)

/-! ## The pipelines as items -/

set_option backward.isDefEq.respectTransparency.types false in
/-- Pipeline 0 over the thread state: entered from every unscoped buffer at `B5`, left at `B6`. Its arrays are split out of the
    unscoped buffers and put back at the exit contents; the generator register goes into the pipeline's invariant and comes out;
    nothing is owed; the kernel has no semaphore of its own. -/
def region0 : Pipeline.RegionSeg (pcfgs (F := F)) noTables (pdata m ρ) () defs₀ 𝒱n Lz lvz 0 where
  win := launch0.win.to₀
  block_pos := launch0.block_pos
  stage_whole := launch0.stage_whole
  K := PEmpty
  osem k := k.elim
  ho := Pipeline.OwnSemFacts.none _
  hbody c := (body_obligation0 (C5 m ρ) c).loose
  hwaits := Pipeline.hwaits_of_owed_zero _ _ _ _ Lz lvz 0 fun _ _ => rfl
  pre c := iprop(StableHlo.held (c : Thread nD τ) (Pipeline.ucRefs τ sig) (B5 m ρ c) ∗ Rest c)
  post c := iprop(StableHlo.held (c : Thread nD τ) (Pipeline.ucRefs τ sig) (B6 m ρ c) ∗ Rest c)
  X c := iprop(∃ r, prngReg c r)
  Y c := iprop(∃ r, prngReg c r)
  Z c := Pipeline.unscopedRest (Ix := Unit) (Name := ℕ) (U := UR sig nD τ) (Lvl := ℕ) spec0 c (C5 m ρ c)
  hentry c := by
    rw [Pipeline.ownSems0_none]
    have hsplit := Pipeline.arrays_of_unscopedBufs (p := 0) (pcfgs (F := F)) noTables (pdata m ρ) launch0.win launch0.arr_whole c
      ((pdata m ρ 0 c).share_full fun _ => rfl) (C5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdata m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdata m ρ) ((pdata m ρ 0 c).share_full fun _ => rfl)
      (C5 m ρ c) (C6 m ρ c) ((pdata m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at `B7`, left at `B8`. Its arrays are split out of the
    unscoped buffers and put back at the exit contents; the generator register goes into the pipeline's invariant and comes out;
    nothing is owed; the kernel has no semaphore of its own. -/
def region1 : Pipeline.RegionSeg (pcfgs (F := F)) noTables (pdata m ρ) () defs₀ 𝒱n Lz lvz 1 where
  win := launch1.win.to₀
  block_pos := launch1.block_pos
  stage_whole := launch1.stage_whole
  K := PEmpty
  osem k := k.elim
  ho := Pipeline.OwnSemFacts.none _
  hbody c := (body_obligation1 (C7 m ρ) c).loose
  hwaits := Pipeline.hwaits_of_owed_zero _ _ _ _ Lz lvz 1 fun _ _ => rfl
  pre c := iprop(StableHlo.held (c : Thread nD τ) (Pipeline.ucRefs τ sig) (B7 m ρ c) ∗ Rest c)
  post c := iprop(StableHlo.held (c : Thread nD τ) (Pipeline.ucRefs τ sig) (B8 m ρ c) ∗ Rest c)
  X c := iprop(∃ r, prngReg c r)
  Y c := iprop(∃ r, prngReg c r)
  Z c := Pipeline.unscopedRest (Ix := Unit) (Name := ℕ) (U := UR sig nD τ) (Lvl := ℕ) spec1 c (C7 m ρ c)
  hentry c := by
    rw [Pipeline.ownSems0_none]
    have hsplit := Pipeline.arrays_of_unscopedBufs (p := 1) (pcfgs (F := F)) noTables (pdata m ρ) launch1.win launch1.arr_whole c
      ((pdata m ρ 1 c).share_full fun _ => rfl) (C7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdata m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdata m ρ) ((pdata m ρ 1 c).share_full fun _ => rfl)
      (C7 m ρ c) (C8 m ρ c) ((pdata m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at `B9`, left at `B10`. Its arrays are split out of the
    unscoped buffers and put back at the exit contents; the generator register goes into the pipeline's invariant and comes out;
    nothing is owed; the kernel has no semaphore of its own. -/
def region2 : Pipeline.RegionSeg (pcfgs (F := F)) noTables (pdata m ρ) () defs₀ 𝒱n Lz lvz 2 where
  win := launch2.win.to₀
  block_pos := launch2.block_pos
  stage_whole := launch2.stage_whole
  K := PEmpty
  osem k := k.elim
  ho := Pipeline.OwnSemFacts.none _
  hbody c := (body_obligation2 (C9 m ρ) c).loose
  hwaits := Pipeline.hwaits_of_owed_zero _ _ _ _ Lz lvz 2 fun _ _ => rfl
  pre c := iprop(StableHlo.held (c : Thread nD τ) (Pipeline.ucRefs τ sig) (B9 m ρ c) ∗ Rest c)
  post c := iprop(StableHlo.held (c : Thread nD τ) (Pipeline.ucRefs τ sig) (B10 m ρ c) ∗ Rest c)
  X c := iprop(∃ r, prngReg c r)
  Y c := iprop(∃ r, prngReg c r)
  Z c := Pipeline.unscopedRest (Ix := Unit) (Name := ℕ) (U := UR sig nD τ) (Lvl := ℕ) spec2 c (C9 m ρ c)
  hentry c := by
    rw [Pipeline.ownSems0_none]
    have hsplit := Pipeline.arrays_of_unscopedBufs (p := 2) (pcfgs (F := F)) noTables (pdata m ρ) launch2.win launch2.arr_whole c
      ((pdata m ρ 2 c).share_full fun _ => rfl) (C9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdata m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdata m ρ) ((pdata m ρ 2 c).share_full fun _ => rfl)
      (C9 m ρ c) (C10 m ρ c) ((pdata m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at `B11`, left at `B12`. Its arrays are split out of the
    unscoped buffers and put back at the exit contents; the generator register goes into the pipeline's invariant and comes out;
    nothing is owed; the kernel has no semaphore of its own. -/
def region3 : Pipeline.RegionSeg (pcfgs (F := F)) noTables (pdata m ρ) () defs₀ 𝒱n Lz lvz 3 where
  win := launch3.win.to₀
  block_pos := launch3.block_pos
  stage_whole := launch3.stage_whole
  K := PEmpty
  osem k := k.elim
  ho := Pipeline.OwnSemFacts.none _
  hbody c := (body_obligation3 (C11 m ρ) c).loose
  hwaits := Pipeline.hwaits_of_owed_zero _ _ _ _ Lz lvz 3 fun _ _ => rfl
  pre c := iprop(StableHlo.held (c : Thread nD τ) (Pipeline.ucRefs τ sig) (B11 m ρ c) ∗ Rest c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (C11 m ρ c)
  hentry c := by
    rw [Pipeline.ownSems0_none]
    have hsplit := Pipeline.arrays_of_unscopedBufs (p := 3) (pcfgs (F := F)) noTables (pdata m ρ) launch3.win launch3.arr_whole c
      ((pdata m ρ 3 c).share_full fun _ => rfl) (C11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdata m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdata m ρ) ((pdata m ρ 3 c).share_full fun _ => rfl)
      (C11 m ρ c) (C12 m ρ c) ((pdata m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's twelve items in order. -/
abbrev items : List (Pipeline.Seg (pcfgs (F := F)) noTables (pdata m ρ) () defs₀ 𝒱n Lz lvz) :=
  [ .host (hostItem hostOps0 hostOps0_sub hostOps0_fresh (B0 m ρ)),
    .host (hostItem hostOps0_1 hostOps0_1_sub hostOps0_1_fresh (B1 m ρ)),
    .host (hostItem hostOps0_2 hostOps0_2_sub hostOps0_2_fresh (B2 m ρ)),
    .host (hostItem hostOps0_3 hostOps0_3_sub hostOps0_3_fresh (B3 m ρ)),
    .host (hostItem hostOps0_4 hostOps0_4_sub hostOps0_4_fresh (B4 m ρ)),
    .region (region0 m ρ),
    .host (hostItem hostOps1 hostOps1_sub hostOps1_fresh (B6 m ρ)),
    .region (region1 m ρ),
    .host (hostItem hostOps2 hostOps2_sub hostOps2_fresh (B8 m ρ)),
    .region (region2 m ρ),
    .host (hostItem hostOps3 hostOps3_sub hostOps3_fresh (B10 m ρ)),
    .region (region3 m ρ) ]

set_option backward.isDefEq.respectTransparency.types false in
/-- At the compiled mesh, from any memory with zero counters, every weakly fair execution of @main on the TensorCores terminates,
    nothing faulting, and every final state has every unscoped buffer at the last boundary's contents `B12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m ρ c b) :=
  Pipeline.θ_run_regions_kit (pcfgs (F := F)) noTables (pdata m ρ) () cellOf_inj emb₁ defs₀ 𝒱n Lz lvz m ρ main (items m ρ)
    (fun c Q => by
      rewrite [main_chain c, Pipeline.Seg.run_eq_chain,
        show (items m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tlast m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m ρ c b)
    (hfin := fun c s' => by
      iintro ⟨⟨Hh, -⟩, HSI⟩
      unfold StableHlo.held
      imodintro
      iapply (pointsTo_read_all (Pipeline.ucRefs τ sig) (fun b => (((c : Thread nD τ)).1, b)) (B12 m ρ c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (B12_main_arg0 m ρ c),
     (h c _ (mem_uc main_arg1 (by decide))).trans (B12_main_arg1 m ρ c),
     (h c _ (mem_uc main_arg2 (by decide))).trans (B12_main_arg2 m ρ c),
     (h c _ (mem_uc main_arg3 (by decide))).trans (B12_main_arg3 m ρ c),
     (h c _ (mem_uc main_arg4 (by decide))).trans (B12_main_arg4 m ρ c),
     (h c _ (mem_uc main_arg5 (by decide))).trans (B12_main_arg5 m ρ c),
     (h c _ (mem_uc main_arg6 (by decide))).trans (B12_main_arg6 m ρ c)⟩) (run_all m ρ)

end Cert.Kernel.Fr

end
-- ==== Proof.KernelIdealReg0.lean ====
/-
  Pipeline 0, the adjacency reduction: one grid point per batch entry stages that entry's 128 × 4096 adjacency block and the whole
  4096 × 256 selection matrix, and writes their product, a 128 × 256 block, back. Stated at any contents `V` the region is entered
  from and at any float instance: the block each window holds at a point, what the body leaves in the output buffer, the body's
  triple, the proof data and the body obligation of the pipeline.
-/
import proofs.«144859_j68152541053088_1_alg».proof.Proof.Gen.KernelIdeal.Launch
import proofs.«144859_j68152541053088_1_alg».proof.Proof.Gen.KernelIdeal.Skeleton
import proofs.«144859_j68152541053088_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0 of @main: pipeline 0, the kernel `cc0__reduce_kernel`, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev r0_0 : Rect S1x128x4096 := Rect.unit (s := S1x128x4096) ![0, 0, 0] S1x128x4096.size inb_S1x128x4096_S1x128x4096_0_0_0
abbrev r0_1 : Rect S4096x256 := Rect.unit (s := S4096x256) ![0, 0] S4096x256.size inb_S4096x256_S4096x256_0_0
abbrev r0_2 : Rect S1x128x256 := Rect.unit (s := S1x128x256) ![0, 0, 0] S1x128x256.size inb_S1x128x256_S1x128x256_0_0_0

/-- The output window's staging buffer after the body, from the input windows' blocks: its one store, of the body's
    arithmetic on the loaded blocks. -/
def out0_2 (x0 : Vec F S1x128x4096 .f32) (x1 : Vec F S4096x256 .bf16) : Vec F S1x128x256 .f32 :=
  View.canon [⟨r0_2, k0_pay1 (View.ld x0 r0_0) (View.ld x1 r0_1)⟩]

/-- The store covers the buffer. -/
theorem cover0_2 (p0 : Vec F S1x128x256 .f32) (y : S1x128x256.Idx) :
    ∃ pc ∈ ([⟨r0_2, p0⟩] : List (View.Piece (Elt F) S1x128x256 .f32)), y ∈ pc.1.set :=
  View.cover_of_tiled [⟨r0_2, p0⟩] S1x128x256.size (by rfl) y

set_option maxHeartbeats 1000000 in
/-- The kernel body on whole staging memrefs, the inputs' at contents `xW` and the output's at anything, runs to the
    continuation holding the inputs' as they were and the output's at `out0_2` of the inputs'. -/
theorem sound_kernel0 (c : Dev nD) (E : Set ℕ) (i : grid0.Coords) (arg1 : Memref sig .tc .vmem S1x128x4096 .f32) (harg1 : arg1.IsWhole) (arg2 : Memref sig .tc .vmem S4096x256 .bf16) (harg2 : arg2.IsWhole) (arg3 : Memref sig .tc .vmem S1x128x256 .f32) (harg3 : arg3.IsWhole)
    (x0 : Vec F S1x128x4096 .f32) (x1 : Vec F S4096x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each input's
    buffer at its block and the output's at `out0_2` of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdealReg1.lean ====
/-
  Pipeline 1, depth step 0: one grid point per batch entry stages that entry's features (128 × 256), its two reduced adjacency
  blocks (128 × 128 and 128 × 32) and, once, the step's four parameter matrices, and writes the new features back. Stated at any
  contents `V` the region is entered from and at any float instance: the block each window holds at a point, what the body leaves
  in the output buffer, the body's triple, the proof data and the body obligation of the pipeline.
-/
import proofs.«144859_j68152541053088_1_alg».proof.Proof.Gen.KernelIdeal.Launch
import proofs.«144859_j68152541053088_1_alg».proof.Proof.Gen.KernelIdeal.Skeleton
import proofs.«144859_j68152541053088_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 of @main: pipeline 1, the kernel `cc1__depth_kernel`, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_0 : Rect S1x128x256 := Rect.unit (s := S1x128x256) ![0, 0, 0] S1x128x256.size inb_S1x128x256_S1x128x256_0_0_0
abbrev r1_1 : Rect S1x128x128 := Rect.unit (s := S1x128x128) ![0, 0, 0] S1x128x128.size inb_S1x128x128_S1x128x128_0_0_0
abbrev r1_2 : Rect S1x128x32 := Rect.unit (s := S1x128x32) ![0, 0, 0] S1x128x32.size inb_S1x128x32_S1x128x32_0_0_0
abbrev r1_3 : Rect S256x256 := Rect.unit (s := S256x256) ![0, 0] S256x256.size inb_S256x256_S256x256_0_0
abbrev r1_4 : Rect S1x256 := Rect.unit (s := S1x256) ![0, 0] S1x256.size inb_S1x256_S1x256_0_0
abbrev r1_5 : Rect S256x256 := Rect.unit (s := S256x256) ![0, 0] S256x256.size inb_S256x256_S256x256_0_0
abbrev r1_6 : Rect S32x256 := Rect.unit (s := S32x256) ![0, 0] S32x256.size inb_S32x256_S32x256_0_0
abbrev r1_7 : Rect S1x128x256 := Rect.unit (s := S1x128x256) ![0, 0, 0] S1x128x256.size inb_S1x128x256_S1x128x256_0_0_0

/-- The output window's staging buffer after the body, from the input windows' blocks: its one store, of the body's
    arithmetic on the loaded blocks. -/
def out1_7 (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) : Vec F S1x128x256 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store covers the buffer. -/
theorem cover1_7 (p0 : Vec F S1x128x256 .f32) (y : S1x128x256.Idx) :
    ∃ pc ∈ ([⟨r1_7, p0⟩] : List (View.Piece (Elt F) S1x128x256 .f32)), y ∈ pc.1.set :=
  View.cover_of_tiled [⟨r1_7, p0⟩] S1x128x256.size (by rfl) y

set_option maxHeartbeats 1000000 in
/-- The kernel body on whole staging memrefs, the inputs' at contents `xW` and the output's at anything, runs to the
    continuation holding the inputs' as they were and the output's at `out1_7` of the inputs'. -/
theorem sound_kernel1 (c : Dev nD) (E : Set ℕ) (i : grid1.Coords) (arg1 : Memref sig .tc .vmem S1x128x256 .f32) (harg1 : arg1.IsWhole) (arg2 : Memref sig .tc .vmem S1x128x128 .f32) (harg2 : arg2.IsWhole) (arg3 : Memref sig .tc .vmem S1x128x32 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S32x256 .f32) (harg7 : arg7.IsWhole) (arg8 : Memref sig .tc .vmem S1x128x256 .f32) (harg8 : arg8.IsWhole)
    (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__depth_kernel i arg1 harg1 arg2 harg2 arg3 harg3 arg4 harg4 arg5 harg5 arg6 harg6 arg7 harg7 arg8 harg8) K := by
  simp only [cc1__depth_kernel_eq_skeleton]; unfold cc1__depth_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of pipeline 1 on core `c`: the arrays as the region finds them; after the body at point `t` each input's
    buffer at its block and the output's at `out1_7` of the input blocks; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdealReg2.lean ====
/-
  Pipeline 2, depth step 1: one grid point per batch entry stages that entry's features (128 × 256), its two reduced adjacency
  blocks (128 × 128 and 128 × 32) and, once, the step's four parameter matrices, and writes the new features back. Stated at any
  contents `V` the region is entered from and at any float instance: the block each window holds at a point, what the body leaves
  in the output buffer, the body's triple, the proof data and the body obligation of the pipeline.
-/
import proofs.«144859_j68152541053088_1_alg».proof.Proof.Gen.KernelIdeal.Launch
import proofs.«144859_j68152541053088_1_alg».proof.Proof.Gen.KernelIdeal.Skeleton
import proofs.«144859_j68152541053088_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 of @main: pipeline 2, the kernel `cc2__depth_kernel`, at the entry contents `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data
    whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_0 : Rect S1x128x256 := Rect.unit (s := S1x128x256) ![0, 0, 0] S1x128x256.size inb_S1x128x256_S1x128x256_0_0_0
abbrev r2_1 : Rect S1x128x128 := Rect.unit (s := S1x128x128) ![0, 0, 0] S1x128x128.size inb_S1x128x128_S1x128x128_0_0_0
abbrev r2_2 : Rect S1x128x32 := Rect.unit (s := S1x128x32) ![0, 0, 0] S1x128x32.size inb_S1x128x32_S1x128x32_0_0_0
abbrev r2_3 : Rect S256x256 := Rect.unit (s := S256x256) ![0, 0] S256x256.size inb_S256x256_S256x256_0_0
abbrev r2_4 : Rect S1x256 := Rect.unit (s := S1x256) ![0, 0] S1x256.size inb_S1x256_S1x256_0_0
abbrev r2_5 : Rect S256x256 := Rect.unit (s := S256x256) ![0, 0] S256x256.size inb_S256x256_S256x256_0_0
abbrev r2_6 : Rect S32x256 := Rect.unit (s := S32x256) ![0, 0] S32x256.size inb_S32x256_S32x256_0_0
abbrev r2_7 : Rect S1x128x256 := Rect.unit (s := S1x128x256) ![0, 0, 0] S1x128x256.size inb_S1x128x256_S1x128x256_0_0_0

/-- The output window's staging buffer after the body, from the input windows' blocks: its one store, of the body's
    arithmetic on the loaded blocks. -/
def out2_7 (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) : Vec F S1x128x256 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The store covers the buffer. -/
theorem cover2_7 (p0 : Vec F S1x128x256 .f32) (y : S1x128x256.Idx) :
    ∃ pc ∈ ([⟨r2_7, p0⟩] : List (View.Piece (Elt F) S1x128x256 .f32)), y ∈ pc.1.set :=
  View.cover_of_tiled [⟨r2_7, p0⟩] S1x128x256.size (by rfl) y

set_option maxHeartbeats 1000000 in
/-- The kernel body on whole staging memrefs, the inputs' at contents `xW` and the output's at anything, runs to the
    continuation holding the inputs' as they were and the output's at `out2_7` of the inputs'. -/
theorem sound_kernel2 (c : Dev nD) (E : Set ℕ) (i : grid2.Coords) (arg1 : Memref sig .tc .vmem S1x128x256 .f32) (harg1 : arg1.IsWhole) (arg2 : Memref sig .tc .vmem S1x128x128 .f32) (harg2 : arg2.IsWhole) (arg3 : Memref sig .tc .vmem S1x128x32 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S32x256 .f32) (harg7 : arg7.IsWhole) (arg8 : Memref sig .tc .vmem S1x128x256 .f32) (harg8 : arg8.IsWhole)
    (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__depth_kernel i arg1 harg1 arg2 harg2 arg3 harg3 arg4 harg4 arg5 harg5 arg6 harg6 arg7 harg7 arg8 harg8) K := by
  simp only [cc2__depth_kernel_eq_skeleton]; unfold cc2__depth_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of pipeline 2 on core `c`: the arrays as the region finds them; after the body at point `t` each input's
    buffer at its block and the output's at `out2_7` of the input blocks; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KernelIdealReg3.lean ====
/-
  Pipeline 3, depth step 2: one grid point per batch entry stages that entry's features (128 × 256), its two reduced adjacency
  blocks (128 × 128 and 128 × 32) and, once, the step's four parameter matrices, and writes the new features back. Stated at any
  contents `V` the region is entered from and at any float instance: the block each window holds at a point, what the body leaves
  in the output buffer, the body's triple, the proof data and the body obligation of the pipeline.
-/
import proofs.«144859_j68152541053088_1_alg».proof.Proof.Gen.KernelIdeal.Launch
import proofs.«144859_j68152541053088_1_alg».proof.Proof.Gen.KernelIdeal.Skeleton
import proofs.«144859_j68152541053088_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3 of @main: pipeline 3, the kernel `cc3__depth_kernel`, at the entry contents `V` -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof data
    whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof data
    whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole staging buffer -/

abbrev r3_0 : Rect S1x128x256 := Rect.unit (s := S1x128x256) ![0, 0, 0] S1x128x256.size inb_S1x128x256_S1x128x256_0_0_0
abbrev r3_1 : Rect S1x128x128 := Rect.unit (s := S1x128x128) ![0, 0, 0] S1x128x128.size inb_S1x128x128_S1x128x128_0_0_0
abbrev r3_2 : Rect S1x128x32 := Rect.unit (s := S1x128x32) ![0, 0, 0] S1x128x32.size inb_S1x128x32_S1x128x32_0_0_0
abbrev r3_3 : Rect S256x256 := Rect.unit (s := S256x256) ![0, 0] S256x256.size inb_S256x256_S256x256_0_0
abbrev r3_4 : Rect S1x256 := Rect.unit (s := S1x256) ![0, 0] S1x256.size inb_S1x256_S1x256_0_0
abbrev r3_5 : Rect S256x256 := Rect.unit (s := S256x256) ![0, 0] S256x256.size inb_S256x256_S256x256_0_0
abbrev r3_6 : Rect S32x256 := Rect.unit (s := S32x256) ![0, 0] S32x256.size inb_S32x256_S32x256_0_0
abbrev r3_7 : Rect S1x128x256 := Rect.unit (s := S1x128x256) ![0, 0, 0] S1x128x256.size inb_S1x128x256_S1x128x256_0_0_0

/-- The output window's staging buffer after the body, from the input windows' blocks: its one store, of the body's
    arithmetic on the loaded blocks. -/
def out3_7 (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) : Vec F S1x128x256 .f32 :=
  View.canon [⟨r3_7, k3_pay1 (View.ld x0 r3_0) (View.ld x1 r3_1) (View.ld x2 r3_2) (View.ld x3 r3_3) (View.ld x4 r3_4) (View.ld x5 r3_5) (View.ld x6 r3_6)⟩]

/-- The store covers the buffer. -/
theorem cover3_7 (p0 : Vec F S1x128x256 .f32) (y : S1x128x256.Idx) :
    ∃ pc ∈ ([⟨r3_7, p0⟩] : List (View.Piece (Elt F) S1x128x256 .f32)), y ∈ pc.1.set :=
  View.cover_of_tiled [⟨r3_7, p0⟩] S1x128x256.size (by rfl) y

set_option maxHeartbeats 1000000 in
/-- The kernel body on whole staging memrefs, the inputs' at contents `xW` and the output's at anything, runs to the
    continuation holding the inputs' as they were and the output's at `out3_7` of the inputs'. -/
theorem sound_kernel3 (c : Dev nD) (E : Set ℕ) (i : grid3.Coords) (arg1 : Memref sig .tc .vmem S1x128x256 .f32) (harg1 : arg1.IsWhole) (arg2 : Memref sig .tc .vmem S1x128x128 .f32) (harg2 : arg2.IsWhole) (arg3 : Memref sig .tc .vmem S1x128x32 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S32x256 .f32) (harg7 : arg7.IsWhole) (arg8 : Memref sig .tc .vmem S1x128x256 .f32) (harg8 : arg8.IsWhole)
    (x0 : Vec F S1x128x256 .f32) (x1 : Vec F S1x128x128 .f32) (x2 : Vec F S1x128x32 .f32) (x3 : Vec F S256x256 .f32) (x4 : Vec F S1x256 .f32) (x5 : Vec F S256x256 .f32) (x6 : Vec F S32x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__depth_kernel i arg1 harg1 arg2 harg2 arg3 harg3 arg4 harg4 arg5 harg5 arg6 harg6 arg7 harg7 arg8 harg8) K := by
  simp only [cc3__depth_kernel_eq_skeleton]; unfold cc3__depth_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover3_7 _)

/-! ## The pipeline's proof data -/

/-- The proof data of pipeline 3 on core `c`: the arrays as the region finds them; after the body at point `t` each input's
    buffer at its block and the output's at `out3_7` of the input blocks; the scoped rest and the generator register
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so `sound_kernel3` applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KernelIdealRun.lean ====
/-
  The run of @main as twelve items — five stretches of host operations, then four pipelines with a stretch before each of the
  last three — from the launch to the return, at any float instance. The contents of every unscoped buffer at each boundary
  are a fold from the launch memory (`B0` … `B12`): a stretch applies its operations; a pipeline replaces its windows' arrays
  by what its write-backs leave and keeps every other buffer. `run_all`: every weakly fair execution terminates, nothing
  faulting, with every unscoped buffer at `B12`. The frame (the seven argument arrays end as launched) is read off it, each
  argument walked back through the fold: no stretch writes an argument, and a pipeline only reads it.
-/
import proofs.«144859_j68152541053088_1_alg».proof.Proof.KernelIdealReg0
import proofs.«144859_j68152541053088_1_alg».proof.Proof.KernelIdealReg1
import proofs.«144859_j68152541053088_1_alg».proof.Proof.KernelIdealReg2
import proofs.«144859_j68152541053088_1_alg».proof.Proof.KernelIdealReg3
import proofs.«144859_j68152541053088_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After `hostOps0`. -/
abbrev B1 : Dev nD → Valuation τ sig (Elt F) := fun c => StableHlo.after hostOps0 (B0 m ρ c)
/-- After `hostOps0_1`. -/
abbrev B2 : Dev nD → Valuation τ sig (Elt F) := fun c => StableHlo.after hostOps0_1 (B1 m ρ c)
/-- After `hostOps0_2`. -/
abbrev B3 : Dev nD → Valuation τ sig (Elt F) := fun c => StableHlo.after hostOps0_2 (B2 m ρ c)
/-- After `hostOps0_3`. -/
abbrev B4 : Dev nD → Valuation τ sig (Elt F) := fun c => StableHlo.after hostOps0_3 (B3 m ρ c)
/-- After `hostOps0_4`. -/
abbrev B5 : Dev nD → Valuation τ sig (Elt F) := fun c => StableHlo.after hostOps0_4 (B4 m ρ c)
/-- The same read at the TensorCore's references (what pipeline 0's proof data take). -/
abbrev C5 : (c : Dev nD) → (b : Ref sig .tc) → Buf (Elt F) ((c : Thread nD τ).loc b) := fun c b => B5 m ρ c b
/-- At pipeline 0's exit: its arrays at what the pipeline leaves, every other buffer as entered. -/
def B6 (c : Dev nD) : Valuation τ sig (Elt F) :=
  Pipeline.withArrays spec0 c (B5 m ρ c) fun w => (dat0 (C5 m ρ) c).arrAt w cfg0.N
theorem B6_arr (c : Dev nD) (w : Fin cfg0.W) :
    B6 m ρ c (Proc.devRef .tc (Pipeline.arrRef spec0 w)) = (dat0 (C5 m ρ) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m ρ c (Proc.devRef .tc b) = B5 m ρ c (Proc.devRef .tc b) := by
  unfold B6; exact Pipeline.withArrays_of_ne spec0 c _ _ b hb
abbrev C6 : (c : Dev nD) → (b : Ref sig .tc) → Buf (Elt F) ((c : Thread nD τ).loc b) := fun c b => B6 m ρ c b
theorem hF0 (c : Dev nD) (w : Fin cfg0.W) : (dat0 (C5 m ρ) c).arrAt w cfg0.N = C6 m ρ c (Pipeline.arrRef spec0 w) :=
  (B6_arr m ρ c w).symm
theorem hrest0 (c : Dev nD) : ∀ b, b ∉ Finset.univ.image (Pipeline.arrRef spec0) → C6 m ρ c b = C5 m ρ c b :=
  fun b hb => B6_of_ne m ρ c b fun w e => hb (Finset.mem_image.mpr ⟨w, Finset.mem_univ _, e⟩)

/-- After `hostOps1` (pipeline 1's entry). -/
abbrev B7 : Dev nD → Valuation τ sig (Elt F) := fun c => StableHlo.after hostOps1 (B6 m ρ c)
/-- The same read at the TensorCore's references (what pipeline 1's proof data take). -/
abbrev C7 : (c : Dev nD) → (b : Ref sig .tc) → Buf (Elt F) ((c : Thread nD τ).loc b) := fun c b => B7 m ρ c b
/-- At pipeline 1's exit: its arrays at what the pipeline leaves, every other buffer as entered. -/
def B8 (c : Dev nD) : Valuation τ sig (Elt F) :=
  Pipeline.withArrays spec1 c (B7 m ρ c) fun w => (dat1 (C7 m ρ) c).arrAt w cfg1.N
theorem B8_arr (c : Dev nD) (w : Fin cfg1.W) :
    B8 m ρ c (Proc.devRef .tc (Pipeline.arrRef spec1 w)) = (dat1 (C7 m ρ) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m ρ c (Proc.devRef .tc b) = B7 m ρ c (Proc.devRef .tc b) := by
  unfold B8; exact Pipeline.withArrays_of_ne spec1 c _ _ b hb
abbrev C8 : (c : Dev nD) → (b : Ref sig .tc) → Buf (Elt F) ((c : Thread nD τ).loc b) := fun c b => B8 m ρ c b
theorem hF1 (c : Dev nD) (w : Fin cfg1.W) : (dat1 (C7 m ρ) c).arrAt w cfg1.N = C8 m ρ c (Pipeline.arrRef spec1 w) :=
  (B8_arr m ρ c w).symm
theorem hrest1 (c : Dev nD) : ∀ b, b ∉ Finset.univ.image (Pipeline.arrRef spec1) → C8 m ρ c b = C7 m ρ c b :=
  fun b hb => B8_of_ne m ρ c b fun w e => hb (Finset.mem_image.mpr ⟨w, Finset.mem_univ _, e⟩)

/-- After `hostOps2` (pipeline 2's entry). -/
abbrev B9 : Dev nD → Valuation τ sig (Elt F) := fun c => StableHlo.after hostOps2 (B8 m ρ c)
/-- The same read at the TensorCore's references (what pipeline 2's proof data take). -/
abbrev C9 : (c : Dev nD) → (b : Ref sig .tc) → Buf (Elt F) ((c : Thread nD τ).loc b) := fun c b => B9 m ρ c b
/-- At pipeline 2's exit: its arrays at what the pipeline leaves, every other buffer as entered. -/
def B10 (c : Dev nD) : Valuation τ sig (Elt F) :=
  Pipeline.withArrays spec2 c (B9 m ρ c) fun w => (dat2 (C9 m ρ) c).arrAt w cfg2.N
theorem B10_arr (c : Dev nD) (w : Fin cfg2.W) :
    B10 m ρ c (Proc.devRef .tc (Pipeline.arrRef spec2 w)) = (dat2 (C9 m ρ) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m ρ c (Proc.devRef .tc b) = B9 m ρ c (Proc.devRef .tc b) := by
  unfold B10; exact Pipeline.withArrays_of_ne spec2 c _ _ b hb
abbrev C10 : (c : Dev nD) → (b : Ref sig .tc) → Buf (Elt F) ((c : Thread nD τ).loc b) := fun c b => B10 m ρ c b
theorem hF2 (c : Dev nD) (w : Fin cfg2.W) : (dat2 (C9 m ρ) c).arrAt w cfg2.N = C10 m ρ c (Pipeline.arrRef spec2 w) :=
  (B10_arr m ρ c w).symm
theorem hrest2 (c : Dev nD) : ∀ b, b ∉ Finset.univ.image (Pipeline.arrRef spec2) → C10 m ρ c b = C9 m ρ c b :=
  fun b hb => B10_of_ne m ρ c b fun w e => hb (Finset.mem_image.mpr ⟨w, Finset.mem_univ _, e⟩)

/-- After `hostOps3` (pipeline 3's entry). -/
abbrev B11 : Dev nD → Valuation τ sig (Elt F) := fun c => StableHlo.after hostOps3 (B10 m ρ c)
/-- The same read at the TensorCore's references (what pipeline 3's proof data take). -/
abbrev C11 : (c : Dev nD) → (b : Ref sig .tc) → Buf (Elt F) ((c : Thread nD τ).loc b) := fun c b => B11 m ρ c b
/-- At pipeline 3's exit: its arrays at what the pipeline leaves, every other buffer as entered. -/
def B12 (c : Dev nD) : Valuation τ sig (Elt F) :=
  Pipeline.withArrays spec3 c (B11 m ρ c) fun w => (dat3 (C11 m ρ) c).arrAt w cfg3.N
theorem B12_arr (c : Dev nD) (w : Fin cfg3.W) :
    B12 m ρ c (Proc.devRef .tc (Pipeline.arrRef spec3 w)) = (dat3 (C11 m ρ) c).arrAt w cfg3.N := by
  unfold B12; exact Pipeline.withArrays_arr spec3 launch3.win.arr_inj c _ _ w
theorem B12_of_ne (c : Dev nD) (b : Ref sig .tc) (hb : ∀ w, Pipeline.arrRef spec3 w ≠ b) :
    B12 m ρ c (Proc.devRef .tc b) = B11 m ρ c (Proc.devRef .tc b) := by
  unfold B12; exact Pipeline.withArrays_of_ne spec3 c _ _ b hb
abbrev C12 : (c : Dev nD) → (b : Ref sig .tc) → Buf (Elt F) ((c : Thread nD τ).loc b) := fun c b => B12 m ρ c b
theorem hF3 (c : Dev nD) (w : Fin cfg3.W) : (dat3 (C11 m ρ) c).arrAt w cfg3.N = C12 m ρ c (Pipeline.arrRef spec3 w) :=
  (B12_arr m ρ c w).symm
theorem hrest3 (c : Dev nD) : ∀ b, b ∉ Finset.univ.image (Pipeline.arrRef spec3) → C12 m ρ c b = C11 m ρ c b :=
  fun b hb => B12_of_ne m ρ c b fun w e => hb (Finset.mem_image.mpr ⟨w, Finset.mem_univ _, e⟩)

/-! ## What a stretch leaves alone: a reference none of its operations writes -/

theorem B1_of (c : Dev nD) (r : Ref sig .tc) (h : r ∉ hostOps0_W) : B1 m ρ c r = B0 m ρ c r :=
  StableHlo.after_of_writes_sub hostOps0 _ hostOps0_writes h
theorem B2_of (c : Dev nD) (r : Ref sig .tc) (h : r ∉ hostOps0_1_W) : B2 m ρ c r = B1 m ρ c r :=
  StableHlo.after_of_writes_sub hostOps0_1 _ hostOps0_1_writes h
theorem B3_of (c : Dev nD) (r : Ref sig .tc) (h : r ∉ hostOps0_2_W) : B3 m ρ c r = B2 m ρ c r :=
  StableHlo.after_of_writes_sub hostOps0_2 _ hostOps0_2_writes h
theorem B4_of (c : Dev nD) (r : Ref sig .tc) (h : r ∉ hostOps0_3_W) : B4 m ρ c r = B3 m ρ c r :=
  StableHlo.after_of_writes_sub hostOps0_3 _ hostOps0_3_writes h
theorem B5_of (c : Dev nD) (r : Ref sig .tc) (h : r ∉ hostOps0_4_W) : B5 m ρ c r = B4 m ρ c r :=
  StableHlo.after_of_writes_sub hostOps0_4 _ hostOps0_4_writes h
theorem B7_of (c : Dev nD) (r : Ref sig .tc) (h : r ∉ hostOps1_W) : B7 m ρ c r = B6 m ρ c r :=
  StableHlo.after_of_writes_sub hostOps1 _ hostOps1_writes h
theorem B9_of (c : Dev nD) (r : Ref sig .tc) (h : r ∉ hostOps2_W) : B9 m ρ c r = B8 m ρ c r :=
  StableHlo.after_of_writes_sub hostOps2 _ hostOps2_writes h
theorem B11_of (c : Dev nD) (r : Ref sig .tc) (h : r ∉ hostOps3_W) : B11 m ρ c r = B10 m ρ c r :=
  StableHlo.after_of_writes_sub hostOps3 _ hostOps3_writes h

/-! ## The arguments end as launched -/

theorem B12_main_arg0 (c : Dev nD) : B12 m ρ c (Proc.devRef .tc main_arg0) = m ((c : Thread nD τ).loc main_arg0) :=
  (B12_of_ne m ρ c main_arg0 (by decide)).trans <| (B11_of m ρ c main_arg0 (by decide)).trans <| (B10_of_ne m ρ c main_arg0 (by decide)).trans <| (B9_of m ρ c main_arg0 (by decide)).trans <| ((B8_arr m ρ c 0).trans (((dat1 (C7 m ρ) c).arrAt_in 0 rfl _).trans (A_eq1 (C7 m ρ) c 0))).trans <| (B7_of m ρ c main_arg0 (by decide)).trans <| (B6_of_ne m ρ c main_arg0 (by decide)).trans <| (B5_of m ρ c main_arg0 (by decide)).trans <| (B4_of m ρ c main_arg0 (by decide)).trans <| (B3_of m ρ c main_arg0 (by decide)).trans <| (B2_of m ρ c main_arg0 (by decide)).trans <| (B1_of m ρ c main_arg0 (by decide)).trans rfl
theorem B12_main_arg1 (c : Dev nD) : B12 m ρ c (Proc.devRef .tc main_arg1) = m ((c : Thread nD τ).loc main_arg1) :=
  (B12_of_ne m ρ c main_arg1 (by decide)).trans <| (B11_of m ρ c main_arg1 (by decide)).trans <| (B10_of_ne m ρ c main_arg1 (by decide)).trans <| (B9_of m ρ c main_arg1 (by decide)).trans <| (B8_of_ne m ρ c main_arg1 (by decide)).trans <| (B7_of m ρ c main_arg1 (by decide)).trans <| ((B6_arr m ρ c 0).trans (((dat0 (C5 m ρ) c).arrAt_in 0 rfl _).trans (A_eq0 (C5 m ρ) c 0))).trans <| (B5_of m ρ c main_arg1 (by decide)).trans <| (B4_of m ρ c main_arg1 (by decide)).trans <| (B3_of m ρ c main_arg1 (by decide)).trans <| (B2_of m ρ c main_arg1 (by decide)).trans <| (B1_of m ρ c main_arg1 (by decide)).trans rfl
theorem B12_main_arg2 (c : Dev nD) : B12 m ρ c (Proc.devRef .tc main_arg2) = m ((c : Thread nD τ).loc main_arg2) :=
  (B12_of_ne m ρ c main_arg2 (by decide)).trans <| (B11_of m ρ c main_arg2 (by decide)).trans <| (B10_of_ne m ρ c main_arg2 (by decide)).trans <| (B9_of m ρ c main_arg2 (by decide)).trans <| (B8_of_ne m ρ c main_arg2 (by decide)).trans <| (B7_of m ρ c main_arg2 (by decide)).trans <| (B6_of_ne m ρ c main_arg2 (by decide)).trans <| (B5_of m ρ c main_arg2 (by decide)).trans <| (B4_of m ρ c main_arg2 (by decide)).trans <| (B3_of m ρ c main_arg2 (by decide)).trans <| (B2_of m ρ c main_arg2 (by decide)).trans <| (B1_of m ρ c main_arg2 (by decide)).trans rfl
theorem B12_main_arg3 (c : Dev nD) : B12 m ρ c (Proc.devRef .tc main_arg3) = m ((c : Thread nD τ).loc main_arg3) :=
  (B12_of_ne m ρ c main_arg3 (by decide)).trans <| (B11_of m ρ c main_arg3 (by decide)).trans <| (B10_of_ne m ρ c main_arg3 (by decide)).trans <| (B9_of m ρ c main_arg3 (by decide)).trans <| (B8_of_ne m ρ c main_arg3 (by decide)).trans <| (B7_of m ρ c main_arg3 (by decide)).trans <| (B6_of_ne m ρ c main_arg3 (by decide)).trans <| (B5_of m ρ c main_arg3 (by decide)).trans <| (B4_of m ρ c main_arg3 (by decide)).trans <| (B3_of m ρ c main_arg3 (by decide)).trans <| (B2_of m ρ c main_arg3 (by decide)).trans <| (B1_of m ρ c main_arg3 (by decide)).trans rfl
theorem B12_main_arg4 (c : Dev nD) : B12 m ρ c (Proc.devRef .tc main_arg4) = m ((c : Thread nD τ).loc main_arg4) :=
  (B12_of_ne m ρ c main_arg4 (by decide)).trans <| (B11_of m ρ c main_arg4 (by decide)).trans <| (B10_of_ne m ρ c main_arg4 (by decide)).trans <| (B9_of m ρ c main_arg4 (by decide)).trans <| (B8_of_ne m ρ c main_arg4 (by decide)).trans <| (B7_of m ρ c main_arg4 (by decide)).trans <| (B6_of_ne m ρ c main_arg4 (by decide)).trans <| (B5_of m ρ c main_arg4 (by decide)).trans <| (B4_of m ρ c main_arg4 (by decide)).trans <| (B3_of m ρ c main_arg4 (by decide)).trans <| (B2_of m ρ c main_arg4 (by decide)).trans <| (B1_of m ρ c main_arg4 (by decide)).trans rfl
theorem B12_main_arg5 (c : Dev nD) : B12 m ρ c (Proc.devRef .tc main_arg5) = m ((c : Thread nD τ).loc main_arg5) :=
  (B12_of_ne m ρ c main_arg5 (by decide)).trans <| (B11_of m ρ c main_arg5 (by decide)).trans <| (B10_of_ne m ρ c main_arg5 (by decide)).trans <| (B9_of m ρ c main_arg5 (by decide)).trans <| (B8_of_ne m ρ c main_arg5 (by decide)).trans <| (B7_of m ρ c main_arg5 (by decide)).trans <| (B6_of_ne m ρ c main_arg5 (by decide)).trans <| (B5_of m ρ c main_arg5 (by decide)).trans <| (B4_of m ρ c main_arg5 (by decide)).trans <| (B3_of m ρ c main_arg5 (by decide)).trans <| (B2_of m ρ c main_arg5 (by decide)).trans <| (B1_of m ρ c main_arg5 (by decide)).trans rfl
theorem B12_main_arg6 (c : Dev nD) : B12 m ρ c (Proc.devRef .tc main_arg6) = m ((c : Thread nD τ).loc main_arg6) :=
  (B12_of_ne m ρ c main_arg6 (by decide)).trans <| (B11_of m ρ c main_arg6 (by decide)).trans <| (B10_of_ne m ρ c main_arg6 (by decide)).trans <| (B9_of m ρ c main_arg6 (by decide)).trans <| (B8_of_ne m ρ c main_arg6 (by decide)).trans <| (B7_of m ρ c main_arg6 (by decide)).trans <| (B6_of_ne m ρ c main_arg6 (by decide)).trans <| (B5_of m ρ c main_arg6 (by decide)).trans <| (B4_of m ρ c main_arg6 (by decide)).trans <| (B3_of m ρ c main_arg6 (by decide)).trans <| (B2_of m ρ c main_arg6 (by decide)).trans <| (B1_of m ρ c main_arg6 (by decide)).trans rfl

/-! ## The proof data family and the thread state -/

/-- No pipeline has a prefetched table. -/
abbrev noTables : (p : Fin 4) → (pcfgs (F := F) p).Adm := fun p => (cfgs p).toPCfg_adm
/-- Every pipeline's proof data, each at its region's entry contents. -/
def pdata : (p : Fin 4) → (c : Dev nD) → Dat τ (Elt F) Unit ℕ (UR sig nD τ) ℕ (Pipeline.pin (pcfgs (F := F)) noTables p) c
  | ⟨0, _⟩ => fun c => dat0 (C5 m ρ) c
  | ⟨1, _⟩ => fun c => dat1 (C7 m ρ) c
  | ⟨2, _⟩ => fun c => dat2 (C9 m ρ) c
  | ⟨3, _⟩ => fun c => dat3 (C11 m ρ) c
abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every item: the core's generator register at some state and its dues, at nothing. -/
abbrev Rest (c : Dev nD) : sProp 𝕄 := iprop((∃ r, prngReg c r) ∗ ∃ W, owes (c : Thread nD τ) (0 : CellTallies nD τ sig Unit) W)
/-- A host stretch as an item, from the contents `W`, `Rest` riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B12`, the generator register at some state. -/
abbrev Tlast (c : Dev nD) : sProp 𝕄 := iprop(StableHlo.held (c : Thread nD τ) (Pipeline.ucRefs τ sig) (B12 m ρ c) ∗ ∃ r, prngReg c r)

/-! ## The pipelines as items -/

set_option backward.isDefEq.respectTransparency.types false in
/-- Pipeline 0 over the thread state: entered from every unscoped buffer at `B5`, left at `B6`. Its arrays are split out of the
    unscoped buffers and put back at the exit contents; the generator register goes into the pipeline's invariant and comes out;
    nothing is owed; the kernel has no semaphore of its own. -/
def region0 : Pipeline.RegionSeg (pcfgs (F := F)) noTables (pdata m ρ) () defs₀ 𝒱n Lz lvz 0 where
  win := launch0.win.to₀
  block_pos := launch0.block_pos
  stage_whole := launch0.stage_whole
  K := PEmpty
  osem k := k.elim
  ho := Pipeline.OwnSemFacts.none _
  hbody c := (body_obligation0 (C5 m ρ) c).loose
  hwaits := Pipeline.hwaits_of_owed_zero _ _ _ _ Lz lvz 0 fun _ _ => rfl
  pre c := iprop(StableHlo.held (c : Thread nD τ) (Pipeline.ucRefs τ sig) (B5 m ρ c) ∗ Rest c)
  post c := iprop(StableHlo.held (c : Thread nD τ) (Pipeline.ucRefs τ sig) (B6 m ρ c) ∗ Rest c)
  X c := iprop(∃ r, prngReg c r)
  Y c := iprop(∃ r, prngReg c r)
  Z c := Pipeline.unscopedRest (Ix := Unit) (Name := ℕ) (U := UR sig nD τ) (Lvl := ℕ) spec0 c (C5 m ρ c)
  hentry c := by
    rw [Pipeline.ownSems0_none]
    have hsplit := Pipeline.arrays_of_unscopedBufs (p := 0) (pcfgs (F := F)) noTables (pdata m ρ) launch0.win launch0.arr_whole c
      ((pdata m ρ 0 c).share_full fun _ => rfl) (C5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdata m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdata m ρ) ((pdata m ρ 0 c).share_full fun _ => rfl)
      (C5 m ρ c) (C6 m ρ c) ((pdata m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at `B7`, left at `B8`. Its arrays are split out of the
    unscoped buffers and put back at the exit contents; the generator register goes into the pipeline's invariant and comes out;
    nothing is owed; the kernel has no semaphore of its own. -/
def region1 : Pipeline.RegionSeg (pcfgs (F := F)) noTables (pdata m ρ) () defs₀ 𝒱n Lz lvz 1 where
  win := launch1.win.to₀
  block_pos := launch1.block_pos
  stage_whole := launch1.stage_whole
  K := PEmpty
  osem k := k.elim
  ho := Pipeline.OwnSemFacts.none _
  hbody c := (body_obligation1 (C7 m ρ) c).loose
  hwaits := Pipeline.hwaits_of_owed_zero _ _ _ _ Lz lvz 1 fun _ _ => rfl
  pre c := iprop(StableHlo.held (c : Thread nD τ) (Pipeline.ucRefs τ sig) (B7 m ρ c) ∗ Rest c)
  post c := iprop(StableHlo.held (c : Thread nD τ) (Pipeline.ucRefs τ sig) (B8 m ρ c) ∗ Rest c)
  X c := iprop(∃ r, prngReg c r)
  Y c := iprop(∃ r, prngReg c r)
  Z c := Pipeline.unscopedRest (Ix := Unit) (Name := ℕ) (U := UR sig nD τ) (Lvl := ℕ) spec1 c (C7 m ρ c)
  hentry c := by
    rw [Pipeline.ownSems0_none]
    have hsplit := Pipeline.arrays_of_unscopedBufs (p := 1) (pcfgs (F := F)) noTables (pdata m ρ) launch1.win launch1.arr_whole c
      ((pdata m ρ 1 c).share_full fun _ => rfl) (C7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdata m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdata m ρ) ((pdata m ρ 1 c).share_full fun _ => rfl)
      (C7 m ρ c) (C8 m ρ c) ((pdata m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at `B9`, left at `B10`. Its arrays are split out of the
    unscoped buffers and put back at the exit contents; the generator register goes into the pipeline's invariant and comes out;
    nothing is owed; the kernel has no semaphore of its own. -/
def region2 : Pipeline.RegionSeg (pcfgs (F := F)) noTables (pdata m ρ) () defs₀ 𝒱n Lz lvz 2 where
  win := launch2.win.to₀
  block_pos := launch2.block_pos
  stage_whole := launch2.stage_whole
  K := PEmpty
  osem k := k.elim
  ho := Pipeline.OwnSemFacts.none _
  hbody c := (body_obligation2 (C9 m ρ) c).loose
  hwaits := Pipeline.hwaits_of_owed_zero _ _ _ _ Lz lvz 2 fun _ _ => rfl
  pre c := iprop(StableHlo.held (c : Thread nD τ) (Pipeline.ucRefs τ sig) (B9 m ρ c) ∗ Rest c)
  post c := iprop(StableHlo.held (c : Thread nD τ) (Pipeline.ucRefs τ sig) (B10 m ρ c) ∗ Rest c)
  X c := iprop(∃ r, prngReg c r)
  Y c := iprop(∃ r, prngReg c r)
  Z c := Pipeline.unscopedRest (Ix := Unit) (Name := ℕ) (U := UR sig nD τ) (Lvl := ℕ) spec2 c (C9 m ρ c)
  hentry c := by
    rw [Pipeline.ownSems0_none]
    have hsplit := Pipeline.arrays_of_unscopedBufs (p := 2) (pcfgs (F := F)) noTables (pdata m ρ) launch2.win launch2.arr_whole c
      ((pdata m ρ 2 c).share_full fun _ => rfl) (C9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdata m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdata m ρ) ((pdata m ρ 2 c).share_full fun _ => rfl)
      (C9 m ρ c) (C10 m ρ c) ((pdata m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at `B11`, left at `B12`. Its arrays are split out of the
    unscoped buffers and put back at the exit contents; the generator register goes into the pipeline's invariant and comes out;
    nothing is owed; the kernel has no semaphore of its own. -/
def region3 : Pipeline.RegionSeg (pcfgs (F := F)) noTables (pdata m ρ) () defs₀ 𝒱n Lz lvz 3 where
  win := launch3.win.to₀
  block_pos := launch3.block_pos
  stage_whole := launch3.stage_whole
  K := PEmpty
  osem k := k.elim
  ho := Pipeline.OwnSemFacts.none _
  hbody c := (body_obligation3 (C11 m ρ) c).loose
  hwaits := Pipeline.hwaits_of_owed_zero _ _ _ _ Lz lvz 3 fun _ _ => rfl
  pre c := iprop(StableHlo.held (c : Thread nD τ) (Pipeline.ucRefs τ sig) (B11 m ρ c) ∗ Rest c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (C11 m ρ c)
  hentry c := by
    rw [Pipeline.ownSems0_none]
    have hsplit := Pipeline.arrays_of_unscopedBufs (p := 3) (pcfgs (F := F)) noTables (pdata m ρ) launch3.win launch3.arr_whole c
      ((pdata m ρ 3 c).share_full fun _ => rfl) (C11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdata m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdata m ρ) ((pdata m ρ 3 c).share_full fun _ => rfl)
      (C11 m ρ c) (C12 m ρ c) ((pdata m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's twelve items in order. -/
abbrev items : List (Pipeline.Seg (pcfgs (F := F)) noTables (pdata m ρ) () defs₀ 𝒱n Lz lvz) :=
  [ .host (hostItem hostOps0 hostOps0_sub hostOps0_fresh (B0 m ρ)),
    .host (hostItem hostOps0_1 hostOps0_1_sub hostOps0_1_fresh (B1 m ρ)),
    .host (hostItem hostOps0_2 hostOps0_2_sub hostOps0_2_fresh (B2 m ρ)),
    .host (hostItem hostOps0_3 hostOps0_3_sub hostOps0_3_fresh (B3 m ρ)),
    .host (hostItem hostOps0_4 hostOps0_4_sub hostOps0_4_fresh (B4 m ρ)),
    .region (region0 m ρ),
    .host (hostItem hostOps1 hostOps1_sub hostOps1_fresh (B6 m ρ)),
    .region (region1 m ρ),
    .host (hostItem hostOps2 hostOps2_sub hostOps2_fresh (B8 m ρ)),
    .region (region2 m ρ),
    .host (hostItem hostOps3 hostOps3_sub hostOps3_fresh (B10 m ρ)),
    .region (region3 m ρ) ]

set_option backward.isDefEq.respectTransparency.types false in
/-- At the compiled mesh, from any memory with zero counters, every weakly fair execution of @main on the TensorCores terminates,
    nothing faulting, and every final state has every unscoped buffer at the last boundary's contents `B12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m ρ c b) :=
  Pipeline.θ_run_regions_kit (pcfgs (F := F)) noTables (pdata m ρ) () cellOf_inj emb₁ defs₀ 𝒱n Lz lvz m ρ main (items m ρ)
    (fun c Q => by
      rewrite [main_chain c, Pipeline.Seg.run_eq_chain,
        show (items m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tlast m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m ρ c b)
    (hfin := fun c s' => by
      iintro ⟨⟨Hh, -⟩, HSI⟩
      unfold StableHlo.held
      imodintro
      iapply (pointsTo_read_all (Pipeline.ucRefs τ sig) (fun b => (((c : Thread nD τ)).1, b)) (B12 m ρ c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (B12_main_arg0 m ρ c),
     (h c _ (mem_uc main_arg1 (by decide))).trans (B12_main_arg1 m ρ c),
     (h c _ (mem_uc main_arg2 (by decide))).trans (B12_main_arg2 m ρ c),
     (h c _ (mem_uc main_arg3 (by decide))).trans (B12_main_arg3 m ρ c),
     (h c _ (mem_uc main_arg4 (by decide))).trans (B12_main_arg4 m ρ c),
     (h c _ (mem_uc main_arg5 (by decide))).trans (B12_main_arg5 m ρ c),
     (h c _ (mem_uc main_arg6 (by decide))).trans (B12_main_arg6 m ρ c)⟩) (run_all m ρ)

end Cert.KernelIdeal.Fr

end
-- ==== Proof.Spec.lean ====
/-
  The mathematics both programs compute, stated once over plain index tuples.

  One depth step of the relational graph layer, on a batch of 32 graphs of 128 objects with 256 features and 32
  relation kinds: every object's features are repeated over the 32 relations, the relation's 64-wide embedding is
  appended, the 320-wide rows go through a linear map, and the adjacency tensor (objects × (object, relation) pairs)
  aggregates them; a self linear map, the residual and tanh close the step.

  * `refStep` sums over the 4096 (object, relation) pairs directly.
  * `kerStep` first contracts the adjacency against the two 0/1 selection matrices "pair n belongs to object p"
    (n / 32 = p) and "pair n has relation r" (n % 32 = r), and then contracts those two small tensors against the
    per-object and per-relation halves of the linear map.
-/
import Idealize.ShloMosaic.PureOps.Ideal
import Idealize.ShloMosaic.Lib.ValueIdx

noncomputable section

namespace Cert.Gcn

open Idealize.ShloMosaic

/-- Node features: batch × object × feature. -/
abbrev Feat := Fin 32 → Fin 128 → Fin 256 → EReal

/-- An array of a rank-3 literal shape read at a coordinate triple. -/
abbrev un3 {n0 n1 n2 : Nat} (a : (⟨3, ![n0, n1, n2]⟩ : Shape).Idx → EReal) : Fin n0 → Fin n1 → Fin n2 → EReal :=
  fun i j k => a (ValueIdx.ix3 i j k)
/-- An array of a rank-2 literal shape read at a coordinate pair. -/
abbrev un2 {n0 n1 : Nat} (a : (⟨2, ![n0, n1]⟩ : Shape).Idx → EReal) : Fin n0 → Fin n1 → EReal :=
  fun i j => a (ValueIdx.ix2 i j)

/-- Pair `n` of the 4096 (object, relation) pairs belongs to object `p`. -/
def selObj (n : Fin 4096) (p : Fin 128) : EReal := if n.val / 32 = p.val then 1 else 0
/-- Pair `n` has relation kind `r`. -/
def selRel (n : Fin 4096) (r : Fin 32) : EReal := if n.val % 32 = r.val then 1 else 0

section
variable (A : Fin 32 → Fin 128 → Fin 4096 → EReal) (rel : Fin 32 → Fin 64 → EReal)
  (W1 : Fin 3 → Fin 256 → Fin 256 → EReal) (b1 : Fin 3 → Fin 256 → EReal)
  (W2 : Fin 3 → Fin 320 → Fin 256 → EReal) (b2 : Fin 3 → Fin 256 → EReal)

/-- Row `n` of the 320-wide input of the relational linear map: object `n / 32`'s features, then relation
    `n % 32`'s embedding. -/
def cat (x : Feat) (b : Fin 32) (n : Fin 4096) (c : Fin 320) : EReal :=
  if h : c.val < 256 then x b ⟨n.val / 32, by have := n.isLt; omega⟩ ⟨c.val, h⟩
  else rel ⟨n.val % 32, Nat.mod_lt _ (by decide)⟩ ⟨c.val - 256, by have := c.isLt; omega⟩

/-- One depth step as the reference computes it. -/
def refStep (i : Fin 3) (x : Feat) : Feat := fun b o f =>
  Ideal.tanh ((((∑ d : Fin 256, x b o d * W1 i d f) + b1 i f)
      + ∑ n : Fin 4096, A b o n * ((∑ c : Fin 320, cat rel x b n c * W2 i c f) + b2 i f))
    + x b o f)

/-- The adjacency summed over the relations of each object. -/
def adjObj (b : Fin 32) (o : Fin 128) (p : Fin 128) : EReal := ∑ n : Fin 4096, A b o n * selObj n p
/-- The adjacency summed over the objects of each relation. -/
def adjRel (b : Fin 32) (o : Fin 128) (r : Fin 32) : EReal := ∑ n : Fin 4096, A b o n * selRel n r

/-- One depth step as the kernel computes it. -/
def kerStep (i : Fin 3) (x : Feat) : Feat := fun b o f =>
  Ideal.tanh (((((∑ d : Fin 256, x b o d * W1 i d f) + b1 i f)
      + ∑ p : Fin 128, adjObj A b o p * (∑ d : Fin 256, x b p d * W2 i ⟨d.val, by have := d.isLt; omega⟩ f))
      + ∑ r : Fin 32, adjRel A b o r * ((∑ e : Fin 64, rel r e * W2 i ⟨256 + e.val, by have := e.isLt; omega⟩ f) + b2 i f))
    + x b o f)

/-- The three depth steps, the reference's way and the kernel's way. -/
def ref3 (x : Feat) : Feat := refStep A rel W1 b1 W2 b2 2 (refStep A rel W1 b1 W2 b2 1 (refStep A rel W1 b1 W2 b2 0 x))
def ker3 (x : Feat) : Feat := kerStep A rel W1 b1 W2 b2 2 (kerStep A rel W1 b1 W2 b2 1 (kerStep A rel W1 b1 W2 b2 0 x))

end

/-- Every entry is a real number. -/
def Fin3 {α β γ : Type} (x : α → β → γ → EReal) : Prop := ∀ a b c, ∃ r : ℝ, x a b c = (r : EReal)
def Fin2 {α β : Type} (x : α → β → EReal) : Prop := ∀ a b, ∃ r : ℝ, x a b = (r : EReal)

end Cert.Gcn

end
-- ==== Proof.RefValueCat.lean ====
/-
  Layout operations of the reference read at an index: the two-piece concatenation along the 320-wide axis, and the
  relation table tiled over the 128 objects and broadcast over the batch (row `n` of the 4096 holds relation `n % 32`).
-/
import proofs.«144859_j68152541053088_1_alg».proof.Proof.Gen.ReferenceIdeal.Read
import proofs.«144859_j68152541053088_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Cert.Gcn

section
variable {α : Type}

/-- The 320-wide concatenation reads its first piece below column 256 and its second piece, 256 columns less, from
    column 256 on. -/
theorem cat_read (u : S32x4096x256.Idx → α) (v : S32x4096x64.Idx → α) (b : Fin 32) (n : Fin 4096) (c : Fin 320) :
    concatenate S32x4096x320 2 [⟨S32x4096x256, u⟩, ⟨S32x4096x64, v⟩] concatenates_S32x4096x256_S32x4096x64_S32x4096x320_d2
        (ValueIdx.ix3 b n c)
      = if h : c.val < 256 then u (ValueIdx.ix3 b n ⟨c.val, h⟩)
        else v (ValueIdx.ix3 b n ⟨c.val - 256, by have := c.isLt; omega⟩) := by
  by_cases h : c.val < 256
  · rw [dif_pos h]
    exact concatenate_pair_apply_left (t := S32x4096x320) (s₁ := S32x4096x256) (s₂ := S32x4096x64) 2 u v
      concatenates_S32x4096x256_S32x4096x64_S32x4096x320_d2 (ValueIdx.ix3 b n c) rfl (ValueIdx.ix3 b n ⟨c.val, h⟩) (fun a => by
      match a with
      | ⟨0, _⟩ => rfl
      | ⟨1, _⟩ => rfl
      | ⟨2, _⟩ => rfl)
  · rw [dif_neg h]
    exact concatenate_pair_apply_right (t := S32x4096x320) (s₁ := S32x4096x256) (s₂ := S32x4096x64) 2 u v
      concatenates_S32x4096x256_S32x4096x64_S32x4096x320_d2 (ValueIdx.ix3 b n c) rfl rfl
      (ValueIdx.ix3 b n ⟨c.val - 256, by have := c.isLt; omega⟩)
      (fun a ha => by
        match a with
        | ⟨0, _⟩ => rfl
        | ⟨1, _⟩ => rfl
        | ⟨2, _⟩ => exact absurd rfl ha)
      (by show (c.val - 256) + 256 = c.val; omega)

end

/-- The tiled and broadcast relation table: for every batch, row `n` of the 4096 is relation `n % 32`'s embedding. -/
theorem rel_read (x2 : (⟨S32x64, .f32⟩ : BufTy).Contents (Elt Ideal)) (b : Fin 32) (n : Fin 4096) (e : Fin 64) :
    val_main_v3 (F := Ideal) x2 (ValueIdx.ix3 b n e)
      = x2 (ValueIdx.ix2 ⟨n.val % 32, Nat.mod_lt _ (by decide)⟩ e) := by
  rw [val_main_v3_apply, val_main_v2_apply, val_main_v1_apply, val_main_v0_apply]
  have hn := n.isLt
  have he := e.isLt
  refine congrArg _ ?_
  funext a
  match a with
  | ⟨0, _⟩ =>
    apply Fin.ext
    show ((((0 * 32 + (n.val * 64 + e.val) / 64 % 32) * 1 + 0) * 64 + (n.val * 64 + e.val) % 64) / 64) = n.val % 32
    omega
  | ⟨1, _⟩ =>
    apply Fin.ext
    show ((((0 * 32 + (n.val * 64 + e.val) / 64 % 32) * 1 + 0) * 64 + (n.val * 64 + e.val) % 64) % 64) = e.val
    omega

end Cert.ReferenceIdeal.RefValue

end
-- ==== Proof.RefValueStep0.lean ====
/-
  The first depth step of the reference, read index by index: its operations compose to `Cert.Gcn.refStep` of
  the input features, with slice 0 of the four weight arrays.
-/
import proofs.«144859_j68152541053088_1_alg».proof.Proof.Gen.ReferenceIdeal.Read
import proofs.«144859_j68152541053088_1_alg».proof.Proof.Spec
import proofs.«144859_j68152541053088_1_alg».proof.Proof.RefValueCat
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Cert.Gcn

variable (x0 : (⟨S32x128x256, .f32⟩ : BufTy).Contents (Elt Ideal)) (x1 : (⟨S32x128x4096, .f32⟩ : BufTy).Contents (Elt Ideal)) (x2 : (⟨S32x64, .f32⟩ : BufTy).Contents (Elt Ideal)) (x3 : (⟨S3x256x256, .f32⟩ : BufTy).Contents (Elt Ideal)) (x4 : (⟨S3x256, .f32⟩ : BufTy).Contents (Elt Ideal)) (x5 : (⟨S3x320x256, .f32⟩ : BufTy).Contents (Elt Ideal)) (x6 : (⟨S3x256, .f32⟩ : BufTy).Contents (Elt Ideal))

/-- The features repeated over the 32 relations: row `n` of the 4096 is object `n / 32`. -/
theorem xr_0 (b : Fin 32) (n : Fin 4096) (c : Fin 256) :
    val_main_v5 (F := Ideal) x0 (ValueIdx.ix3 b n c) = x0 (ValueIdx.ix3 b ⟨n.val / 32, by have := n.isLt; omega⟩ c) := by
  rw [val_main_v5_apply, val_main_v4_apply]
  have hb := b.isLt
  have hn := n.isLt
  have hc := c.isLt
  refine congrArg _ ?_
  funext a
  match a with
  | ⟨0, _⟩ => apply Fin.ext; show ((b.val * 4096 + n.val) * 256 + c.val) / 1048576 = b.val; omega
  | ⟨1, _⟩ => apply Fin.ext; show ((b.val * 4096 + n.val) * 256 + c.val) / 8192 % 128 = n.val / 32; omega
  | ⟨2, _⟩ => apply Fin.ext; show ((b.val * 4096 + n.val) * 256 + c.val) % 256 = c.val; omega

/-- The 320-wide rows: the repeated features, then the relation's embedding. -/
theorem cat_0 (b : Fin 32) (n : Fin 4096) (c : Fin 320) :
    val_main_v6 (F := Ideal) x0 x2 (ValueIdx.ix3 b n c) = cat (un2 x2) (un3 x0) b n c := by
  unfold val_main_v6 Cert.Gcn.cat
  rw [cat_read]
  by_cases h : c.val < 256
  · rw [dif_pos h, dif_pos h, xr_0]
  · rw [dif_neg h, dif_neg h, rel_read]

/-- Slice 0 of the self weights. -/
theorem w1_0 (d f : Fin 256) : val_main_v8 (F := Ideal) x3 (ValueIdx.ix2 d f) = x3 (ValueIdx.ix3 (0 : Fin 3) d f) := by
  rw [val_main_v8_apply, val_main_v7_apply]
  have hd := d.isLt
  have hf := f.isLt
  refine congrArg _ ?_
  funext a
  match a with
  | ⟨0, _⟩ => rfl
  | ⟨1, _⟩ => apply Fin.ext; show (d.val * 256 + f.val) / 256 % 256 = d.val; omega
  | ⟨2, _⟩ => apply Fin.ext; show (d.val * 256 + f.val) % 256 = f.val; omega

/-- Slice 0 of the self bias, broadcast over batch and objects. -/
theorem b1_0 (b : Fin 32) (o : Fin 128) (f : Fin 256) : val_main_v13 (F := Ideal) x4 (ValueIdx.ix3 b o f) = x4 (ValueIdx.ix2 (0 : Fin 3) f) := by
  rw [val_main_v13_apply, val_main_v12_apply, val_main_v11_apply, val_main_v10_apply]
  have hf := f.isLt
  refine congrArg _ ?_
  funext a
  match a with
  | ⟨0, _⟩ => rfl
  | ⟨1, _⟩ => apply Fin.ext; show f.val % 256 = f.val; omega

/-- The self linear map. -/
theorem h1_0 (b : Fin 32) (o : Fin 128) (f : Fin 256) :
    val_main_v14 (F := Ideal) x0 x3 x4 (ValueIdx.ix3 b o f)
      = (∑ d : Fin 256, x0 (ValueIdx.ix3 b o d) * x3 (ValueIdx.ix3 (0 : Fin 3) d f)) + x4 (ValueIdx.ix2 (0 : Fin 3) f) := by
  rw [val_main_v14_apply, val_main_v9_apply, b1_0]
  refine congrArg (fun z : EReal => z + x4 (ValueIdx.ix2 (0 : Fin 3) f)) ?_
  refine Finset.sum_congr rfl fun d _ => ?_
  have e1 : lidx_main_v9 (ValueIdx.ix3 b o f) d = (ValueIdx.ix3 b o d) := by
    funext a; match a with | ⟨0, _⟩ => rfl | ⟨1, _⟩ => rfl | ⟨2, _⟩ => rfl
  have e2 : ridx_main_v9 (ValueIdx.ix3 b o f) d = (ValueIdx.ix2 d f) := by
    funext a; match a with | ⟨0, _⟩ => rfl | ⟨1, _⟩ => rfl
  rw [e1, e2, w1_0]

/-- Slice 0 of the relational weights. -/
theorem w2_0 (c : Fin 320) (f : Fin 256) : val_main_v16 (F := Ideal) x5 (ValueIdx.ix2 c f) = x5 (ValueIdx.ix3 (0 : Fin 3) c f) := by
  rw [val_main_v16_apply, val_main_v15_apply]
  have hc := c.isLt
  have hf := f.isLt
  refine congrArg _ ?_
  funext a
  match a with
  | ⟨0, _⟩ => rfl
  | ⟨1, _⟩ => apply Fin.ext; show (c.val * 256 + f.val) / 256 % 320 = c.val; omega
  | ⟨2, _⟩ => apply Fin.ext; show (c.val * 256 + f.val) % 256 = f.val; omega

/-- Slice 0 of the relational bias, broadcast over batch and pairs. -/
theorem b2_0 (b : Fin 32) (n : Fin 4096) (f : Fin 256) : val_main_v21 (F := Ideal) x6 (ValueIdx.ix3 b n f) = x6 (ValueIdx.ix2 (0 : Fin 3) f) := by
  rw [val_main_v21_apply, val_main_v20_apply, val_main_v19_apply, val_main_v18_apply]
  have hf := f.isLt
  refine congrArg _ ?_
  funext a
  match a with
  | ⟨0, _⟩ => rfl
  | ⟨1, _⟩ => apply Fin.ext; show f.val % 256 = f.val; omega

/-- The relational linear map on the 320-wide rows. -/
theorem h2_0 (b : Fin 32) (n : Fin 4096) (f : Fin 256) :
    val_main_v22 (F := Ideal) x0 x2 x5 x6 (ValueIdx.ix3 b n f)
      = ((∑ c : Fin 320, cat (un2 x2) (un3 x0) b n c * x5 (ValueIdx.ix3 (0 : Fin 3) c f)) + x6 (ValueIdx.ix2 (0 : Fin 3) f)) := by
  rw [val_main_v22_apply, val_main_v17_apply, b2_0]
  refine congrArg (fun z : EReal => z + x6 (ValueIdx.ix2 (0 : Fin 3) f)) ?_
  refine Finset.sum_congr rfl fun c _ => ?_
  have e1 : lidx_main_v17 (ValueIdx.ix3 b n f) c = (ValueIdx.ix3 b n c) := by
    funext a; match a with | ⟨0, _⟩ => rfl | ⟨1, _⟩ => rfl | ⟨2, _⟩ => rfl
  have e2 : ridx_main_v17 (ValueIdx.ix3 b n f) c = (ValueIdx.ix2 c f) := by
    funext a; match a with | ⟨0, _⟩ => rfl | ⟨1, _⟩ => rfl
  rw [e1, e2, cat_0, w2_0]

/-- The adjacency aggregates the 4096 rows. -/
theorem agg_0 (b : Fin 32) (o : Fin 128) (f : Fin 256) :
    val_main_v23 (F := Ideal) x0 x1 x2 x5 x6 (ValueIdx.ix3 b o f)
      = ∑ n : Fin 4096, x1 (ValueIdx.ix3 b o n) * ((∑ c : Fin 320, cat (un2 x2) (un3 x0) b n c * x5 (ValueIdx.ix3 (0 : Fin 3) c f)) + x6 (ValueIdx.ix2 (0 : Fin 3) f)) := by
  rw [val_main_v23_apply]
  refine Finset.sum_congr rfl fun n _ => ?_
  have e1 : lidx_main_v23 (ValueIdx.ix3 b o f) n = (ValueIdx.ix3 b o n) := by
    funext a; match a with | ⟨0, _⟩ => rfl | ⟨1, _⟩ => rfl | ⟨2, _⟩ => rfl
  have e2 : ridx_main_v23 (ValueIdx.ix3 b o f) n = (ValueIdx.ix3 b n f) := by
    funext a; match a with | ⟨0, _⟩ => rfl | ⟨1, _⟩ => rfl | ⟨2, _⟩ => rfl
  rw [e1, e2, h2_0]

/-- The whole step: self map plus aggregate plus residual, through tanh. -/
theorem step_0 :
    val_main_v26 (F := Ideal) x0 x1 x2 x3 x4 x5 x6
      = fun j => refStep (un3 x1) (un2 x2) (un3 x3) (un2 x4) (un3 x5) (un2 x6) 0 (un3 x0) (j 0) (j 1) (j 2) := by
  funext j
  obtain ⟨b, o, f, rfl⟩ : ∃ (b : Fin 32) (o : Fin 128) (f : Fin 256), j = ValueIdx.ix3 b o f :=
    ⟨j 0, j 1, j 2, ValueIdx.eq_ix3 j⟩
  rw [val_main_v26_apply, val_main_v25_apply, val_main_v24_apply, h1_0, agg_0]
  rfl

end Cert.ReferenceIdeal.RefValue

end
-- ==== Proof.RefValueStep1.lean ====
/-
  The second depth step of the reference, read index by index: its operations compose to `Cert.Gcn.refStep` of
  the previous step's result, with slice 1 of the four weight arrays.
-/
import proofs.«144859_j68152541053088_1_alg».proof.Proof.Gen.ReferenceIdeal.Read
import proofs.«144859_j68152541053088_1_alg».proof.Proof.Spec
import proofs.«144859_j68152541053088_1_alg».proof.Proof.RefValueCat
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Cert.Gcn

variable (x0 : (⟨S32x128x256, .f32⟩ : BufTy).Contents (Elt Ideal)) (x1 : (⟨S32x128x4096, .f32⟩ : BufTy).Contents (Elt Ideal)) (x2 : (⟨S32x64, .f32⟩ : BufTy).Contents (Elt Ideal)) (x3 : (⟨S3x256x256, .f32⟩ : BufTy).Contents (Elt Ideal)) (x4 : (⟨S3x256, .f32⟩ : BufTy).Contents (Elt Ideal)) (x5 : (⟨S3x320x256, .f32⟩ : BufTy).Contents (Elt Ideal)) (x6 : (⟨S3x256, .f32⟩ : BufTy).Contents (Elt Ideal))

/-- The features repeated over the 32 relations: row `n` of the 4096 is object `n / 32`. -/
theorem xr_1 (b : Fin 32) (n : Fin 4096) (c : Fin 256) :
    val_main_v28 (F := Ideal) x0 x1 x2 x3 x4 x5 x6 (ValueIdx.ix3 b n c) = (val_main_v26 (F := Ideal) x0 x1 x2 x3 x4 x5 x6) (ValueIdx.ix3 b ⟨n.val / 32, by have := n.isLt; omega⟩ c) := by
  rw [val_main_v28_apply, val_main_v27_apply]
  have hb := b.isLt
  have hn := n.isLt
  have hc := c.isLt
  refine congrArg _ ?_
  funext a
  match a with
  | ⟨0, _⟩ => apply Fin.ext; show ((b.val * 4096 + n.val) * 256 + c.val) / 1048576 = b.val; omega
  | ⟨1, _⟩ => apply Fin.ext; show ((b.val * 4096 + n.val) * 256 + c.val) / 8192 % 128 = n.val / 32; omega
  | ⟨2, _⟩ => apply Fin.ext; show ((b.val * 4096 + n.val) * 256 + c.val) % 256 = c.val; omega

/-- The 320-wide rows: the repeated features, then the relation's embedding. -/
theorem cat_1 (b : Fin 32) (n : Fin 4096) (c : Fin 320) :
    val_main_v29 (F := Ideal) x0 x1 x2 x3 x4 x5 x6 (ValueIdx.ix3 b n c) = cat (un2 x2) (un3 (val_main_v26 (F := Ideal) x0 x1 x2 x3 x4 x5 x6)) b n c := by
  unfold val_main_v29 Cert.Gcn.cat
  rw [cat_read]
  by_cases h : c.val < 256
  · rw [dif_pos h, dif_pos h, xr_1]
  · rw [dif_neg h, dif_neg h, rel_read]

/-- Slice 1 of the self weights. -/
theorem w1_1 (d f : Fin 256) : val_main_v31 (F := Ideal) x3 (ValueIdx.ix2 d f) = x3 (ValueIdx.ix3 (1 : Fin 3) d f) := by
  rw [val_main_v31_apply, val_main_v30_apply]
  have hd := d.isLt
  have hf := f.isLt
  refine congrArg _ ?_
  funext a
  match a with
  | ⟨0, _⟩ => rfl
  | ⟨1, _⟩ => apply Fin.ext; show (d.val * 256 + f.val) / 256 % 256 = d.val; omega
  | ⟨2, _⟩ => apply Fin.ext; show (d.val * 256 + f.val) % 256 = f.val; omega

/-- Slice 1 of the self bias, broadcast over batch and objects. -/
theorem b1_1 (b : Fin 32) (o : Fin 128) (f : Fin 256) : val_main_v36 (F := Ideal) x4 (ValueIdx.ix3 b o f) = x4 (ValueIdx.ix2 (1 : Fin 3) f) := by
  rw [val_main_v36_apply, val_main_v35_apply, val_main_v34_apply, val_main_v33_apply]
  have hf := f.isLt
  refine congrArg _ ?_
  funext a
  match a with
  | ⟨0, _⟩ => rfl
  | ⟨1, _⟩ => apply Fin.ext; show f.val % 256 = f.val; omega

/-- The self linear map. -/
theorem h1_1 (b : Fin 32) (o : Fin 128) (f : Fin 256) :
    val_main_v37 (F := Ideal) x0 x1 x2 x3 x4 x5 x6 (ValueIdx.ix3 b o f)
      = (∑ d : Fin 256, (val_main_v26 (F := Ideal) x0 x1 x2 x3 x4 x5 x6) (ValueIdx.ix3 b o d) * x3 (ValueIdx.ix3 (1 : Fin 3) d f)) + x4 (ValueIdx.ix2 (1 : Fin 3) f) := by
  rw [val_main_v37_apply, val_main_v32_apply, b1_1]
  refine congrArg (fun z : EReal => z + x4 (ValueIdx.ix2 (1 : Fin 3) f)) ?_
  refine Finset.sum_congr rfl fun d _ => ?_
  have e1 : lidx_main_v32 (ValueIdx.ix3 b o f) d = (ValueIdx.ix3 b o d) := by
    funext a; match a with | ⟨0, _⟩ => rfl | ⟨1, _⟩ => rfl | ⟨2, _⟩ => rfl
  have e2 : ridx_main_v32 (ValueIdx.ix3 b o f) d = (ValueIdx.ix2 d f) := by
    funext a; match a with | ⟨0, _⟩ => rfl | ⟨1, _⟩ => rfl
  rw [e1, e2, w1_1]

/-- Slice 1 of the relational weights. -/
theorem w2_1 (c : Fin 320) (f : Fin 256) : val_main_v39 (F := Ideal) x5 (ValueIdx.ix2 c f) = x5 (ValueIdx.ix3 (1 : Fin 3) c f) := by
  rw [val_main_v39_apply, val_main_v38_apply]
  have hc := c.isLt
  have hf := f.isLt
  refine congrArg _ ?_
  funext a
  match a with
  | ⟨0, _⟩ => rfl
  | ⟨1, _⟩ => apply Fin.ext; show (c.val * 256 + f.val) / 256 % 320 = c.val; omega
  | ⟨2, _⟩ => apply Fin.ext; show (c.val * 256 + f.val) % 256 = f.val; omega

/-- Slice 1 of the relational bias, broadcast over batch and pairs. -/
theorem b2_1 (b : Fin 32) (n : Fin 4096) (f : Fin 256) : val_main_v44 (F := Ideal) x6 (ValueIdx.ix3 b n f) = x6 (ValueIdx.ix2 (1 : Fin 3) f) := by
  rw [val_main_v44_apply, val_main_v43_apply, val_main_v42_apply, val_main_v41_apply]
  have hf := f.isLt
  refine congrArg _ ?_
  funext a
  match a with
  | ⟨0, _⟩ => rfl
  | ⟨1, _⟩ => apply Fin.ext; show f.val % 256 = f.val; omega

/-- The relational linear map on the 320-wide rows. -/
theorem h2_1 (b : Fin 32) (n : Fin 4096) (f : Fin 256) :
    val_main_v45 (F := Ideal) x0 x1 x2 x3 x4 x5 x6 (ValueIdx.ix3 b n f)
      = ((∑ c : Fin 320, cat (un2 x2) (un3 (val_main_v26 (F := Ideal) x0 x1 x2 x3 x4 x5 x6)) b n c * x5 (ValueIdx.ix3 (1 : Fin 3) c f)) + x6 (ValueIdx.ix2 (1 : Fin 3) f)) := by
  rw [val_main_v45_apply, val_main_v40_apply, b2_1]
  refine congrArg (fun z : EReal => z + x6 (ValueIdx.ix2 (1 : Fin 3) f)) ?_
  refine Finset.sum_congr rfl fun c _ => ?_
  have e1 : lidx_main_v40 (ValueIdx.ix3 b n f) c = (ValueIdx.ix3 b n c) := by
    funext a; match a with | ⟨0, _⟩ => rfl | ⟨1, _⟩ => rfl | ⟨2, _⟩ => rfl
  have e2 : ridx_main_v40 (ValueIdx.ix3 b n f) c = (ValueIdx.ix2 c f) := by
    funext a; match a with | ⟨0, _⟩ => rfl | ⟨1, _⟩ => rfl
  rw [e1, e2, cat_1, w2_1]

/-- The adjacency aggregates the 4096 rows. -/
theorem agg_1 (b : Fin 32) (o : Fin 128) (f : Fin 256) :
    val_main_v46 (F := Ideal) x0 x1 x2 x3 x4 x5 x6 (ValueIdx.ix3 b o f)
      = ∑ n : Fin 4096, x1 (ValueIdx.ix3 b o n) * ((∑ c : Fin 320, cat (un2 x2) (un3 (val_main_v26 (F := Ideal) x0 x1 x2 x3 x4 x5 x6)) b n c * x5 (ValueIdx.ix3 (1 : Fin 3) c f)) + x6 (ValueIdx.ix2 (1 : Fin 3) f)) := by
  rw [val_main_v46_apply]
  refine Finset.sum_congr rfl fun n _ => ?_
  have e1 : lidx_main_v46 (ValueIdx.ix3 b o f) n = (ValueIdx.ix3 b o n) := by
    funext a; match a with | ⟨0, _⟩ => rfl | ⟨1, _⟩ => rfl | ⟨2, _⟩ => rfl
  have e2 : ridx_main_v46 (ValueIdx.ix3 b o f) n = (ValueIdx.ix3 b n f) := by
    funext a; match a with | ⟨0, _⟩ => rfl | ⟨1, _⟩ => rfl | ⟨2, _⟩ => rfl
  rw [e1, e2, h2_1]

/-- The whole step: self map plus aggregate plus residual, through tanh. -/
theorem step_1 :
    val_main_v49 (F := Ideal) x0 x1 x2 x3 x4 x5 x6
      = fun j => refStep (un3 x1) (un2 x2) (un3 x3) (un2 x4) (un3 x5) (un2 x6) 1 (un3 (val_main_v26 (F := Ideal) x0 x1 x2 x3 x4 x5 x6)) (j 0) (j 1) (j 2) := by
  funext j
  obtain ⟨b, o, f, rfl⟩ : ∃ (b : Fin 32) (o : Fin 128) (f : Fin 256), j = ValueIdx.ix3 b o f :=
    ⟨j 0, j 1, j 2, ValueIdx.eq_ix3 j⟩
  rw [val_main_v49_apply, val_main_v48_apply, val_main_v47_apply, h1_1, agg_1]
  rfl

end Cert.ReferenceIdeal.RefValue

end
-- ==== Proof.RefValueStep2.lean ====
/-
  The third depth step of the reference, read index by index: its operations compose to `Cert.Gcn.refStep` of
  the previous step's result, with slice 2 of the four weight arrays.
-/
import proofs.«144859_j68152541053088_1_alg».proof.Proof.Gen.ReferenceIdeal.Read
import proofs.«144859_j68152541053088_1_alg».proof.Proof.Spec
import proofs.«144859_j68152541053088_1_alg».proof.Proof.RefValueCat
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Cert.Gcn

variable (x0 : (⟨S32x128x256, .f32⟩ : BufTy).Contents (Elt Ideal)) (x1 : (⟨S32x128x4096, .f32⟩ : BufTy).Contents (Elt Ideal)) (x2 : (⟨S32x64, .f32⟩ : BufTy).Contents (Elt Ideal)) (x3 : (⟨S3x256x256, .f32⟩ : BufTy).Contents (Elt Ideal)) (x4 : (⟨S3x256, .f32⟩ : BufTy).Contents (Elt Ideal)) (x5 : (⟨S3x320x256, .f32⟩ : BufTy).Contents (Elt Ideal)) (x6 : (⟨S3x256, .f32⟩ : BufTy).Contents (Elt Ideal))

/-- The features repeated over the 32 relations: row `n` of the 4096 is object `n / 32`. -/
theorem xr_2 (b : Fin 32) (n : Fin 4096) (c : Fin 256) :
    val_main_v51 (F := Ideal) x0 x1 x2 x3 x4 x5 x6 (ValueIdx.ix3 b n c) = (val_main_v49 (F := Ideal) x0 x1 x2 x3 x4 x5 x6) (ValueIdx.ix3 b ⟨n.val / 32, by have := n.isLt; omega⟩ c) := by
  rw [val_main_v51_apply, val_main_v50_apply]
  have hb := b.isLt
  have hn := n.isLt
  have hc := c.isLt
  refine congrArg _ ?_
  funext a
  match a with
  | ⟨0, _⟩ => apply Fin.ext; show ((b.val * 4096 + n.val) * 256 + c.val) / 1048576 = b.val; omega
  | ⟨1, _⟩ => apply Fin.ext; show ((b.val * 4096 + n.val) * 256 + c.val) / 8192 % 128 = n.val / 32; omega
  | ⟨2, _⟩ => apply Fin.ext; show ((b.val * 4096 + n.val) * 256 + c.val) % 256 = c.val; omega

/-- The 320-wide rows: the repeated features, then the relation's embedding. -/
theorem cat_2 (b : Fin 32) (n : Fin 4096) (c : Fin 320) :
    val_main_v52 (F := Ideal) x0 x1 x2 x3 x4 x5 x6 (ValueIdx.ix3 b n c) = cat (un2 x2) (un3 (val_main_v49 (F := Ideal) x0 x1 x2 x3 x4 x5 x6)) b n c := by
  unfold val_main_v52 Cert.Gcn.cat
  rw [cat_read]
  by_cases h : c.val < 256
  · rw [dif_pos h, dif_pos h, xr_2]
  · rw [dif_neg h, dif_neg h, rel_read]

/-- Slice 2 of the self weights. -/
theorem w1_2 (d f : Fin 256) : val_main_v54 (F := Ideal) x3 (ValueIdx.ix2 d f) = x3 (ValueIdx.ix3 (2 : Fin 3) d f) := by
  rw [val_main_v54_apply, val_main_v53_apply]
  have hd := d.isLt
  have hf := f.isLt
  refine congrArg _ ?_
  funext a
  match a with
  | ⟨0, _⟩ => rfl
  | ⟨1, _⟩ => apply Fin.ext; show (d.val * 256 + f.val) / 256 % 256 = d.val; omega
  | ⟨2, _⟩ => apply Fin.ext; show (d.val * 256 + f.val) % 256 = f.val; omega

/-- Slice 2 of the self bias, broadcast over batch and objects. -/
theorem b1_2 (b : Fin 32) (o : Fin 128) (f : Fin 256) : val_main_v59 (F := Ideal) x4 (ValueIdx.ix3 b o f) = x4 (ValueIdx.ix2 (2 : Fin 3) f) := by
  rw [val_main_v59_apply, val_main_v58_apply, val_main_v57_apply, val_main_v56_apply]
  have hf := f.isLt
  refine congrArg _ ?_
  funext a
  match a with
  | ⟨0, _⟩ => rfl
  | ⟨1, _⟩ => apply Fin.ext; show f.val % 256 = f.val; omega

/-- The self linear map. -/
theorem h1_2 (b : Fin 32) (o : Fin 128) (f : Fin 256) :
    val_main_v60 (F := Ideal) x0 x1 x2 x3 x4 x5 x6 (ValueIdx.ix3 b o f)
      = (∑ d : Fin 256, (val_main_v49 (F := Ideal) x0 x1 x2 x3 x4 x5 x6) (ValueIdx.ix3 b o d) * x3 (ValueIdx.ix3 (2 : Fin 3) d f)) + x4 (ValueIdx.ix2 (2 : Fin 3) f) := by
  rw [val_main_v60_apply, val_main_v55_apply, b1_2]
  refine congrArg (fun z : EReal => z + x4 (ValueIdx.ix2 (2 : Fin 3) f)) ?_
  refine Finset.sum_congr rfl fun d _ => ?_
  have e1 : lidx_main_v55 (ValueIdx.ix3 b o f) d = (ValueIdx.ix3 b o d) := by
    funext a; match a with | ⟨0, _⟩ => rfl | ⟨1, _⟩ => rfl | ⟨2, _⟩ => rfl
  have e2 : ridx_main_v55 (ValueIdx.ix3 b o f) d = (ValueIdx.ix2 d f) := by
    funext a; match a with | ⟨0, _⟩ => rfl | ⟨1, _⟩ => rfl
  rw [e1, e2, w1_2]

/-- Slice 2 of the relational weights. -/
theorem w2_2 (c : Fin 320) (f : Fin 256) : val_main_v62 (F := Ideal) x5 (ValueIdx.ix2 c f) = x5 (ValueIdx.ix3 (2 : Fin 3) c f) := by
  rw [val_main_v62_apply, val_main_v61_apply]
  have hc := c.isLt
  have hf := f.isLt
  refine congrArg _ ?_
  funext a
  match a with
  | ⟨0, _⟩ => rfl
  | ⟨1, _⟩ => apply Fin.ext; show (c.val * 256 + f.val) / 256 % 320 = c.val; omega
  | ⟨2, _⟩ => apply Fin.ext; show (c.val * 256 + f.val) % 256 = f.val; omega

/-- Slice 2 of the relational bias, broadcast over batch and pairs. -/
theorem b2_2 (b : Fin 32) (n : Fin 4096) (f : Fin 256) : val_main_v67 (F := Ideal) x6 (ValueIdx.ix3 b n f) = x6 (ValueIdx.ix2 (2 : Fin 3) f) := by
  rw [val_main_v67_apply, val_main_v66_apply, val_main_v65_apply, val_main_v64_apply]
  have hf := f.isLt
  refine congrArg _ ?_
  funext a
  match a with
  | ⟨0, _⟩ => rfl
  | ⟨1, _⟩ => apply Fin.ext; show f.val % 256 = f.val; omega

/-- The relational linear map on the 320-wide rows. -/
theorem h2_2 (b : Fin 32) (n : Fin 4096) (f : Fin 256) :
    val_main_v68 (F := Ideal) x0 x1 x2 x3 x4 x5 x6 (ValueIdx.ix3 b n f)
      = ((∑ c : Fin 320, cat (un2 x2) (un3 (val_main_v49 (F := Ideal) x0 x1 x2 x3 x4 x5 x6)) b n c * x5 (ValueIdx.ix3 (2 : Fin 3) c f)) + x6 (ValueIdx.ix2 (2 : Fin 3) f)) := by
  rw [val_main_v68_apply, val_main_v63_apply, b2_2]
  refine congrArg (fun z : EReal => z + x6 (ValueIdx.ix2 (2 : Fin 3) f)) ?_
  refine Finset.sum_congr rfl fun c _ => ?_
  have e1 : lidx_main_v63 (ValueIdx.ix3 b n f) c = (ValueIdx.ix3 b n c) := by
    funext a; match a with | ⟨0, _⟩ => rfl | ⟨1, _⟩ => rfl | ⟨2, _⟩ => rfl
  have e2 : ridx_main_v63 (ValueIdx.ix3 b n f) c = (ValueIdx.ix2 c f) := by
    funext a; match a with | ⟨0, _⟩ => rfl | ⟨1, _⟩ => rfl
  rw [e1, e2, cat_2, w2_2]

/-- The adjacency aggregates the 4096 rows. -/
theorem agg_2 (b : Fin 32) (o : Fin 128) (f : Fin 256) :
    val_main_v69 (F := Ideal) x0 x1 x2 x3 x4 x5 x6 (ValueIdx.ix3 b o f)
      = ∑ n : Fin 4096, x1 (ValueIdx.ix3 b o n) * ((∑ c : Fin 320, cat (un2 x2) (un3 (val_main_v49 (F := Ideal) x0 x1 x2 x3 x4 x5 x6)) b n c * x5 (ValueIdx.ix3 (2 : Fin 3) c f)) + x6 (ValueIdx.ix2 (2 : Fin 3) f)) := by
  rw [val_main_v69_apply]
  refine Finset.sum_congr rfl fun n _ => ?_
  have e1 : lidx_main_v69 (ValueIdx.ix3 b o f) n = (ValueIdx.ix3 b o n) := by
    funext a; match a with | ⟨0, _⟩ => rfl | ⟨1, _⟩ => rfl | ⟨2, _⟩ => rfl
  have e2 : ridx_main_v69 (ValueIdx.ix3 b o f) n = (ValueIdx.ix3 b n f) := by
    funext a; match a with | ⟨0, _⟩ => rfl | ⟨1, _⟩ => rfl | ⟨2, _⟩ => rfl
  rw [e1, e2, h2_2]

/-- The whole step: self map plus aggregate plus residual, through tanh. -/
theorem step_2 :
    val_main_v72 (F := Ideal) x0 x1 x2 x3 x4 x5 x6
      = fun j => refStep (un3 x1) (un2 x2) (un3 x3) (un2 x4) (un3 x5) (un2 x6) 2 (un3 (val_main_v49 (F := Ideal) x0 x1 x2 x3 x4 x5 x6)) (j 0) (j 1) (j 2) := by
  funext j
  obtain ⟨b, o, f, rfl⟩ : ∃ (b : Fin 32) (o : Fin 128) (f : Fin 256), j = ValueIdx.ix3 b o f :=
    ⟨j 0, j 1, j 2, ValueIdx.eq_ix3 j⟩
  rw [val_main_v72_apply, val_main_v71_apply, val_main_v70_apply, h1_2, agg_2]
  rfl

end Cert.ReferenceIdeal.RefValue

end
-- ==== Proof.RefValue.lean ====
/-
  The reference program's result, read index by index, is three reference depth steps (`Cert.Gcn.ref3`) of the argument arrays.
-/
import proofs.«144859_j68152541053088_1_alg».proof.Proof.Gen.ReferenceIdeal.Run
import proofs.«144859_j68152541053088_1_alg».proof.Proof.Gen.ReferenceIdeal.Read
import proofs.«144859_j68152541053088_1_alg».proof.Proof.Spec
import proofs.«144859_j68152541053088_1_alg».proof.Proof.RefValueStep0
import proofs.«144859_j68152541053088_1_alg».proof.Proof.RefValueStep1
import proofs.«144859_j68152541053088_1_alg».proof.Proof.RefValueStep2
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Cert.Gcn

variable (x0 : (⟨S32x128x256, .f32⟩ : BufTy).Contents (Elt Ideal)) (x1 : (⟨S32x128x4096, .f32⟩ : BufTy).Contents (Elt Ideal)) (x2 : (⟨S32x64, .f32⟩ : BufTy).Contents (Elt Ideal)) (x3 : (⟨S3x256x256, .f32⟩ : BufTy).Contents (Elt Ideal)) (x4 : (⟨S3x256, .f32⟩ : BufTy).Contents (Elt Ideal)) (x5 : (⟨S3x320x256, .f32⟩ : BufTy).Contents (Elt Ideal)) (x6 : (⟨S3x256, .f32⟩ : BufTy).Contents (Elt Ideal))

/-- The reference's result is the three depth steps of its arguments: each step's operations compose to `refStep` of the
    step before (`step_0`, `step_1`, `step_2`). -/
theorem ref_is_spec :
    val_main_v72 (F := Ideal) x0 x1 x2 x3 x4 x5 x6
      = fun j => ref3 (un3 x1) (un2 x2) (un3 x3) (un2 x4) (un3 x5) (un2 x6) (un3 x0) (j 0) (j 1) (j 2) := by
  rw [step_2, step_1, step_0]
  rfl

/-- Every weakly fair execution of the reference terminates with its result buffer at three reference depth steps of the
    arrays the memory holds at the arguments, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72)
          = ((fun j => ref3 (un3 (m ((c.tc : Thread nD τ).loc main_arg1))) (un2 (m ((c.tc : Thread nD τ).loc main_arg2))) (un3 (m ((c.tc : Thread nD τ).loc main_arg3))) (un2 (m ((c.tc : Thread nD τ).loc main_arg4))) (un3 (m ((c.tc : Thread nD τ).loc main_arg5))) (un2 (m ((c.tc : Thread nD τ).loc main_arg6))) (un3 (m ((c.tc : Thread nD τ).loc main_arg0))) (j 0) (j 1) (j 2)) : (⟨S32x128x256, .f32⟩ : BufTy).Contents (Elt Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by rw [Read.val_main_v72_eq, ref_is_spec]), (h c).2⟩)
    (Cert.ReferenceIdeal.Value.run (F := Ideal) m ρ)

end Cert.ReferenceIdeal.RefValue

end
-- ==== Proof.SpecLaw.lean ====
/-
  The algebraic law behind the two ways of computing one depth step of the relational graph layer.

  Writing a pair index n = 32·p + r (object p = n / 32, relation r = n % 32), the 320-wide row of pair n is object
  p's 256 features followed by relation r's 64-wide embedding, so

    Σ_c cat[n,c]·W2[c,f] = (Σ_{d<256} x[p,d]·W2[d,f]) + (Σ_{e<64} rel[r,e]·W2[256+e,f]) =: y[p] + z[r],

  and, all entries being real numbers,

    Σ_n A[n]·(y[n/32] + (z[n%32] + b2)) = Σ_p (Σ_n A[n]·[n/32 = p])·y[p] + Σ_r (Σ_n A[n]·[n%32 = r])·(z[r] + b2).

  Distributivity fails at ±∞ in the extended reals, so the identity is proved over ℝ and transported along the
  coercion; the hypotheses say that the adjacency, the relation embedding, the relational linear map and its bias,
  and the features have real entries.  The hyperbolic tangent always returns a real number, so the features stay
  real after every step.
-/
import proofs.«144859_j68152541053088_1_alg».proof.Proof.Spec

noncomputable section

namespace Cert.Gcn

open Idealize.ShloMosaic

/-! ### Real numbers inside the extended reals -/

/-- The extended real x is (the coercion of) a real number. -/
def IsReal (x : EReal) : Prop := ∃ r : ℝ, x = (r : EReal)

/-- The coercion ℝ → EReal commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sum {ι : Type} (s : Finset ι) (g : ι → EReal) (h : ∀ i, IsReal (g i)) :
    IsReal (∑ i ∈ s, g i) := by
  choose g' hg' using h
  exact ⟨∑ i ∈ s, g' i, by simp only [hg', coe_sum]⟩

/-- The hyperbolic tangent of an extended real is a real number: -1 at ⊥, 1 at ⊤. -/
theorem tanh_real (z : EReal) : ∃ r : ℝ, Ideal.tanh z = (r : EReal) := by
  induction z using EReal.rec with
  | bot => exact ⟨-1, by simp⟩
  | coe r => exact ⟨Real.tanh r, rfl⟩
  | top => exact ⟨1, by simp⟩

/-! ### The law over ℝ -/

/-- Contracting a against the 0/1 matrix "k n = p" and then against y reads y at k n. -/
theorem real_sel {N M : ℕ} (k : Fin N → Fin M) (a : Fin N → ℝ) (y : Fin M → ℝ) :
    ∑ p : Fin M, (∑ n : Fin N, a n * (if (k n).val = p.val then (1 : ℝ) else 0)) * y p
      = ∑ n : Fin N, a n * y (k n) := by
  simp only [Finset.sum_mul]
  rw [Finset.sum_comm]
  refine Finset.sum_congr rfl fun n _ => ?_
  rw [Finset.sum_eq_single (k n)]
  · rw [if_pos rfl, mul_one]
  · intro p _ hp
    have h : (k n).val ≠ p.val := fun h => hp (Fin.ext h.symm)
    rw [if_neg h, mul_zero, zero_mul]
  · intro h; exact absurd (Finset.mem_univ _) h

/-- The two-sided law over ℝ. -/
theorem real_law {N M R : ℕ} (kO : Fin N → Fin M) (kR : Fin N → Fin R)
    (a : Fin N → ℝ) (y : Fin M → ℝ) (z : Fin R → ℝ) :
    (∑ p : Fin M, (∑ n : Fin N, a n * (if (kO n).val = p.val then (1 : ℝ) else 0)) * y p)
      + (∑ r : Fin R, (∑ n : Fin N, a n * (if (kR n).val = r.val then (1 : ℝ) else 0)) * z r)
      = ∑ n : Fin N, a n * (y (kO n) + z (kR n)) := by
  rw [real_sel, real_sel, ← Finset.sum_add_distrib]
  refine Finset.sum_congr rfl fun n _ => ?_
  rw [mul_add]

/-! ### Transport to the extended reals -/

/-- The object of pair n. -/
def objOf (n : Fin 4096) : Fin 128 := ⟨n.val / 32, by have := n.isLt; omega⟩
/-- The relation of pair n. -/
def relOf (n : Fin 4096) : Fin 32 := ⟨n.val % 32, Nat.mod_lt _ (by decide)⟩

theorem selObj_coe (n : Fin 4096) (p : Fin 128) :
    selObj n p = (((if (objOf n).val = p.val then (1 : ℝ) else 0) : ℝ) : EReal) := by
  unfold selObj objOf
  by_cases h : n.val / 32 = p.val
  · rw [if_pos h, if_pos h, EReal.coe_one]
  · rw [if_neg h, if_neg h, EReal.coe_zero]

theorem selRel_coe (n : Fin 4096) (r : Fin 32) :
    selRel n r = (((if (relOf n).val = r.val then (1 : ℝ) else 0) : ℝ) : EReal) := by
  unfold selRel relOf
  by_cases h : n.val % 32 = r.val
  · rw [if_pos h, if_pos h, EReal.coe_one]
  · rw [if_neg h, if_neg h, EReal.coe_zero]

/-- The law in the extended reals, for real entries. -/
theorem agg_law (a : Fin 4096 → EReal) (Y : Fin 128 → EReal) (Z : Fin 32 → EReal)
    (ha : ∀ n, IsReal (a n)) (hY : ∀ p, IsReal (Y p)) (hZ : ∀ r, IsReal (Z r)) :
    (∑ p : Fin 128, (∑ n : Fin 4096, a n * selObj n p) * Y p)
      + (∑ r : Fin 32, (∑ n : Fin 4096, a n * selRel n r) * Z r)
      = ∑ n : Fin 4096, a n * (Y (objOf n) + Z (relOf n)) := by
  choose a' ha' using ha
  choose Y' hY' using hY
  choose Z' hZ' using hZ
  simp only [ha', hY', hZ', selObj_coe, selRel_coe, ← EReal.coe_mul, ← EReal.coe_add, ← coe_sum]
  exact congrArg _ (real_law objOf relOf a' Y' Z')

/-! ### Splitting the 320-wide contraction at 256 -/

theorem sum_split320 {M : Type} [AddCommMonoid M] (F : Fin 320 → M) :
    ∑ c : Fin 320, F c
      = (∑ d : Fin 256, F ⟨d.val, by have := d.isLt; omega⟩)
        + ∑ e : Fin 64, F ⟨256 + e.val, by have := e.isLt; omega⟩ :=
  Fin.sum_univ_add (a := 256) (b := 64) F

theorem cat_lo (rel : Fin 32 → Fin 64 → EReal) (x : Feat) (b : Fin 32) (n : Fin 4096) (d : Fin 256) :
    cat rel x b n ⟨d.val, by have := d.isLt; omega⟩ = x b (objOf n) d := by
  unfold cat
  exact dif_pos d.isLt

theorem cat_hi (rel : Fin 32 → Fin 64 → EReal) (x : Feat) (b : Fin 32) (n : Fin 4096) (e : Fin 64) :
    cat rel x b n ⟨256 + e.val, by have := e.isLt; omega⟩ = rel (relOf n) e := by
  unfold cat
  have h : ¬ (256 + e.val < 256) := by omega
  rw [dif_neg h]
  show rel (relOf n) ⟨256 + e.val - 256, _⟩ = rel (relOf n) e
  congr 1
  exact Fin.ext (by show 256 + e.val - 256 = e.val; omega)

section
variable (A : Fin 32 → Fin 128 → Fin 4096 → EReal) (rel : Fin 32 → Fin 64 → EReal)
  (W1 : Fin 3 → Fin 256 → Fin 256 → EReal) (b1 : Fin 3 → Fin 256 → EReal)
  (W2 : Fin 3 → Fin 320 → Fin 256 → EReal) (b2 : Fin 3 → Fin 256 → EReal)

/-- The per-object half of the relational linear map. -/
def yObj (i : Fin 3) (x : Feat) (b : Fin 32) (f : Fin 256) : Fin 128 → EReal := fun p =>
  ∑ d : Fin 256, x b p d * W2 i ⟨d.val, by have := d.isLt; omega⟩ f

/-- The per-relation half of the relational linear map, bias included. -/
def zRel (i : Fin 3) (f : Fin 256) : Fin 32 → EReal := fun r =>
  (∑ e : Fin 64, rel r e * W2 i ⟨256 + e.val, by have := e.isLt; omega⟩ f) + b2 i f

/-- The 320-wide row contraction of pair n is the sum of its object's and its relation's halves. -/
theorem row_split (i : Fin 3) (x : Feat) (b : Fin 32) (f : Fin 256) (n : Fin 4096) :
    (∑ c : Fin 320, cat rel x b n c * W2 i c f) + b2 i f
      = yObj W2 i x b f (objOf n) + zRel rel W2 b2 i f (relOf n) := by
  rw [sum_split320, add_assoc]
  simp only [cat_lo, cat_hi]
  rfl

theorem refStep_fin (i : Fin 3) (x : Feat) : Fin3 (refStep A rel W1 b1 W2 b2 i x) :=
  fun _ _ _ => tanh_real _

theorem kerStep_fin (i : Fin 3) (x : Feat) : Fin3 (kerStep A rel W1 b1 W2 b2 i x) :=
  fun _ _ _ => tanh_real _

/-- For real entries, the kernel's depth step equals the reference's. -/
theorem kerStep_eq_refStep (hA : Fin3 A) (hrel : Fin2 rel) (hW2 : Fin3 W2) (hb2 : Fin2 b2)
    (i : Fin 3) (x : Feat) (hx : Fin3 x) :
    kerStep A rel W1 b1 W2 b2 i x = refStep A rel W1 b1 W2 b2 i x := by
  funext b o f
  have hY : ∀ p, IsReal (yObj W2 i x b f p) := fun p =>
    IsReal.sum _ _ fun d => IsReal.mul (hx b p d) (hW2 i _ f)
  have hZ : ∀ r, IsReal (zRel rel W2 b2 i f r) := fun r =>
    IsReal.add (IsReal.sum _ _ fun e => IsReal.mul (hrel r e) (hW2 i _ f)) (hb2 i f)
  have hagg : (∑ p : Fin 128, adjObj A b o p * yObj W2 i x b f p)
        + (∑ r : Fin 32, adjRel A b o r * zRel rel W2 b2 i f r)
      = ∑ n : Fin 4096, A b o n * ((∑ c : Fin 320, cat rel x b n c * W2 i c f) + b2 i f) := by
    simp only [row_split]
    exact agg_law (A b o) (yObj W2 i x b f) (zRel rel W2 b2 i f) (hA b o) hY hZ
  have h2 : ∀ (m s1 s2 s t : EReal), s1 + s2 = s →
      Ideal.tanh (((m + s1) + s2) + t) = Ideal.tanh ((m + s) + t) := by
    intro m s1 s2 s t h; rw [add_assoc m s1 s2, h]
  exact h2 _ _ _ _ _ hagg

/-- For real entries, the three depth steps agree. -/
theorem ker3_eq_ref3 (hA : Fin3 A) (hrel : Fin2 rel) (hW2 : Fin3 W2) (hb2 : Fin2 b2)
    (x : Feat) (hx : Fin3 x) :
    ker3 A rel W1 b1 W2 b2 x = ref3 A rel W1 b1 W2 b2 x := by
  unfold ker3 ref3
  rw [kerStep_eq_refStep A rel W1 b1 W2 b2 hA hrel hW2 hb2 0 x hx,
    kerStep_eq_refStep A rel W1 b1 W2 b2 hA hrel hW2 hb2 1 _ (refStep_fin A rel W1 b1 W2 b2 0 x),
    kerStep_eq_refStep A rel W1 b1 W2 b2 hA hrel hW2 hb2 2 _ (refStep_fin A rel W1 b1 W2 b2 1 _)]

end

end Cert.Gcn

end
-- ==== Proof.PreFin.lean ====
/-
  From the precondition "every float input is finite" to "every entry of every argument array is a real number".
  The printed precondition compares |x| with +∞ entry by entry, takes the conjunction over each array, and the conjunction of
  the seven results; it being true gives each comparison, and on the extended reals |x| < +∞ leaves only the real numbers.
-/
import proofs.«144859_j68152541053088_1_alg».proof.Pre_finite_inputs
import proofs.«144859_j68152541053088_1_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.PreFin

open Idealize.ShloMosaic Cert.Pre_finite_inputs

instance : Subsingleton Cert.Pre_finite_inputs.S_.Idx := ⟨fun a b => funext fun d => d.elim0⟩

theorem top_bits : Ideal.ofBits .f32 0x7F800000#32 = ⊤ := by simp [Ideal.ofBits, Ideal.ieee]

/-- |x| < +∞, as the comparison's one-bit word being 1, makes x a real number. -/
theorem real_of_cmp (x : EReal) (h : Ideal.cmp .olt (max x (-x)) (Ideal.ofBits .f32 0x7F800000#32) = 1#1) :
    ∃ r : ℝ, x = (r : EReal) := by
  rw [top_bits] at h
  unfold Ideal.cmp at h
  have h' : max x (-x) < ⊤ := by
    by_contra hc
    simp [hc] at h
  induction x using EReal.rec with
  | bot => simp at h'
  | top => simp at h'
  | coe r => exact ⟨r, rfl⟩

variable [Cert.Pre_finite_inputs.Facts]

theorem reals_of_pre (a0 : FVec Ideal S32x128x256 .f32) (a1 : FVec Ideal S32x128x4096 .f32) (a2 : FVec Ideal S32x64 .f32)
    (a3 : FVec Ideal S3x256x256 .f32) (a4 : FVec Ideal S3x256 .f32) (a5 : FVec Ideal S3x320x256 .f32) (a6 : FVec Ideal S3x256 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have h0 := congrFun h ValueIdx.ix0
  dsimp only [Cert.Pre_finite_inputs.fn, Cert.Pre_finite_inputs.fn_part1] at h0
  obtain ⟨h0, g6⟩ := IntOp.andi_eq_one.1 h0
  obtain ⟨h0, g5⟩ := IntOp.andi_eq_one.1 h0
  obtain ⟨h0, g4⟩ := IntOp.andi_eq_one.1 h0
  obtain ⟨h0, g3⟩ := IntOp.andi_eq_one.1 h0
  obtain ⟨h0, g2⟩ := IntOp.andi_eq_one.1 h0
  obtain ⟨g0, g1⟩ := IntOp.andi_eq_one.1 h0
  exact ⟨fun i => real_of_cmp _ (Host.reduce_andi_all _ _ _ _ ValueIdx.ix0 g0 i),
    fun i => real_of_cmp _ (Host.reduce_andi_all _ _ _ _ ValueIdx.ix0 g1 i),
    fun i => real_of_cmp _ (Host.reduce_andi_all _ _ _ _ ValueIdx.ix0 g2 i),
    fun i => real_of_cmp _ (Host.reduce_andi_all _ _ _ _ ValueIdx.ix0 g3 i),
    fun i => real_of_cmp _ (Host.reduce_andi_all _ _ _ _ ValueIdx.ix0 g4 i),
    fun i => real_of_cmp _ (Host.reduce_andi_all _ _ _ _ ValueIdx.ix0 g5 i),
    fun i => real_of_cmp _ (Host.reduce_andi_all _ _ _ _ ValueIdx.ix0 g6 i)⟩

end Cert.PreFin

end
-- ==== Proof.KIKeep.lean ====
/-
  What each boundary of the run still holds of the argument arrays and of the two reduced adjacency tensors: an argument array is
  as launched at every boundary (no stretch writes it; a pipeline only reads it), and the reduced adjacency slices, once the stretch
  before the first depth step has cut them, are carried unchanged through the later stretches and pipelines, which only read them.
-/
import proofs.«144859_j68152541053088_1_alg».proof.Proof.KernelIdealRun

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## The arguments at the boundaries the stretches and pipelines read them from -/

theorem B5_main_arg0 (c : Dev nD) : B5 m ρ c (Proc.devRef .tc main_arg0) = m ((c : Thread nD τ).loc main_arg0) :=
  (B5_of m ρ c main_arg0 (by decide)).trans <| (B4_of m ρ c main_arg0 (by decide)).trans <| (B3_of m ρ c main_arg0 (by decide)).trans <| (B2_of m ρ c main_arg0 (by decide)).trans <| (B1_of m ρ c main_arg0 (by decide)).trans rfl
theorem B5_main_arg1 (c : Dev nD) : B5 m ρ c (Proc.devRef .tc main_arg1) = m ((c : Thread nD τ).loc main_arg1) :=
  (B5_of m ρ c main_arg1 (by decide)).trans <| (B4_of m ρ c main_arg1 (by decide)).trans <| (B3_of m ρ c main_arg1 (by decide)).trans <| (B2_of m ρ c main_arg1 (by decide)).trans <| (B1_of m ρ c main_arg1 (by decide)).trans rfl
theorem B5_main_arg2 (c : Dev nD) : B5 m ρ c (Proc.devRef .tc main_arg2) = m ((c : Thread nD τ).loc main_arg2) :=
  (B5_of m ρ c main_arg2 (by decide)).trans <| (B4_of m ρ c main_arg2 (by decide)).trans <| (B3_of m ρ c main_arg2 (by decide)).trans <| (B2_of m ρ c main_arg2 (by decide)).trans <| (B1_of m ρ c main_arg2 (by decide)).trans rfl
theorem B5_main_arg3 (c : Dev nD) : B5 m ρ c (Proc.devRef .tc main_arg3) = m ((c : Thread nD τ).loc main_arg3) :=
  (B5_of m ρ c main_arg3 (by decide)).trans <| (B4_of m ρ c main_arg3 (by decide)).trans <| (B3_of m ρ c main_arg3 (by decide)).trans <| (B2_of m ρ c main_arg3 (by decide)).trans <| (B1_of m ρ c main_arg3 (by decide)).trans rfl
theorem B5_main_arg4 (c : Dev nD) : B5 m ρ c (Proc.devRef .tc main_arg4) = m ((c : Thread nD τ).loc main_arg4) :=
  (B5_of m ρ c main_arg4 (by decide)).trans <| (B4_of m ρ c main_arg4 (by decide)).trans <| (B3_of m ρ c main_arg4 (by decide)).trans <| (B2_of m ρ c main_arg4 (by decide)).trans <| (B1_of m ρ c main_arg4 (by decide)).trans rfl
theorem B5_main_arg5 (c : Dev nD) : B5 m ρ c (Proc.devRef .tc main_arg5) = m ((c : Thread nD τ).loc main_arg5) :=
  (B5_of m ρ c main_arg5 (by decide)).trans <| (B4_of m ρ c main_arg5 (by decide)).trans <| (B3_of m ρ c main_arg5 (by decide)).trans <| (B2_of m ρ c main_arg5 (by decide)).trans <| (B1_of m ρ c main_arg5 (by decide)).trans rfl
theorem B5_main_arg6 (c : Dev nD) : B5 m ρ c (Proc.devRef .tc main_arg6) = m ((c : Thread nD τ).loc main_arg6) :=
  (B5_of m ρ c main_arg6 (by decide)).trans <| (B4_of m ρ c main_arg6 (by decide)).trans <| (B3_of m ρ c main_arg6 (by decide)).trans <| (B2_of m ρ c main_arg6 (by decide)).trans <| (B1_of m ρ c main_arg6 (by decide)).trans rfl
theorem B6_main_arg0 (c : Dev nD) : B6 m ρ c (Proc.devRef .tc main_arg0) = m ((c : Thread nD τ).loc main_arg0) :=
  (B6_of_ne m ρ c main_arg0 (by decide)).trans <| (B5_of m ρ c main_arg0 (by decide)).trans <| (B4_of m ρ c main_arg0 (by decide)).trans <| (B3_of m ρ c main_arg0 (by decide)).trans <| (B2_of m ρ c main_arg0 (by decide)).trans <| (B1_of m ρ c main_arg0 (by decide)).trans rfl
theorem B6_main_arg1 (c : Dev nD) : B6 m ρ c (Proc.devRef .tc main_arg1) = m ((c : Thread nD τ).loc main_arg1) :=
  ((B6_arr m ρ c 0).trans (((dat0 (C5 m ρ) c).arrAt_in 0 rfl _).trans (A_eq0 (C5 m ρ) c 0))).trans <| (B5_of m ρ c main_arg1 (by decide)).trans <| (B4_of m ρ c main_arg1 (by decide)).trans <| (B3_of m ρ c main_arg1 (by decide)).trans <| (B2_of m ρ c main_arg1 (by decide)).trans <| (B1_of m ρ c main_arg1 (by decide)).trans rfl
theorem B6_main_arg2 (c : Dev nD) : B6 m ρ c (Proc.devRef .tc main_arg2) = m ((c : Thread nD τ).loc main_arg2) :=
  (B6_of_ne m ρ c main_arg2 (by decide)).trans <| (B5_of m ρ c main_arg2 (by decide)).trans <| (B4_of m ρ c main_arg2 (by decide)).trans <| (B3_of m ρ c main_arg2 (by decide)).trans <| (B2_of m ρ c main_arg2 (by decide)).trans <| (B1_of m ρ c main_arg2 (by decide)).trans rfl
theorem B6_main_arg3 (c : Dev nD) : B6 m ρ c (Proc.devRef .tc main_arg3) = m ((c : Thread nD τ).loc main_arg3) :=
  (B6_of_ne m ρ c main_arg3 (by decide)).trans <| (B5_of m ρ c main_arg3 (by decide)).trans <| (B4_of m ρ c main_arg3 (by decide)).trans <| (B3_of m ρ c main_arg3 (by decide)).trans <| (B2_of m ρ c main_arg3 (by decide)).trans <| (B1_of m ρ c main_arg3 (by decide)).trans rfl
theorem B6_main_arg4 (c : Dev nD) : B6 m ρ c (Proc.devRef .tc main_arg4) = m ((c : Thread nD τ).loc main_arg4) :=
  (B6_of_ne m ρ c main_arg4 (by decide)).trans <| (B5_of m ρ c main_arg4 (by decide)).trans <| (B4_of m ρ c main_arg4 (by decide)).trans <| (B3_of m ρ c main_arg4 (by decide)).trans <| (B2_of m ρ c main_arg4 (by decide)).trans <| (B1_of m ρ c main_arg4 (by decide)).trans rfl
theorem B6_main_arg5 (c : Dev nD) : B6 m ρ c (Proc.devRef .tc main_arg5) = m ((c : Thread nD τ).loc main_arg5) :=
  (B6_of_ne m ρ c main_arg5 (by decide)).trans <| (B5_of m ρ c main_arg5 (by decide)).trans <| (B4_of m ρ c main_arg5 (by decide)).trans <| (B3_of m ρ c main_arg5 (by decide)).trans <| (B2_of m ρ c main_arg5 (by decide)).trans <| (B1_of m ρ c main_arg5 (by decide)).trans rfl
theorem B6_main_arg6 (c : Dev nD) : B6 m ρ c (Proc.devRef .tc main_arg6) = m ((c : Thread nD τ).loc main_arg6) :=
  (B6_of_ne m ρ c main_arg6 (by decide)).trans <| (B5_of m ρ c main_arg6 (by decide)).trans <| (B4_of m ρ c main_arg6 (by decide)).trans <| (B3_of m ρ c main_arg6 (by decide)).trans <| (B2_of m ρ c main_arg6 (by decide)).trans <| (B1_of m ρ c main_arg6 (by decide)).trans rfl
theorem B8_main_arg0 (c : Dev nD) : B8 m ρ c (Proc.devRef .tc main_arg0) = m ((c : Thread nD τ).loc main_arg0) :=
  ((B8_arr m ρ c 0).trans (((dat1 (C7 m ρ) c).arrAt_in 0 rfl _).trans (A_eq1 (C7 m ρ) c 0))).trans <| (B7_of m ρ c main_arg0 (by decide)).trans <| (B6_of_ne m ρ c main_arg0 (by decide)).trans <| (B5_of m ρ c main_arg0 (by decide)).trans <| (B4_of m ρ c main_arg0 (by decide)).trans <| (B3_of m ρ c main_arg0 (by decide)).trans <| (B2_of m ρ c main_arg0 (by decide)).trans <| (B1_of m ρ c main_arg0 (by decide)).trans rfl
theorem B8_main_arg1 (c : Dev nD) : B8 m ρ c (Proc.devRef .tc main_arg1) = m ((c : Thread nD τ).loc main_arg1) :=
  (B8_of_ne m ρ c main_arg1 (by decide)).trans <| (B7_of m ρ c main_arg1 (by decide)).trans <| ((B6_arr m ρ c 0).trans (((dat0 (C5 m ρ) c).arrAt_in 0 rfl _).trans (A_eq0 (C5 m ρ) c 0))).trans <| (B5_of m ρ c main_arg1 (by decide)).trans <| (B4_of m ρ c main_arg1 (by decide)).trans <| (B3_of m ρ c main_arg1 (by decide)).trans <| (B2_of m ρ c main_arg1 (by decide)).trans <| (B1_of m ρ c main_arg1 (by decide)).trans rfl
theorem B8_main_arg2 (c : Dev nD) : B8 m ρ c (Proc.devRef .tc main_arg2) = m ((c : Thread nD τ).loc main_arg2) :=
  (B8_of_ne m ρ c main_arg2 (by decide)).trans <| (B7_of m ρ c main_arg2 (by decide)).trans <| (B6_of_ne m ρ c main_arg2 (by decide)).trans <| (B5_of m ρ c main_arg2 (by decide)).trans <| (B4_of m ρ c main_arg2 (by decide)).trans <| (B3_of m ρ c main_arg2 (by decide)).trans <| (B2_of m ρ c main_arg2 (by decide)).trans <| (B1_of m ρ c main_arg2 (by decide)).trans rfl
theorem B8_main_arg3 (c : Dev nD) : B8 m ρ c (Proc.devRef .tc main_arg3) = m ((c : Thread nD τ).loc main_arg3) :=
  (B8_of_ne m ρ c main_arg3 (by decide)).trans <| (B7_of m ρ c main_arg3 (by decide)).trans <| (B6_of_ne m ρ c main_arg3 (by decide)).trans <| (B5_of m ρ c main_arg3 (by decide)).trans <| (B4_of m ρ c main_arg3 (by decide)).trans <| (B3_of m ρ c main_arg3 (by decide)).trans <| (B2_of m ρ c main_arg3 (by decide)).trans <| (B1_of m ρ c main_arg3 (by decide)).trans rfl
theorem B8_main_arg4 (c : Dev nD) : B8 m ρ c (Proc.devRef .tc main_arg4) = m ((c : Thread nD τ).loc main_arg4) :=
  (B8_of_ne m ρ c main_arg4 (by decide)).trans <| (B7_of m ρ c main_arg4 (by decide)).trans <| (B6_of_ne m ρ c main_arg4 (by decide)).trans <| (B5_of m ρ c main_arg4 (by decide)).trans <| (B4_of m ρ c main_arg4 (by decide)).trans <| (B3_of m ρ c main_arg4 (by decide)).trans <| (B2_of m ρ c main_arg4 (by decide)).trans <| (B1_of m ρ c main_arg4 (by decide)).trans rfl
theorem B8_main_arg5 (c : Dev nD) : B8 m ρ c (Proc.devRef .tc main_arg5) = m ((c : Thread nD τ).loc main_arg5) :=
  (B8_of_ne m ρ c main_arg5 (by decide)).trans <| (B7_of m ρ c main_arg5 (by decide)).trans <| (B6_of_ne m ρ c main_arg5 (by decide)).trans <| (B5_of m ρ c main_arg5 (by decide)).trans <| (B4_of m ρ c main_arg5 (by decide)).trans <| (B3_of m ρ c main_arg5 (by decide)).trans <| (B2_of m ρ c main_arg5 (by decide)).trans <| (B1_of m ρ c main_arg5 (by decide)).trans rfl
theorem B8_main_arg6 (c : Dev nD) : B8 m ρ c (Proc.devRef .tc main_arg6) = m ((c : Thread nD τ).loc main_arg6) :=
  (B8_of_ne m ρ c main_arg6 (by decide)).trans <| (B7_of m ρ c main_arg6 (by decide)).trans <| (B6_of_ne m ρ c main_arg6 (by decide)).trans <| (B5_of m ρ c main_arg6 (by decide)).trans <| (B4_of m ρ c main_arg6 (by decide)).trans <| (B3_of m ρ c main_arg6 (by decide)).trans <| (B2_of m ρ c main_arg6 (by decide)).trans <| (B1_of m ρ c main_arg6 (by decide)).trans rfl
theorem B10_main_arg0 (c : Dev nD) : B10 m ρ c (Proc.devRef .tc main_arg0) = m ((c : Thread nD τ).loc main_arg0) :=
  (B10_of_ne m ρ c main_arg0 (by decide)).trans <| (B9_of m ρ c main_arg0 (by decide)).trans <| ((B8_arr m ρ c 0).trans (((dat1 (C7 m ρ) c).arrAt_in 0 rfl _).trans (A_eq1 (C7 m ρ) c 0))).trans <| (B7_of m ρ c main_arg0 (by decide)).trans <| (B6_of_ne m ρ c main_arg0 (by decide)).trans <| (B5_of m ρ c main_arg0 (by decide)).trans <| (B4_of m ρ c main_arg0 (by decide)).trans <| (B3_of m ρ c main_arg0 (by decide)).trans <| (B2_of m ρ c main_arg0 (by decide)).trans <| (B1_of m ρ c main_arg0 (by decide)).trans rfl
theorem B10_main_arg1 (c : Dev nD) : B10 m ρ c (Proc.devRef .tc main_arg1) = m ((c : Thread nD τ).loc main_arg1) :=
  (B10_of_ne m ρ c main_arg1 (by decide)).trans <| (B9_of m ρ c main_arg1 (by decide)).trans <| (B8_of_ne m ρ c main_arg1 (by decide)).trans <| (B7_of m ρ c main_arg1 (by decide)).trans <| ((B6_arr m ρ c 0).trans (((dat0 (C5 m ρ) c).arrAt_in 0 rfl _).trans (A_eq0 (C5 m ρ) c 0))).trans <| (B5_of m ρ c main_arg1 (by decide)).trans <| (B4_of m ρ c main_arg1 (by decide)).trans <| (B3_of m ρ c main_arg1 (by decide)).trans <| (B2_of m ρ c main_arg1 (by decide)).trans <| (B1_of m ρ c main_arg1 (by decide)).trans rfl
theorem B10_main_arg2 (c : Dev nD) : B10 m ρ c (Proc.devRef .tc main_arg2) = m ((c : Thread nD τ).loc main_arg2) :=
  (B10_of_ne m ρ c main_arg2 (by decide)).trans <| (B9_of m ρ c main_arg2 (by decide)).trans <| (B8_of_ne m ρ c main_arg2 (by decide)).trans <| (B7_of m ρ c main_arg2 (by decide)).trans <| (B6_of_ne m ρ c main_arg2 (by decide)).trans <| (B5_of m ρ c main_arg2 (by decide)).trans <| (B4_of m ρ c main_arg2 (by decide)).trans <| (B3_of m ρ c main_arg2 (by decide)).trans <| (B2_of m ρ c main_arg2 (by decide)).trans <| (B1_of m ρ c main_arg2 (by decide)).trans rfl
theorem B10_main_arg3 (c : Dev nD) : B10 m ρ c (Proc.devRef .tc main_arg3) = m ((c : Thread nD τ).loc main_arg3) :=
  (B10_of_ne m ρ c main_arg3 (by decide)).trans <| (B9_of m ρ c main_arg3 (by decide)).trans <| (B8_of_ne m ρ c main_arg3 (by decide)).trans <| (B7_of m ρ c main_arg3 (by decide)).trans <| (B6_of_ne m ρ c main_arg3 (by decide)).trans <| (B5_of m ρ c main_arg3 (by decide)).trans <| (B4_of m ρ c main_arg3 (by decide)).trans <| (B3_of m ρ c main_arg3 (by decide)).trans <| (B2_of m ρ c main_arg3 (by decide)).trans <| (B1_of m ρ c main_arg3 (by decide)).trans rfl
theorem B10_main_arg4 (c : Dev nD) : B10 m ρ c (Proc.devRef .tc main_arg4) = m ((c : Thread nD τ).loc main_arg4) :=
  (B10_of_ne m ρ c main_arg4 (by decide)).trans <| (B9_of m ρ c main_arg4 (by decide)).trans <| (B8_of_ne m ρ c main_arg4 (by decide)).trans <| (B7_of m ρ c main_arg4 (by decide)).trans <| (B6_of_ne m ρ c main_arg4 (by decide)).trans <| (B5_of m ρ c main_arg4 (by decide)).trans <| (B4_of m ρ c main_arg4 (by decide)).trans <| (B3_of m ρ c main_arg4 (by decide)).trans <| (B2_of m ρ c main_arg4 (by decide)).trans <| (B1_of m ρ c main_arg4 (by decide)).trans rfl
theorem B10_main_arg5 (c : Dev nD) : B10 m ρ c (Proc.devRef .tc main_arg5) = m ((c : Thread nD τ).loc main_arg5) :=
  (B10_of_ne m ρ c main_arg5 (by decide)).trans <| (B9_of m ρ c main_arg5 (by decide)).trans <| (B8_of_ne m ρ c main_arg5 (by decide)).trans <| (B7_of m ρ c main_arg5 (by decide)).trans <| (B6_of_ne m ρ c main_arg5 (by decide)).trans <| (B5_of m ρ c main_arg5 (by decide)).trans <| (B4_of m ρ c main_arg5 (by decide)).trans <| (B3_of m ρ c main_arg5 (by decide)).trans <| (B2_of m ρ c main_arg5 (by decide)).trans <| (B1_of m ρ c main_arg5 (by decide)).trans rfl
theorem B10_main_arg6 (c : Dev nD) : B10 m ρ c (Proc.devRef .tc main_arg6) = m ((c : Thread nD τ).loc main_arg6) :=
  (B10_of_ne m ρ c main_arg6 (by decide)).trans <| (B9_of m ρ c main_arg6 (by decide)).trans <| (B8_of_ne m ρ c main_arg6 (by decide)).trans <| (B7_of m ρ c main_arg6 (by decide)).trans <| (B6_of_ne m ρ c main_arg6 (by decide)).trans <| (B5_of m ρ c main_arg6 (by decide)).trans <| (B4_of m ρ c main_arg6 (by decide)).trans <| (B3_of m ρ c main_arg6 (by decide)).trans <| (B2_of m ρ c main_arg6 (by decide)).trans <| (B1_of m ρ c main_arg6 (by decide)).trans rfl

/-! ## The features between the depth steps: a pipeline's output array is not touched by the stretch after it -/

theorem B7_v18 (c : Dev nD) : B7 m ρ c (Proc.devRef .tc main_v18) = B6 m ρ c (Proc.devRef .tc main_v18) := B7_of m ρ c main_v18 (by decide)
theorem B9_v36 (c : Dev nD) : B9 m ρ c (Proc.devRef .tc main_v36) = B8 m ρ c (Proc.devRef .tc main_v36) := B9_of m ρ c main_v36 (by decide)
theorem B11_v52 (c : Dev nD) : B11 m ρ c (Proc.devRef .tc main_v52) = B10 m ρ c (Proc.devRef .tc main_v52) := B11_of m ρ c main_v52 (by decide)

/-! ## The reduced adjacency slices, cut once, read by all three depth steps -/

theorem B9_v19 (c : Dev nD) : B9 m ρ c (Proc.devRef .tc main_v19) = B7 m ρ c (Proc.devRef .tc main_v19) :=
  (B9_of m ρ c main_v19 (by decide)).trans ((B8_arr m ρ c 1).trans (((dat1 (C7 m ρ) c).arrAt_in 1 rfl _).trans (A_eq1 (C7 m ρ) c 1)))
theorem B9_v20 (c : Dev nD) : B9 m ρ c (Proc.devRef .tc main_v20) = B7 m ρ c (Proc.devRef .tc main_v20) :=
  (B9_of m ρ c main_v20 (by decide)).trans ((B8_arr m ρ c 2).trans (((dat1 (C7 m ρ) c).arrAt_in 2 rfl _).trans (A_eq1 (C7 m ρ) c 2)))
theorem B11_v19 (c : Dev nD) : B11 m ρ c (Proc.devRef .tc main_v19) = B7 m ρ c (Proc.devRef .tc main_v19) :=
  (B11_of m ρ c main_v19 (by decide)).trans (((B10_arr m ρ c 1).trans (((dat2 (C9 m ρ) c).arrAt_in 1 rfl _).trans (A_eq2 (C9 m ρ) c 1))).trans (B9_v19 m ρ c))
theorem B11_v20 (c : Dev nD) : B11 m ρ c (Proc.devRef .tc main_v20) = B7 m ρ c (Proc.devRef .tc main_v20) :=
  (B11_of m ρ c main_v20 (by decide)).trans (((B10_arr m ρ c 2).trans (((dat2 (C9 m ρ) c).arrAt_in 2 rfl _).trans (A_eq2 (C9 m ρ) c 2))).trans (B9_v20 m ρ c))

/-! ## The pipelines' output arrays at their exits -/

theorem B6_v18 (c : Dev nD) : B6 m ρ c (Proc.devRef .tc main_v18) = (dat0 (C5 m ρ) c).arrAt 2 cfg0.N := B6_arr m ρ c 2
theorem B8_v36 (c : Dev nD) : B8 m ρ c (Proc.devRef .tc main_v36) = (dat1 (C7 m ρ) c).arrAt 7 cfg1.N := B8_arr m ρ c 7
theorem B10_v52 (c : Dev nD) : B10 m ρ c (Proc.devRef .tc main_v52) = (dat2 (C9 m ρ) c).arrAt 7 cfg2.N := B10_arr m ρ c 7
theorem B12_v68 (c : Dev nD) : B12 m ρ c (Proc.devRef .tc main_v68) = (dat3 (C11 m ρ) c).arrAt 7 cfg3.N := B12_arr m ρ c 7

end Cert.KernelIdeal.Fr

end
-- ==== Proof.SpecK.lean ====
/-
  The two kernels' blockwise results as whole-array functions, over the literal shapes the programs use.

  * `reduceArr`: batch entry b's 128 × 4096 adjacency block times the 4096 × 256 selection matrix.
  * `depthArr`: one depth step from the features, the two reduced adjacency tensors and the step's parameter matrices:
    tanh((((x·W1 + b1) + Aobj·(x·W2a)) + Arel·zb) + x).
  * `stEntry`: the selection matrix's entry: columns 0–127 select the pair's object, columns 128–159 its relation, the
    rest are zero padding.
-/
import proofs.«144859_j68152541053088_1_alg».proof.Proof.Spec

noncomputable section

namespace Cert.Gcn

open Idealize.ShloMosaic Idealize.ShloMosaic.ValueIdx

/-- Arrays of extended reals over a literal rank-3 / rank-2 shape. -/
abbrev A3 (n0 n1 n2 : Nat) : Type := (⟨3, ![n0, n1, n2]⟩ : Shape).Idx → EReal
abbrev A2 (n0 n1 : Nat) : Type := (⟨2, ![n0, n1]⟩ : Shape).Idx → EReal

/-- Entry (n, j) of the selection matrix. -/
def stEntry (n : Fin 4096) (j : Fin 256) : EReal :=
  if h : j.val < 128 then selObj n ⟨j.val, h⟩
  else if h2 : j.val < 160 then selRel n ⟨j.val - 128, by omega⟩
  else 0

/-- Entry (b, o, j) of the adjacency times a 4096 × 256 matrix. -/
def reduceAt (A : A3 32 128 4096) (st : A2 4096 256) (b : Fin 32) (o : Fin 128) (j : Fin 256) : EReal :=
  ∑ n : Fin 4096, A (ix3 b o n) * st (ix2 n j)
def reduceArr (A : A3 32 128 4096) (st : A2 4096 256) : A3 32 128 256 :=
  fun i => reduceAt A st (i 0) (i 1) (i 2)

/-- Entry (b, o, f) of one depth step. -/
def depthAt (x : A3 32 128 256) (as : A3 32 128 128) (ar : A3 32 128 32) (w1 : A2 256 256) (bb : A2 1 256)
    (w2a : A2 256 256) (zb : A2 32 256) (b : Fin 32) (o : Fin 128) (f : Fin 256) : EReal :=
  Ideal.tanh (((((∑ d : Fin 256, x (ix3 b o d) * w1 (ix2 d f)) + bb (ix2 0 f))
      + ∑ p : Fin 128, as (ix3 b o p) * (∑ d : Fin 256, x (ix3 b p d) * w2a (ix2 d f)))
      + ∑ r : Fin 32, ar (ix3 b o r) * zb (ix2 r f))
    + x (ix3 b o f))
def depthArr (x : A3 32 128 256) (as : A3 32 128 128) (ar : A3 32 128 32) (w1 : A2 256 256) (bb : A2 1 256)
    (w2a : A2 256 256) (zb : A2 32 256) : A3 32 128 256 :=
  fun i => depthAt x as ar w1 bb w2a zb (i 0) (i 1) (i 2)

end Cert.Gcn

end
-- ==== Proof.KIValue0Pay.lean ====
/-
  The adjacency reduction kernel's arithmetic at an index: entry (o, j) of the 128 × 256 product block is the sum, over
  the 4096 (object, relation) pairs n, of the adjacency block's entry (o, n) times the selection matrix's entry (n, j).
  The two unit-axis casts only rename indices, the narrowing of the block to bf16 is the identity on the ideal values, and
  the matrix product into the zero accumulator is the plain sum over its one contracted axis.
-/
import proofs.«144859_j68152541053088_1_alg».proof.Proof.Gen.KernelIdeal.Skeleton
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Val0

open Cert.KernelIdeal Cert.KernelIdeal.Gen
open Idealize.ShloMosaic Idealize.ShloMosaic.ValueIdx

/-! ## The product's dimension numbers: rows × contraction times contraction × columns -/

theorem lhs_row (i : S128x256.Idx) (q : dot_S128x4096_S4096x256_S128x256_1_0_0_1_n_n.contr.Idx) :
    (dot_S128x4096_S4096x256_S128x256_1_0_0_1_n_n.lhsIdx i q 0).val = (i 0).val := by
  unfold DotDims.lhsIdx
  rw [dif_neg (show ¬(0 : Fin S128x4096.rank) ∈ dot_S128x4096_S4096x256_S128x256_1_0_0_1_n_n.lhsBatch by decide), dif_pos (show (0 : Fin S128x4096.rank) ∈ dot_S128x4096_S4096x256_S128x256_1_0_0_1_n_n.lhsNonContracting by decide)]
  rfl
theorem lhs_contr (i : S128x256.Idx) (q : dot_S128x4096_S4096x256_S128x256_1_0_0_1_n_n.contr.Idx) :
    (dot_S128x4096_S4096x256_S128x256_1_0_0_1_n_n.lhsIdx i q 1).val = (q ⟨0, by decide⟩).val :=
  dot_S128x4096_S4096x256_S128x256_1_0_0_1_n_n.lhsIdx_val_of_single rfl i q
theorem rhs_contr (i : S128x256.Idx) (q : dot_S128x4096_S4096x256_S128x256_1_0_0_1_n_n.contr.Idx) :
    (dot_S128x4096_S4096x256_S128x256_1_0_0_1_n_n.rhsIdx i q 0).val = (q ⟨0, by decide⟩).val :=
  dot_S128x4096_S4096x256_S128x256_1_0_0_1_n_n.rhsIdx_val_of_single rfl i q
theorem rhs_col (i : S128x256.Idx) (q : dot_S128x4096_S4096x256_S128x256_1_0_0_1_n_n.contr.Idx) :
    (dot_S128x4096_S4096x256_S128x256_1_0_0_1_n_n.rhsIdx i q 1).val = (i 1).val := by
  unfold DotDims.rhsIdx
  rw [dif_neg (show ¬(1 : Fin S4096x256.rank) ∈ dot_S128x4096_S4096x256_S128x256_1_0_0_1_n_n.rhsBatch by decide), dif_pos (show (1 : Fin S4096x256.rank) ∈ dot_S128x4096_S4096x256_S128x256_1_0_0_1_n_n.rhsNonContracting by decide)]
  rfl

/-- The matrix product into the zero accumulator, at entry (o, j): the sum over the contracted axis. -/
theorem matmul_at (l : FVec Ideal S128x4096 .bf16) (r : FVec Ideal S4096x256 .bf16) (o : Fin 128) (j : Fin 256) :
    FloatOps.matmul dot_S128x4096_S4096x256_S128x256_1_0_0_1_n_n none l r (constant (F := Ideal) S128x256 .f32 0x00000000#32) (ix2 o j)
      = ∑ n : Fin 4096, l (ix2 o n) * r (ix2 n j) := by
  rw [Ideal.matmul_constant_zero_apply, ← Equiv.sum_comp (ValueIdx.contrEquiv1 dot_S128x4096_S4096x256_S128x256_1_0_0_1_n_n 4096 rfl rfl).symm]
  refine Finset.sum_congr rfl fun k _ => ?_
  have hk := ValueIdx.contrEquiv1_symm_val dot_S128x4096_S4096x256_S128x256_1_0_0_1_n_n 4096 rfl rfl k
  have el : dot_S128x4096_S4096x256_S128x256_1_0_0_1_n_n.lhsIdx (ix2 o j) ((ValueIdx.contrEquiv1 dot_S128x4096_S4096x256_S128x256_1_0_0_1_n_n 4096 rfl rfl).symm k) = ix2 o k := funext fun a => Fin.ext (by
    match a with
    | ⟨0, _⟩ => exact lhs_row _ _
    | ⟨1, _⟩ => exact (lhs_contr _ _).trans hk)
  have er : dot_S128x4096_S4096x256_S128x256_1_0_0_1_n_n.rhsIdx (ix2 o j) ((ValueIdx.contrEquiv1 dot_S128x4096_S4096x256_S128x256_1_0_0_1_n_n 4096 rfl rfl).symm k) = ix2 k j := funext fun a => Fin.ext (by
    match a with
    | ⟨0, _⟩ => exact (rhs_contr _ _).trans hk
    | ⟨1, _⟩ => exact rhs_col _ _)
  rw [el, er]

/-- The body's arithmetic on a staged adjacency block x0 and the staged selection matrix x1, at entry (0, o, j). -/
theorem pay_at (x0 : FVec Ideal S1x128x4096 .f32) (x1 : FVec Ideal S4096x256 .bf16) (o : Fin 128) (j : Fin 256) :
    k0_pay1 (F := Ideal) x0 x1 (ix3 0 o j) = ∑ n : Fin 4096, x0 (ix3 0 o n) * x1 (ix2 n j) := by
  unfold k0_pay1
  refine (shapeCast_ab_1ab_apply _ _ 0 o j).trans ?_
  refine (matmul_at _ _ o j).trans ?_
  refine Finset.sum_congr rfl fun n _ => ?_
  rw [shapeCast_self]
  refine congrArg (· * x1 (ix2 n j)) ?_
  exact shapeCast_1ab_ab_apply x0 _ o n

end Cert.KernelIdeal.Val0

end
-- ==== Proof.KIValue0.lean ====
/-
  Pipeline 0's output array as one function of the arrays the region is entered from: after the 32 grid points, entry
  (b, o, j) of the result is the sum over the 4096 (object, relation) pairs n of the adjacency's entry (b, o, n) times the
  selection matrix's entry (n, j). Point t stages batch entry t's 128 × 4096 adjacency block and the whole selection
  matrix, and writes their product back as batch entry t's 128 × 256 block; the 32 blocks tile the result.
-/
import proofs.«144859_j68152541053088_1_alg».proof.Proof.KernelIdealReg0
import proofs.«144859_j68152541053088_1_alg».proof.Proof.SpecK
import proofs.«144859_j68152541053088_1_alg».proof.Proof.KIValue0Pay
import Idealize.ShloMosaic.Lib.Pipeline.Value

noncomputable section

namespace Cert.KernelIdeal.Val0

open Cert.KernelIdeal Cert.KernelIdeal.Gen Cert.KernelIdeal.Fr Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided once over the grid: at point t the adjacency's and the result's blocks are batch
    entry t's, and the selection matrix's block is the whole matrix. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-! ## The staged blocks, read where they sit in their arrays -/

/-- Point t's adjacency block is batch entry t of the adjacency. -/
theorem adj_block_at (c : Dev nD) (t : Fin cfg0.N) (y : S1x128x4096.Idx) (i : S32x128x4096.Idx)
    (h0 : (i 0).val = t.val) (h1 : (i 1).val = (y 1).val) (h2 : (i 2).val = (y 2).val) :
    (iblk0 V c 0 t : Vec Ideal S1x128x4096 .f32) y = (V c main_arg1 : S32x128x4096.Idx → Elt Ideal .f32) i := by
  obtain ⟨e0, e1, e2, -⟩ := block_indices t
  show V c main_arg1 (((cfg0.win 0).blk t).view.emb y) = V c main_arg1 i
  refine congrArg _ (funext fun a => Fin.ext ?_)
  have hy0 : (y 0).val < 1 := (y 0).isLt
  match a with
  | ⟨0, _⟩ => show win0_0.index t (0 : Fin 3) * 1 + 1 * (y 0).val = (i 0).val; omega
  | ⟨1, _⟩ => show win0_0.index t (1 : Fin 3) * 128 + 1 * (y 1).val = (i 1).val; omega
  | ⟨2, _⟩ => show win0_0.index t (2 : Fin 3) * 4096 + 1 * (y 2).val = (i 2).val; omega

/-- Every point's selection-matrix block is the whole matrix. -/
theorem sel_block_at (c : Dev nD) (t : Fin cfg0.N) (y : S4096x256.Idx) :
    (iblk0 V c 1 t : Vec Ideal S4096x256 .bf16) y = (V c main_v17 : S4096x256.Idx → Elt Ideal .bf16) y := by
  obtain ⟨-, -, -, e0, e1, -⟩ := block_indices t
  show V c main_v17 (((cfg0.win 1).blk t).view.emb y) = V c main_v17 y
  refine congrArg _ (funext fun a => Fin.ext ?_)
  match a with
  | ⟨0, _⟩ => show win0_1.index t (0 : Fin 2) * 4096 + 1 * (y 0).val = (y 0).val; omega
  | ⟨1, _⟩ => show win0_1.index t (1 : Fin 2) * 256 + 1 * (y 1).val = (y 1).val; omega

/-- Where point t's result block sits in the result array: batch entry t. -/
theorem out_block_emb (t : Fin cfg0.N) (y : S1x128x256.Idx) :
    ((((cfg0.win 2).blk t).view.emb y : S32x128x256.Idx) 0).val = t.val
    ∧ ((((cfg0.win 2).blk t).view.emb y : S32x128x256.Idx) 1).val = (y 1).val
    ∧ ((((cfg0.win 2).blk t).view.emb y : S32x128x256.Idx) 2).val = (y 2).val := by
  obtain ⟨-, -, -, -, -, e0, e1, e2⟩ := block_indices t
  have hy0 : (y 0).val < 1 := (y 0).isLt
  refine ⟨?_, ?_, ?_⟩
  · show win0_2.index t (0 : Fin 3) * 1 + 1 * (y 0).val = t.val; omega
  · show win0_2.index t (1 : Fin 3) * 128 + 1 * (y 1).val = (y 1).val; omega
  · show win0_2.index t (2 : Fin 3) * 256 + 1 * (y 2).val = (y 2).val; omega

/-! ## What each point writes back -/

/-- Point t writes back block t of the product of the adjacency with the selection matrix. -/
theorem flushed_eq (c : Dev nD) (t : Fin cfg0.N) :
    (dat0 (F := Ideal) V c).flushed 2 t
      = ((cfg0.win 2).blk t).view.read (Elt Ideal) (reduceArr (V c main_arg1) (V c main_v17)) := by
  show (cfg0.win 2).cut (grid0.coords t) ((dat0 (F := Ideal) V c).after 2 t) = _
  rw [after0_2]
  unfold out0_2
  rw [View.canon_unit_zero zeros3]
  simp only [View.ld_unit_zero (S := S1x128x4096) zeros3, View.ld_unit_zero (S := S4096x256) zeros2]
  funext y
  obtain ⟨b0, b1, b2⟩ := out_block_emb t y
  show k0_pay1 (F := Ideal) (iblk0 V c 0 t) (iblk0 V c 1 t) y
    = reduceArr (V c main_arg1) (V c main_v17) (((cfg0.win 2).blk t).view.emb y)
  obtain ⟨u, o, j, rfl⟩ : ∃ (u : Fin 1) (o : Fin 128) (j : Fin 256), y = ix3 u o j := ⟨y 0, y 1, y 2, eq_ix3 y⟩
  obtain rfl : u = 0 := Subsingleton.elim _ _
  refine (pay_at _ _ o j).trans ?_
  unfold reduceArr reduceAt
  refine Finset.sum_congr rfl fun n _ => ?_
  rw [sel_block_at V c t (ix2 n j)]
  rw [adj_block_at V c t (ix3 0 o n) (ix3 ((((cfg0.win 2).blk t).view.emb (ix3 0 o j) : S32x128x256.Idx) 0)
      ((((cfg0.win 2).blk t).view.emb (ix3 0 o j) : S32x128x256.Idx) 1) n) b0 b1 rfl]
  have ej : (ix2 n j : S4096x256.Idx) = ix2 n ((((cfg0.win 2).blk t).view.emb (ix3 0 o j) : S32x128x256.Idx) 2) :=
    funext fun a => Fin.ext (by
      match a with
      | ⟨0, _⟩ => rfl
      | ⟨1, _⟩ => exact b2.symm)
  rw [ej]
  rfl

/-! ## The blocks tile the result -/

/-- An index of the result is in point t's block iff each coordinate is in the block's range on its axis. -/
theorem mem_block (t : Fin cfg0.N) (i : S32x128x256.Idx) :
    i ∈ ((cfg0.win 2).blk t).view.set
      ↔ ∀ a : Fin 3, win0_2.index t a * S1x128x256.size a ≤ (i a).val ∧ (i a).val < win0_2.index t a * S1x128x256.size a + S1x128x256.size a := by
  show i ∈ ((View.whole main_v18).slice (win0_2.rect t)).set ↔ _
  rw [View.set_slice_whole, Rect.mem_set_unit]
  exact Iff.rfl

/-- Every index of the result is in the block of the point numbered by its batch coordinate, which is written back. -/
theorem covered (i : S32x128x256.Idx) :
    ∃ t : Fin cfg0.N, (cfg0.win 2).flush t = true ∧ i ∈ ((cfg0.win 2).blk t).view.set := by
  have hN : grid0.N = 32 := N_0
  have hi0 : (i 0).val < 32 := (i 0).isLt
  have hi1 : (i 1).val < 128 := (i 1).isLt
  have hi2 : (i 2).val < 256 := (i 2).isLt
  obtain ⟨t, ht⟩ : ∃ t : Fin cfg0.N, t.val = (i 0).val := ⟨⟨(i 0).val, by show (i 0).val < grid0.N; omega⟩, rfl⟩
  obtain ⟨-, -, -, -, -, e0, e1, e2⟩ := block_indices t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-! ## The result array after the run -/

/-- After the 32 points the result array is the adjacency times the selection matrix, batch entry by batch entry. -/
theorem final0 (c : Dev nD) :
    (dat0 (F := Ideal) V c).arrAt 2 cfg0.N = reduceArr (V c main_arg1) (V c main_v17) :=
  (dat0 (F := Ideal) V c).arrAt_eq_of_cover 2 (reduceArr (V c main_arg1) (V c main_v17))
    (fun t _ => flushed_eq V c t) covered

end Cert.KernelIdeal.Val0

end
-- ==== Proof.KIValueStep.lean ====
/-
  The body of a depth-step pipeline at an index of its result block.

  A grid point holds one batch entry's features x (1 × 128 × 256), its two reduced adjacency blocks (1 × 128 × 128 and
  1 × 128 × 32) and the step's four parameter matrices, and computes tanh((((x·W1 + b1) + Aobj·(x·W2a)) + Arel·zb) + x)
  on the 128 × 256 matrices under the blocks' leading unit axis. Here: each of the three matrix products into a zero
  accumulator read at an entry as a sum over the contracted coordinate; the unit axis dropped and restored; the row of
  biases repeated over the objects; and the whole arithmetic at entry (0, o, f) as the step's formula. The three depth
  steps run the same arithmetic.
-/
import proofs.«144859_j68152541053088_1_alg».proof.Proof.Gen.KernelIdeal.Skeleton
import proofs.«144859_j68152541053088_1_alg».proof.Proof.SpecK
import Idealize.ShloMosaic.PureOps.Ideal.Laws
import Idealize.ShloMosaic.Lib.ValueIdx
import Idealize.ShloMosaic.Lib.Pipeline.Value

set_option maxRecDepth 16384

noncomputable section

namespace Cert.KernelIdeal.ValStep

open Cert.KernelIdeal Cert.KernelIdeal.Gen Cert.Gcn
open Idealize.ShloMosaic Idealize.ShloMosaic.ValueIdx

theorem mm_feat (l : FVec Ideal S128x256 .bf16) (r : FVec Ideal S256x256 .bf16) (p : Fin 128) (q : Fin 256) :
    matmul dot_S128x256_S256x256_S128x256_1_0_0_1_n_n none l r (constant S128x256 .f32 0x00000000#32) (ix2 p q)
      = ∑ k : Fin 256, l (ix2 p k) * r (ix2 k q) := by
  simp only [matmul]
  rw [Ideal.matmul_constant_zero_apply, ← Equiv.sum_comp (contrEquiv1 dot_S128x256_S256x256_S128x256_1_0_0_1_n_n 256 rfl rfl).symm]
  refine Finset.sum_congr rfl fun k _ => ?_
  have hk := contrEquiv1_symm_val dot_S128x256_S256x256_S128x256_1_0_0_1_n_n 256 rfl rfl k
  have el : dot_S128x256_S256x256_S128x256_1_0_0_1_n_n.lhsIdx (ix2 p q) ((contrEquiv1 dot_S128x256_S256x256_S128x256_1_0_0_1_n_n 256 rfl rfl).symm k) = ix2 p k := funext fun a => Fin.ext (by
    match a with
    | ⟨0, _⟩ =>
      show (dot_S128x256_S256x256_S128x256_1_0_0_1_n_n.lhsIdx (ix2 p q) _ 0).val = p.val
      unfold DotDims.lhsIdx
      rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
      rfl
    | ⟨1, _⟩ => exact (dot_S128x256_S256x256_S128x256_1_0_0_1_n_n.lhsIdx_val_of_single rfl (ix2 p q) _).trans hk)
  have er : dot_S128x256_S256x256_S128x256_1_0_0_1_n_n.rhsIdx (ix2 p q) ((contrEquiv1 dot_S128x256_S256x256_S128x256_1_0_0_1_n_n 256 rfl rfl).symm k) = ix2 k q := funext fun a => Fin.ext (by
    match a with
    | ⟨0, _⟩ => exact (dot_S128x256_S256x256_S128x256_1_0_0_1_n_n.rhsIdx_val_of_single rfl (ix2 p q) _).trans hk
    | ⟨1, _⟩ =>
      show (dot_S128x256_S256x256_S128x256_1_0_0_1_n_n.rhsIdx (ix2 p q) _ 1).val = q.val
      unfold DotDims.rhsIdx
      rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
      rfl)
  rw [el, er]

theorem mm_obj (l : FVec Ideal S128x128 .bf16) (r : FVec Ideal S128x256 .bf16) (p : Fin 128) (q : Fin 256) :
    matmul dot_S128x128_S128x256_S128x256_1_0_0_1_n_n none l r (constant S128x256 .f32 0x00000000#32) (ix2 p q)
      = ∑ k : Fin 128, l (ix2 p k) * r (ix2 k q) := by
  simp only [matmul]
  rw [Ideal.matmul_constant_zero_apply, ← Equiv.sum_comp (contrEquiv1 dot_S128x128_S128x256_S128x256_1_0_0_1_n_n 128 rfl rfl).symm]
  refine Finset.sum_congr rfl fun k _ => ?_
  have hk := contrEquiv1_symm_val dot_S128x128_S128x256_S128x256_1_0_0_1_n_n 128 rfl rfl k
  have el : dot_S128x128_S128x256_S128x256_1_0_0_1_n_n.lhsIdx (ix2 p q) ((contrEquiv1 dot_S128x128_S128x256_S128x256_1_0_0_1_n_n 128 rfl rfl).symm k) = ix2 p k := funext fun a => Fin.ext (by
    match a with
    | ⟨0, _⟩ =>
      show (dot_S128x128_S128x256_S128x256_1_0_0_1_n_n.lhsIdx (ix2 p q) _ 0).val = p.val
      unfold DotDims.lhsIdx
      rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
      rfl
    | ⟨1, _⟩ => exact (dot_S128x128_S128x256_S128x256_1_0_0_1_n_n.lhsIdx_val_of_single rfl (ix2 p q) _).trans hk)
  have er : dot_S128x128_S128x256_S128x256_1_0_0_1_n_n.rhsIdx (ix2 p q) ((contrEquiv1 dot_S128x128_S128x256_S128x256_1_0_0_1_n_n 128 rfl rfl).symm k) = ix2 k q := funext fun a => Fin.ext (by
    match a with
    | ⟨0, _⟩ => exact (dot_S128x128_S128x256_S128x256_1_0_0_1_n_n.rhsIdx_val_of_single rfl (ix2 p q) _).trans hk
    | ⟨1, _⟩ =>
      show (dot_S128x128_S128x256_S128x256_1_0_0_1_n_n.rhsIdx (ix2 p q) _ 1).val = q.val
      unfold DotDims.rhsIdx
      rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
      rfl)
  rw [el, er]

theorem mm_rel (l : FVec Ideal S128x32 .bf16) (r : FVec Ideal S32x256 .bf16) (p : Fin 128) (q : Fin 256) :
    matmul dot_S128x32_S32x256_S128x256_1_0_0_1_n_n none l r (constant S128x256 .f32 0x00000000#32) (ix2 p q)
      = ∑ k : Fin 32, l (ix2 p k) * r (ix2 k q) := by
  simp only [matmul]
  rw [Ideal.matmul_constant_zero_apply, ← Equiv.sum_comp (contrEquiv1 dot_S128x32_S32x256_S128x256_1_0_0_1_n_n 32 rfl rfl).symm]
  refine Finset.sum_congr rfl fun k _ => ?_
  have hk := contrEquiv1_symm_val dot_S128x32_S32x256_S128x256_1_0_0_1_n_n 32 rfl rfl k
  have el : dot_S128x32_S32x256_S128x256_1_0_0_1_n_n.lhsIdx (ix2 p q) ((contrEquiv1 dot_S128x32_S32x256_S128x256_1_0_0_1_n_n 32 rfl rfl).symm k) = ix2 p k := funext fun a => Fin.ext (by
    match a with
    | ⟨0, _⟩ =>
      show (dot_S128x32_S32x256_S128x256_1_0_0_1_n_n.lhsIdx (ix2 p q) _ 0).val = p.val
      unfold DotDims.lhsIdx
      rw [dif_neg (show ¬(0 : Fin S128x32.rank) ∈ dot_S128x32_S32x256_S128x256_1_0_0_1_n_n.lhsBatch by decide), dif_pos (show (0 : Fin S128x32.rank) ∈ dot_S128x32_S32x256_S128x256_1_0_0_1_n_n.lhsNonContracting by decide)]
      rfl
    | ⟨1, _⟩ => exact (dot_S128x32_S32x256_S128x256_1_0_0_1_n_n.lhsIdx_val_of_single rfl (ix2 p q) _).trans hk)
  have er : dot_S128x32_S32x256_S128x256_1_0_0_1_n_n.rhsIdx (ix2 p q) ((contrEquiv1 dot_S128x32_S32x256_S128x256_1_0_0_1_n_n 32 rfl rfl).symm k) = ix2 k q := funext fun a => Fin.ext (by
    match a with
    | ⟨0, _⟩ => exact (dot_S128x32_S32x256_S128x256_1_0_0_1_n_n.rhsIdx_val_of_single rfl (ix2 p q) _).trans hk
    | ⟨1, _⟩ =>
      show (dot_S128x32_S32x256_S128x256_1_0_0_1_n_n.rhsIdx (ix2 p q) _ 1).val = q.val
      unfold DotDims.rhsIdx
      rw [dif_neg (show ¬(1 : Fin S32x256.rank) ∈ dot_S128x32_S32x256_S128x256_1_0_0_1_n_n.rhsBatch by decide), dif_pos (show (1 : Fin S32x256.rank) ∈ dot_S128x32_S32x256_S128x256_1_0_0_1_n_n.rhsNonContracting by decide)]
      rfl)
  rw [el, er]

theorem drop_feat {α : Type} (v : S1x128x256.Idx → α) (p : Fin 128) (q : Fin 256) :
    shapeCast S128x256 v shapeCasts_S1x128x256_S128x256 (ix2 p q) = v (ix3 0 p q) :=
  shapeCast_apply v shapeCasts_S1x128x256_S128x256 (ix2 p q) (ix3 0 p q)
    (by rewrite [Shape.rowMajor_val_three, Shape.rowMajor_val_two]
        show ((0 : Nat) * 128 + p.val) * 256 + q.val = p.val * 256 + q.val
        omega)

theorem drop_obj {α : Type} (v : S1x128x128.Idx → α) (p : Fin 128) (q : Fin 128) :
    shapeCast S128x128 v shapeCasts_S1x128x128_S128x128 (ix2 p q) = v (ix3 0 p q) :=
  shapeCast_apply v shapeCasts_S1x128x128_S128x128 (ix2 p q) (ix3 0 p q)
    (by rewrite [Shape.rowMajor_val_three, Shape.rowMajor_val_two]
        show ((0 : Nat) * 128 + p.val) * 128 + q.val = p.val * 128 + q.val
        omega)

theorem drop_rel {α : Type} (v : S1x128x32.Idx → α) (p : Fin 128) (q : Fin 32) :
    shapeCast S128x32 v shapeCasts_S1x128x32_S128x32 (ix2 p q) = v (ix3 0 p q) :=
  shapeCast_apply v shapeCasts_S1x128x32_S128x32 (ix2 p q) (ix3 0 p q)
    (by rewrite [Shape.rowMajor_val_three, Shape.rowMajor_val_two]
        show ((0 : Nat) * 128 + p.val) * 32 + q.val = p.val * 32 + q.val
        omega)

theorem unit_feat {α : Type} (v : S128x256.Idx → α) (p : Fin 128) (q : Fin 256) :
    shapeCast S1x128x256 v shapeCasts_S128x256_S1x128x256 (ix3 0 p q) = v (ix2 p q) :=
  shapeCast_apply v shapeCasts_S128x256_S1x128x256 (ix3 0 p q) (ix2 p q)
    (by rewrite [Shape.rowMajor_val_three, Shape.rowMajor_val_two]
        show p.val * 256 + q.val = ((0 : Nat) * 128 + p.val) * 256 + q.val
        omega)

theorem bcast_row {α : Type} (v : S1x256.Idx → α) (p : Fin 128) (q : Fin 256) :
    broadcastTo S128x256 v broadcasts_S1x256_S128x256 (ix2 p q) = v (ix2 0 q) :=
  broadcastTo_apply v broadcasts_S1x256_S128x256 (ix2 p q) (ix2 0 q) (fun a => match a with
    | ⟨0, _⟩ => by rfl
    | ⟨1, _⟩ => by rfl)

/-- The body's arithmetic at entry (0, o, f) of its result block: the step's formula over the loaded blocks. Every change of
    float format is the identity on the extended reals, every matmul accumulates into zero, the row of biases is repeated
    over the 128 objects, and the leading unit axis of the blocks is dropped on the way in and restored on the way out. -/
theorem pay_apply (x0 : Vec Ideal S1x128x256 .f32) (x1 : Vec Ideal S1x128x128 .f32) (x2 : Vec Ideal S1x128x32 .f32)
    (x3 : Vec Ideal S256x256 .f32) (x4 : Vec Ideal S1x256 .f32) (x5 : Vec Ideal S256x256 .f32) (x6 : Vec Ideal S32x256 .f32)
    (o : Fin 128) (f : Fin 256) :
    k1_pay1 (F := Ideal) x0 x1 x2 x3 x4 x5 x6 (ix3 0 o f)
      = Ideal.tanh (((((∑ d : Fin 256, x0 (ix3 0 o d) * x3 (ix2 d f)) + x4 (ix2 0 f))
          + ∑ p : Fin 128, x1 (ix3 0 o p) * (∑ d : Fin 256, x0 (ix3 0 p d) * x5 (ix2 d f)))
          + ∑ r : Fin 32, x2 (ix3 0 o r) * x6 (ix2 r f))
        + x0 (ix3 0 o f)) := by
  unfold k1_pay1
  simp only [shapeCast_self]
  refine (unit_feat _ o f).trans ?_
  refine congrArg Ideal.tanh ?_
  refine congrArg₂ (· + ·) (congrArg₂ (· + ·) (congrArg₂ (· + ·) (congrArg₂ (· + ·) ?_ ?_) ?_) ?_) ?_
  · refine (mm_feat _ _ o f).trans (Finset.sum_congr rfl fun d _ => ?_)
    show shapeCast S128x256 x0 shapeCasts_S1x128x256_S128x256 (ix2 o d) * x3 (ix2 d f) = _
    rw [drop_feat]
  · exact bcast_row x4 o f
  · refine (mm_obj _ _ o f).trans (Finset.sum_congr rfl fun p _ => ?_)
    show shapeCast S128x128 x1 shapeCasts_S1x128x128_S128x128 (ix2 o p)
        * matmul (F := Ideal) dot_S128x256_S256x256_S128x256_1_0_0_1_n_n none
            (truncf FTy.bf16 (shapeCast S128x256 x0 shapeCasts_S1x128x256_S128x256) bitsLt_bf16_f32)
            (truncf FTy.bf16 x5 bitsLt_bf16_f32) (constant S128x256 FTy.f32 0x00000000#32) (ix2 p f) = _
    rw [drop_obj]
    refine congrArg (x1 (ix3 0 o p) * ·) ?_
    refine (mm_feat _ _ p f).trans (Finset.sum_congr rfl fun d _ => ?_)
    show shapeCast S128x256 x0 shapeCasts_S1x128x256_S128x256 (ix2 p d) * x5 (ix2 d f) = _
    rw [drop_feat]
  · refine (mm_rel _ _ o f).trans (Finset.sum_congr rfl fun r _ => ?_)
    show shapeCast S128x32 x2 shapeCasts_S1x128x32_S128x32 (ix2 o r) * x6 (ix2 r f) = _
    rw [drop_rel]
  · exact drop_feat x0 o f

/-- Depth steps 1 and 2 run the same arithmetic as step 0. -/
theorem pay2_eq : @k2_pay1 = @k1_pay1 := rfl
theorem pay3_eq : @k3_pay1 = @k1_pay1 := rfl

end Cert.KernelIdeal.ValStep

end
-- ==== Proof.KIValue1.lean ====
/-
  Pipeline 1 (depth step 0): its output array after the run, as one function of the arrays the region is entered with.

  Grid point t stages batch entry t's block of the features and of the two reduced adjacency tensors, and the four
  parameter matrices whole; the body's result block is written back to batch entry t of the output. So entry (b, o, f) of
  the output is the step's formula at the whole arrays, and the 32 blocks fill the array.
-/
import proofs.«144859_j68152541053088_1_alg».proof.Proof.KernelIdealReg1
import proofs.«144859_j68152541053088_1_alg».proof.Proof.KIValueStep
import proofs.«144859_j68152541053088_1_alg».proof.Proof.SpecK
import Idealize.ShloMosaic.Lib.Pipeline.Value

set_option maxRecDepth 16384

noncomputable section

namespace Cert.KernelIdeal.Val1

open Cert.KernelIdeal Cert.KernelIdeal.Gen Cert.KernelIdeal.Fr Cert.Gcn
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block index of every window at every grid point: the three batched inputs and the output take block t along the
    batch axis, the four parameter matrices their one block. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 3) = t.val ∧ win1_7.index t (1 : Fin 3) = 0 ∧ win1_7.index t (2 : Fin 3) = 0) :=
  (by decide +kernel : ∀ t : Fin grid1.N, _)

/-! ## Each input block read off its array -/

theorem blk_feat (c : Dev nD) (t : Fin cfg1.N) (b : Fin 32) (hb : b.val = t.val) (p : Fin 128) (d : Fin 256) :
    (iblk1 V c 0 t : S1x128x256.Idx → EReal) (ix3 0 p d) = (V c main_arg0 : A3 32 128 256) (ix3 b p d) := by
  unfold iblk1
  rw [View.read_apply]
  show V c main_arg0 (((cfg1.win 0).blk t).view.emb (ix3 0 p d)) = V c main_arg0 (ix3 b p d)
  refine congrArg (V c main_arg0) (funext fun a => Fin.ext ?_)
  obtain ⟨⟨e0, e1, e2⟩, -⟩ := idx_facts t
  match a with
  | ⟨0, _⟩ => show win1_0.index t (0 : Fin 3) * 1 + 1 * (0 : Nat) = b.val; omega
  | ⟨1, _⟩ => show win1_0.index t (1 : Fin 3) * 128 + 1 * p.val = p.val; omega
  | ⟨2, _⟩ => show win1_0.index t (2 : Fin 3) * 256 + 1 * d.val = d.val; omega

theorem blk_obj (c : Dev nD) (t : Fin cfg1.N) (b : Fin 32) (hb : b.val = t.val) (o : Fin 128) (p : Fin 128) :
    (iblk1 V c 1 t : S1x128x128.Idx → EReal) (ix3 0 o p) = (V c main_v19 : A3 32 128 128) (ix3 b o p) := by
  unfold iblk1
  rw [View.read_apply]
  show V c main_v19 (((cfg1.win 1).blk t).view.emb (ix3 0 o p)) = V c main_v19 (ix3 b o p)
  refine congrArg (V c main_v19) (funext fun a => Fin.ext ?_)
  obtain ⟨-, ⟨e0, e1, e2⟩, -⟩ := idx_facts t
  match a with
  | ⟨0, _⟩ => show win1_1.index t (0 : Fin 3) * 1 + 1 * (0 : Nat) = b.val; omega
  | ⟨1, _⟩ => show win1_1.index t (1 : Fin 3) * 128 + 1 * o.val = o.val; omega
  | ⟨2, _⟩ => show win1_1.index t (2 : Fin 3) * 128 + 1 * p.val = p.val; omega

theorem blk_rel (c : Dev nD) (t : Fin cfg1.N) (b : Fin 32) (hb : b.val = t.val) (o : Fin 128) (r : Fin 32) :
    (iblk1 V c 2 t : S1x128x32.Idx → EReal) (ix3 0 o r) = (V c main_v20 : A3 32 128 32) (ix3 b o r) := by
  unfold iblk1
  rw [View.read_apply]
  show V c main_v20 (((cfg1.win 2).blk t).view.emb (ix3 0 o r)) = V c main_v20 (ix3 b o r)
  refine congrArg (V c main_v20) (funext fun a => Fin.ext ?_)
  obtain ⟨-, -, ⟨e0, e1, e2⟩, -⟩ := idx_facts t
  match a with
  | ⟨0, _⟩ => show win1_2.index t (0 : Fin 3) * 1 + 1 * (0 : Nat) = b.val; omega
  | ⟨1, _⟩ => show win1_2.index t (1 : Fin 3) * 128 + 1 * o.val = o.val; omega
  | ⟨2, _⟩ => show win1_2.index t (2 : Fin 3) * 32 + 1 * r.val = r.val; omega

theorem blk_w1 (c : Dev nD) (t : Fin cfg1.N) (d : Fin 256) (f : Fin 256) :
    (iblk1 V c 3 t : S256x256.Idx → EReal) (ix2 d f) = (V c main_v35 : A2 256 256) (ix2 d f) := by
  unfold iblk1
  rw [View.read_apply]
  show V c main_v35 (((cfg1.win 3).blk t).view.emb (ix2 d f)) = V c main_v35 (ix2 d f)
  refine congrArg (V c main_v35) (funext fun a => Fin.ext ?_)
  obtain ⟨-, -, -, ⟨e0, e1⟩, -⟩ := idx_facts t
  match a with
  | ⟨0, _⟩ => show win1_3.index t (0 : Fin 2) * 256 + 1 * d.val = d.val; omega
  | ⟨1, _⟩ => show win1_3.index t (1 : Fin 2) * 256 + 1 * f.val = f.val; omega

theorem blk_bias (c : Dev nD) (t : Fin cfg1.N) (f : Fin 256) :
    (iblk1 V c 4 t : S1x256.Idx → EReal) (ix2 0 f) = (V c main_v33 : A2 1 256) (ix2 0 f) := by
  unfold iblk1
  rw [View.read_apply]
  show V c main_v33 (((cfg1.win 4).blk t).view.emb (ix2 0 f)) = V c main_v33 (ix2 0 f)
  refine congrArg (V c main_v33) (funext fun a => Fin.ext ?_)
  obtain ⟨-, -, -, -, ⟨e0, e1⟩, -⟩ := idx_facts t
  match a with
  | ⟨0, _⟩ => show win1_4.index t (0 : Fin 2) * 1 + 1 * (0 : Nat) = (0 : Nat); omega
  | ⟨1, _⟩ => show win1_4.index t (1 : Fin 2) * 256 + 1 * f.val = f.val; omega

theorem blk_w2 (c : Dev nD) (t : Fin cfg1.N) (d : Fin 256) (f : Fin 256) :
    (iblk1 V c 5 t : S256x256.Idx → EReal) (ix2 d f) = (V c main_v22 : A2 256 256) (ix2 d f) := by
  unfold iblk1
  rw [View.read_apply]
  show V c main_v22 (((cfg1.win 5).blk t).view.emb (ix2 d f)) = V c main_v22 (ix2 d f)
  refine congrArg (V c main_v22) (funext fun a => Fin.ext ?_)
  obtain ⟨-, -, -, -, -, ⟨e0, e1⟩, -⟩ := idx_facts t
  match a with
  | ⟨0, _⟩ => show win1_5.index t (0 : Fin 2) * 256 + 1 * d.val = d.val; omega
  | ⟨1, _⟩ => show win1_5.index t (1 : Fin 2) * 256 + 1 * f.val = f.val; omega

theorem blk_zb (c : Dev nD) (t : Fin cfg1.N) (r : Fin 32) (f : Fin 256) :
    (iblk1 V c 6 t : S32x256.Idx → EReal) (ix2 r f) = (V c main_v30 : A2 32 256) (ix2 r f) := by
  unfold iblk1
  rw [View.read_apply]
  show V c main_v30 (((cfg1.win 6).blk t).view.emb (ix2 r f)) = V c main_v30 (ix2 r f)
  refine congrArg (V c main_v30) (funext fun a => Fin.ext ?_)
  obtain ⟨-, -, -, -, -, -, ⟨e0, e1⟩, -⟩ := idx_facts t
  match a with
  | ⟨0, _⟩ => show win1_6.index t (0 : Fin 2) * 32 + 1 * r.val = r.val; omega
  | ⟨1, _⟩ => show win1_6.index t (1 : Fin 2) * 256 + 1 * f.val = f.val; omega

/-! ## What a point writes back, and the whole array -/

/-- The step's result over the arrays the region is entered with. -/
abbrev G (c : Dev nD) : A3 32 128 256 :=
  depthArr (V c main_arg0) (V c main_v19) (V c main_v20) (V c main_v35) (V c main_v33) (V c main_v22) (V c main_v30)

/-- What point t writes back is batch entry t's block of the step's result. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  unfold out1_7
  rw [View.canon_unit_zero hz3]
  simp only [View.ld_unit_zero (S := S1x128x256) hz3, View.ld_unit_zero (S := S1x128x128) hz3,
    View.ld_unit_zero (S := S1x128x32) hz3, View.ld_unit_zero (S := S256x256) hz2, View.ld_unit_zero (S := S1x256) hz2,
    View.ld_unit_zero (S := S32x256) hz2]
  have ht : t.val < 32 := lt_of_lt_of_eq t.isLt N_1
  funext j
  have hj0 : (j 0).val < 1 := (j 0).isLt
  obtain ⟨-, -, -, -, -, -, -, ⟨e0, e1, e2⟩⟩ := idx_facts t
  have hx : (cfg1.win 7).xinj (grid1.coords t) j = (ix3 0 (j 1) (j 2) : S1x128x256.Idx) := funext fun a => Fin.ext (by
    match a with
    | ⟨0, _⟩ => show (j 0).val = 0; omega
    | ⟨1, _⟩ => rfl
    | ⟨2, _⟩ => rfl)
  have hemb : ((cfg1.win 7).blk t).view.emb j = (ix3 ⟨t.val, ht⟩ (j 1) (j 2) : S32x128x256.Idx) := funext fun a => Fin.ext (by
    match a with
    | ⟨0, _⟩ => show win1_7.index t (0 : Fin 3) * 1 + 1 * (j 0).val = t.val; omega
    | ⟨1, _⟩ => show win1_7.index t (1 : Fin 3) * 128 + 1 * (j 1).val = (j 1).val; omega
    | ⟨2, _⟩ => show win1_7.index t (2 : Fin 3) * 256 + 1 * (j 2).val = (j 2).val; omega)
  rw [View.read_apply, hemb]
  show k1_pay1 (F := Ideal) (iblk1 V c 0 t) (iblk1 V c 1 t) (iblk1 V c 2 t) (iblk1 V c 3 t) (iblk1 V c 4 t)
      (iblk1 V c 5 t) (iblk1 V c 6 t) ((cfg1.win 7).xinj (grid1.coords t) j) = _
  rw [hx]
  refine (ValStep.pay_apply _ _ _ _ _ _ _ (j 1) (j 2)).trans ?_
  show _ = depthAt (V c main_arg0) (V c main_v19) (V c main_v20) (V c main_v35) (V c main_v33) (V c main_v22) (V c main_v30) ⟨t.val, ht⟩ (j 1) (j 2)
  unfold depthAt
  refine congrArg Ideal.tanh ?_
  refine congrArg₂ (· + ·) (congrArg₂ (· + ·) (congrArg₂ (· + ·) (congrArg₂ (· + ·) ?_ ?_) ?_) ?_) ?_
  · exact Finset.sum_congr rfl fun d _ => congrArg₂ (· * ·) (blk_feat V c t ⟨t.val, ht⟩ rfl (j 1) d) (blk_w1 V c t d (j 2))
  · exact blk_bias V c t (j 2)
  · exact Finset.sum_congr rfl fun p _ => congrArg₂ (· * ·) (blk_obj V c t ⟨t.val, ht⟩ rfl (j 1) p)
      (Finset.sum_congr rfl fun d _ => congrArg₂ (· * ·) (blk_feat V c t ⟨t.val, ht⟩ rfl p d) (blk_w2 V c t d (j 2)))
  · exact Finset.sum_congr rfl fun r _ => congrArg₂ (· * ·) (blk_rel V c t ⟨t.val, ht⟩ rfl (j 1) r) (blk_zb V c t r (j 2))
  · exact blk_feat V c t ⟨t.val, ht⟩ rfl (j 1) (j 2)

/-- An index of the output array is in point t's block iff each coordinate is in the block's range on its axis. -/
theorem mem_blk (t : Fin cfg1.N) (i : S32x128x256.Idx) :
    i ∈ ((cfg1.win 7).blk t).view.set ↔ ∀ a : Fin 3, win1_7.index t a * S1x128x256.size a ≤ (i a).val
      ∧ (i a).val < win1_7.index t a * S1x128x256.size a + S1x128x256.size a := by
  show i ∈ ((View.whole main_v36).slice (win1_7.rect t)).set ↔ _
  rw [View.set_slice_whole, Rect.mem_set_unit]
  exact Iff.rfl

/-- The 32 blocks fill the output array: batch entry b is point b's. -/
theorem cover (i : S32x128x256.Idx) :
    ∃ t : Fin cfg1.N, (cfg1.win 7).flush t = true ∧ i ∈ ((cfg1.win 7).blk t).view.set := by
  have hi0 : (i 0).val < 32 := (i 0).isLt
  have hi1 : (i 1).val < 128 := (i 1).isLt
  have hi2 : (i 2).val < 256 := (i 2).isLt
  have hT : (i 0).val < cfg1.N := lt_of_lt_of_eq hi0 N_1.symm
  refine ⟨⟨(i 0).val, hT⟩, flush1_7 _, ?_⟩
  rw [mem_blk]
  obtain ⟨-, -, -, -, -, -, -, ⟨e0, e1, e2⟩⟩ := idx_facts ⟨(i 0).val, hT⟩
  have e0' : win1_7.index ⟨(i 0).val, hT⟩ (0 : Fin 3) = (i 0).val := e0
  intro a
  match a with
  | ⟨0, _⟩ => show win1_7.index ⟨(i 0).val, hT⟩ (0 : Fin 3) * 1 ≤ (i 0).val ∧ (i 0).val < win1_7.index ⟨(i 0).val, hT⟩ (0 : Fin 3) * 1 + 1; omega
  | ⟨1, _⟩ => show win1_7.index ⟨(i 0).val, hT⟩ (1 : Fin 3) * 128 ≤ (i 1).val ∧ (i 1).val < win1_7.index ⟨(i 0).val, hT⟩ (1 : Fin 3) * 128 + 128; omega
  | ⟨2, _⟩ => show win1_7.index ⟨(i 0).val, hT⟩ (2 : Fin 3) * 256 ≤ (i 2).val ∧ (i 2).val < win1_7.index ⟨(i 0).val, hT⟩ (2 : Fin 3) * 256 + 256; omega

/-- The output array after the run is the step's result over the arrays the region is entered with. -/
theorem final1 (c : Dev nD) :
    (dat1 (F := Ideal) V c).arrAt 7 cfg1.N
      = depthArr (V c main_arg0) (V c main_v19) (V c main_v20) (V c main_v35) (V c main_v33) (V c main_v22) (V c main_v30) :=
  (dat1 (F := Ideal) V c).arrAt_eq_of_cover 7 (G V c) (fun t _ => flushed_eq V c t) (cover)

end Cert.KernelIdeal.Val1

end
-- ==== Proof.KIValue2.lean ====
/-
  Pipeline 2 (depth step 1): its output array after the run, as one function of the arrays the region is entered with.

  Grid point t stages batch entry t's block of the features and of the two reduced adjacency tensors, and the four
  parameter matrices whole; the body's result block is written back to batch entry t of the output. So entry (b, o, f) of
  the output is the step's formula at the whole arrays, and the 32 blocks fill the array.
-/
import proofs.«144859_j68152541053088_1_alg».proof.Proof.KernelIdealReg2
import proofs.«144859_j68152541053088_1_alg».proof.Proof.KIValueStep
import proofs.«144859_j68152541053088_1_alg».proof.Proof.SpecK
import Idealize.ShloMosaic.Lib.Pipeline.Value

set_option maxRecDepth 16384

noncomputable section

namespace Cert.KernelIdeal.Val2

open Cert.KernelIdeal Cert.KernelIdeal.Gen Cert.KernelIdeal.Fr Cert.Gcn
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block index of every window at every grid point: the three batched inputs and the output take block t along the
    batch axis, the four parameter matrices their one block. -/
theorem idx_facts : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 3) = t.val ∧ win2_7.index t (1 : Fin 3) = 0 ∧ win2_7.index t (2 : Fin 3) = 0) :=
  (by decide +kernel : ∀ t : Fin grid2.N, _)

/-! ## Each input block read off its array -/

theorem blk_feat (c : Dev nD) (t : Fin cfg2.N) (b : Fin 32) (hb : b.val = t.val) (p : Fin 128) (d : Fin 256) :
    (iblk2 V c 0 t : S1x128x256.Idx → EReal) (ix3 0 p d) = (V c main_v36 : A3 32 128 256) (ix3 b p d) := by
  unfold iblk2
  rw [View.read_apply]
  show V c main_v36 (((cfg2.win 0).blk t).view.emb (ix3 0 p d)) = V c main_v36 (ix3 b p d)
  refine congrArg (V c main_v36) (funext fun a => Fin.ext ?_)
  obtain ⟨⟨e0, e1, e2⟩, -⟩ := idx_facts t
  match a with
  | ⟨0, _⟩ => show win2_0.index t (0 : Fin 3) * 1 + 1 * (0 : Nat) = b.val; omega
  | ⟨1, _⟩ => show win2_0.index t (1 : Fin 3) * 128 + 1 * p.val = p.val; omega
  | ⟨2, _⟩ => show win2_0.index t (2 : Fin 3) * 256 + 1 * d.val = d.val; omega

theorem blk_obj (c : Dev nD) (t : Fin cfg2.N) (b : Fin 32) (hb : b.val = t.val) (o : Fin 128) (p : Fin 128) :
    (iblk2 V c 1 t : S1x128x128.Idx → EReal) (ix3 0 o p) = (V c main_v19 : A3 32 128 128) (ix3 b o p) := by
  unfold iblk2
  rw [View.read_apply]
  show V c main_v19 (((cfg2.win 1).blk t).view.emb (ix3 0 o p)) = V c main_v19 (ix3 b o p)
  refine congrArg (V c main_v19) (funext fun a => Fin.ext ?_)
  obtain ⟨-, ⟨e0, e1, e2⟩, -⟩ := idx_facts t
  match a with
  | ⟨0, _⟩ => show win2_1.index t (0 : Fin 3) * 1 + 1 * (0 : Nat) = b.val; omega
  | ⟨1, _⟩ => show win2_1.index t (1 : Fin 3) * 128 + 1 * o.val = o.val; omega
  | ⟨2, _⟩ => show win2_1.index t (2 : Fin 3) * 128 + 1 * p.val = p.val; omega

theorem blk_rel (c : Dev nD) (t : Fin cfg2.N) (b : Fin 32) (hb : b.val = t.val) (o : Fin 128) (r : Fin 32) :
    (iblk2 V c 2 t : S1x128x32.Idx → EReal) (ix3 0 o r) = (V c main_v20 : A3 32 128 32) (ix3 b o r) := by
  unfold iblk2
  rw [View.read_apply]
  show V c main_v20 (((cfg2.win 2).blk t).view.emb (ix3 0 o r)) = V c main_v20 (ix3 b o r)
  refine congrArg (V c main_v20) (funext fun a => Fin.ext ?_)
  obtain ⟨-, -, ⟨e0, e1, e2⟩, -⟩ := idx_facts t
  match a with
  | ⟨0, _⟩ => show win2_2.index t (0 : Fin 3) * 1 + 1 * (0 : Nat) = b.val; omega
  | ⟨1, _⟩ => show win2_2.index t (1 : Fin 3) * 128 + 1 * o.val = o.val; omega
  | ⟨2, _⟩ => show win2_2.index t (2 : Fin 3) * 32 + 1 * r.val = r.val; omega

theorem blk_w1 (c : Dev nD) (t : Fin cfg2.N) (d : Fin 256) (f : Fin 256) :
    (iblk2 V c 3 t : S256x256.Idx → EReal) (ix2 d f) = (V c main_v51 : A2 256 256) (ix2 d f) := by
  unfold iblk2
  rw [View.read_apply]
  show V c main_v51 (((cfg2.win 3).blk t).view.emb (ix2 d f)) = V c main_v51 (ix2 d f)
  refine congrArg (V c main_v51) (funext fun a => Fin.ext ?_)
  obtain ⟨-, -, -, ⟨e0, e1⟩, -⟩ := idx_facts t
  match a with
  | ⟨0, _⟩ => show win2_3.index t (0 : Fin 2) * 256 + 1 * d.val = d.val; omega
  | ⟨1, _⟩ => show win2_3.index t (1 : Fin 2) * 256 + 1 * f.val = f.val; omega

theorem blk_bias (c : Dev nD) (t : Fin cfg2.N) (f : Fin 256) :
    (iblk2 V c 4 t : S1x256.Idx → EReal) (ix2 0 f) = (V c main_v49 : A2 1 256) (ix2 0 f) := by
  unfold iblk2
  rw [View.read_apply]
  show V c main_v49 (((cfg2.win 4).blk t).view.emb (ix2 0 f)) = V c main_v49 (ix2 0 f)
  refine congrArg (V c main_v49) (funext fun a => Fin.ext ?_)
  obtain ⟨-, -, -, -, ⟨e0, e1⟩, -⟩ := idx_facts t
  match a with
  | ⟨0, _⟩ => show win2_4.index t (0 : Fin 2) * 1 + 1 * (0 : Nat) = (0 : Nat); omega
  | ⟨1, _⟩ => show win2_4.index t (1 : Fin 2) * 256 + 1 * f.val = f.val; omega

theorem blk_w2 (c : Dev nD) (t : Fin cfg2.N) (d : Fin 256) (f : Fin 256) :
    (iblk2 V c 5 t : S256x256.Idx → EReal) (ix2 d f) = (V c main_v38 : A2 256 256) (ix2 d f) := by
  unfold iblk2
  rw [View.read_apply]
  show V c main_v38 (((cfg2.win 5).blk t).view.emb (ix2 d f)) = V c main_v38 (ix2 d f)
  refine congrArg (V c main_v38) (funext fun a => Fin.ext ?_)
  obtain ⟨-, -, -, -, -, ⟨e0, e1⟩, -⟩ := idx_facts t
  match a with
  | ⟨0, _⟩ => show win2_5.index t (0 : Fin 2) * 256 + 1 * d.val = d.val; omega
  | ⟨1, _⟩ => show win2_5.index t (1 : Fin 2) * 256 + 1 * f.val = f.val; omega

theorem blk_zb (c : Dev nD) (t : Fin cfg2.N) (r : Fin 32) (f : Fin 256) :
    (iblk2 V c 6 t : S32x256.Idx → EReal) (ix2 r f) = (V c main_v46 : A2 32 256) (ix2 r f) := by
  unfold iblk2
  rw [View.read_apply]
  show V c main_v46 (((cfg2.win 6).blk t).view.emb (ix2 r f)) = V c main_v46 (ix2 r f)
  refine congrArg (V c main_v46) (funext fun a => Fin.ext ?_)
  obtain ⟨-, -, -, -, -, -, ⟨e0, e1⟩, -⟩ := idx_facts t
  match a with
  | ⟨0, _⟩ => show win2_6.index t (0 : Fin 2) * 32 + 1 * r.val = r.val; omega
  | ⟨1, _⟩ => show win2_6.index t (1 : Fin 2) * 256 + 1 * f.val = f.val; omega

/-! ## What a point writes back, and the whole array -/

/-- The step's result over the arrays the region is entered with. -/
abbrev G (c : Dev nD) : A3 32 128 256 :=
  depthArr (V c main_v36) (V c main_v19) (V c main_v20) (V c main_v51) (V c main_v49) (V c main_v38) (V c main_v46)

/-- What point t writes back is batch entry t's block of the step's result. -/
theorem flushed_eq (c : Dev nD) (t : Fin cfg2.N) :
    (dat2 (F := Ideal) V c).flushed 7 t = ((cfg2.win 7).blk t).view.read (Elt Ideal) (G V c) := by
  show (cfg2.win 7).cut (grid2.coords t) ((dat2 V c).after 7 t) = _
  rw [after2_7]
  unfold out2_7
  rw [View.canon_unit_zero hz3]
  simp only [View.ld_unit_zero (S := S1x128x256) hz3, View.ld_unit_zero (S := S1x128x128) hz3,
    View.ld_unit_zero (S := S1x128x32) hz3, View.ld_unit_zero (S := S256x256) hz2, View.ld_unit_zero (S := S1x256) hz2,
    View.ld_unit_zero (S := S32x256) hz2]
  rw [ValStep.pay2_eq]
  have ht : t.val < 32 := lt_of_lt_of_eq t.isLt N_2
  funext j
  have hj0 : (j 0).val < 1 := (j 0).isLt
  obtain ⟨-, -, -, -, -, -, -, ⟨e0, e1, e2⟩⟩ := idx_facts t
  have hx : (cfg2.win 7).xinj (grid2.coords t) j = (ix3 0 (j 1) (j 2) : S1x128x256.Idx) := funext fun a => Fin.ext (by
    match a with
    | ⟨0, _⟩ => show (j 0).val = 0; omega
    | ⟨1, _⟩ => rfl
    | ⟨2, _⟩ => rfl)
  have hemb : ((cfg2.win 7).blk t).view.emb j = (ix3 ⟨t.val, ht⟩ (j 1) (j 2) : S32x128x256.Idx) := funext fun a => Fin.ext (by
    match a with
    | ⟨0, _⟩ => show win2_7.index t (0 : Fin 3) * 1 + 1 * (j 0).val = t.val; omega
    | ⟨1, _⟩ => show win2_7.index t (1 : Fin 3) * 128 + 1 * (j 1).val = (j 1).val; omega
    | ⟨2, _⟩ => show win2_7.index t (2 : Fin 3) * 256 + 1 * (j 2).val = (j 2).val; omega)
  rw [View.read_apply, hemb]
  show k1_pay1 (F := Ideal) (iblk2 V c 0 t) (iblk2 V c 1 t) (iblk2 V c 2 t) (iblk2 V c 3 t) (iblk2 V c 4 t)
      (iblk2 V c 5 t) (iblk2 V c 6 t) ((cfg2.win 7).xinj (grid2.coords t) j) = _
  rw [hx]
  refine (ValStep.pay_apply _ _ _ _ _ _ _ (j 1) (j 2)).trans ?_
  show _ = depthAt (V c main_v36) (V c main_v19) (V c main_v20) (V c main_v51) (V c main_v49) (V c main_v38) (V c main_v46) ⟨t.val, ht⟩ (j 1) (j 2)
  unfold depthAt
  refine congrArg Ideal.tanh ?_
  refine congrArg₂ (· + ·) (congrArg₂ (· + ·) (congrArg₂ (· + ·) (congrArg₂ (· + ·) ?_ ?_) ?_) ?_) ?_
  · exact Finset.sum_congr rfl fun d _ => congrArg₂ (· * ·) (blk_feat V c t ⟨t.val, ht⟩ rfl (j 1) d) (blk_w1 V c t d (j 2))
  · exact blk_bias V c t (j 2)
  · exact Finset.sum_congr rfl fun p _ => congrArg₂ (· * ·) (blk_obj V c t ⟨t.val, ht⟩ rfl (j 1) p)
      (Finset.sum_congr rfl fun d _ => congrArg₂ (· * ·) (blk_feat V c t ⟨t.val, ht⟩ rfl p d) (blk_w2 V c t d (j 2)))
  · exact Finset.sum_congr rfl fun r _ => congrArg₂ (· * ·) (blk_rel V c t ⟨t.val, ht⟩ rfl (j 1) r) (blk_zb V c t r (j 2))
  · exact blk_feat V c t ⟨t.val, ht⟩ rfl (j 1) (j 2)

/-- An index of the output array is in point t's block iff each coordinate is in the block's range on its axis. -/
theorem mem_blk (t : Fin cfg2.N) (i : S32x128x256.Idx) :
    i ∈ ((cfg2.win 7).blk t).view.set ↔ ∀ a : Fin 3, win2_7.index t a * S1x128x256.size a ≤ (i a).val
      ∧ (i a).val < win2_7.index t a * S1x128x256.size a + S1x128x256.size a := by
  show i ∈ ((View.whole main_v52).slice (win2_7.rect t)).set ↔ _
  rw [View.set_slice_whole, Rect.mem_set_unit]
  exact Iff.rfl

/-- The 32 blocks fill the output array: batch entry b is point b's. -/
theorem cover (i : S32x128x256.Idx) :
    ∃ t : Fin cfg2.N, (cfg2.win 7).flush t = true ∧ i ∈ ((cfg2.win 7).blk t).view.set := by
  have hi0 : (i 0).val < 32 := (i 0).isLt
  have hi1 : (i 1).val < 128 := (i 1).isLt
  have hi2 : (i 2).val < 256 := (i 2).isLt
  have hT : (i 0).val < cfg2.N := lt_of_lt_of_eq hi0 N_2.symm
  refine ⟨⟨(i 0).val, hT⟩, flush2_7 _, ?_⟩
  rw [mem_blk]
  obtain ⟨-, -, -, -, -, -, -, ⟨e0, e1, e2⟩⟩ := idx_facts ⟨(i 0).val, hT⟩
  have e0' : win2_7.index ⟨(i 0).val, hT⟩ (0 : Fin 3) = (i 0).val := e0
  intro a
  match a with
  | ⟨0, _⟩ => show win2_7.index ⟨(i 0).val, hT⟩ (0 : Fin 3) * 1 ≤ (i 0).val ∧ (i 0).val < win2_7.index ⟨(i 0).val, hT⟩ (0 : Fin 3) * 1 + 1; omega
  | ⟨1, _⟩ => show win2_7.index ⟨(i 0).val, hT⟩ (1 : Fin 3) * 128 ≤ (i 1).val ∧ (i 1).val < win2_7.index ⟨(i 0).val, hT⟩ (1 : Fin 3) * 128 + 128; omega
  | ⟨2, _⟩ => show win2_7.index ⟨(i 0).val, hT⟩ (2 : Fin 3) * 256 ≤ (i 2).val ∧ (i 2).val < win2_7.index ⟨(i 0).val, hT⟩ (2 : Fin 3) * 256 + 256; omega

/-- The output array after the run is the step's result over the arrays the region is entered with. -/
theorem final2 (c : Dev nD) :
    (dat2 (F := Ideal) V c).arrAt 7 cfg2.N
      = depthArr (V c main_v36) (V c main_v19) (V c main_v20) (V c main_v51) (V c main_v49) (V c main_v38) (V c main_v46) :=
  (dat2 (F := Ideal) V c).arrAt_eq_of_cover 7 (G V c) (fun t _ => flushed_eq V c t) (cover)

end Cert.KernelIdeal.Val2

end
-- ==== Proof.KIValue3.lean ====
/-
  Pipeline 3 (depth step 2): its output array after the run, as one function of the arrays the region is entered with.

  Grid point t stages batch entry t's block of the features and of the two reduced adjacency tensors, and the four
  parameter matrices whole; the body's result block is written back to batch entry t of the output. So entry (b, o, f) of
  the output is the step's formula at the whole arrays, and the 32 blocks fill the array.
-/
import proofs.«144859_j68152541053088_1_alg».proof.Proof.KernelIdealReg3
import proofs.«144859_j68152541053088_1_alg».proof.Proof.KIValueStep
import proofs.«144859_j68152541053088_1_alg».proof.Proof.SpecK
import Idealize.ShloMosaic.Lib.Pipeline.Value

set_option maxRecDepth 16384

noncomputable section

namespace Cert.KernelIdeal.Val3

open Cert.KernelIdeal Cert.KernelIdeal.Gen Cert.KernelIdeal.Fr Cert.Gcn
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block index of every window at every grid point: the three batched inputs and the output take block t along the
    batch axis, the four parameter matrices their one block. -/
theorem idx_facts : ∀ t : Fin cfg3.N,
    (win3_0.index t (0 : Fin 3) = t.val ∧ win3_0.index t (1 : Fin 3) = 0 ∧ win3_0.index t (2 : Fin 3) = 0)
    ∧ (win3_1.index t (0 : Fin 3) = t.val ∧ win3_1.index t (1 : Fin 3) = 0 ∧ win3_1.index t (2 : Fin 3) = 0)
    ∧ (win3_2.index t (0 : Fin 3) = t.val ∧ win3_2.index t (1 : Fin 3) = 0 ∧ win3_2.index t (2 : Fin 3) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 3) = t.val ∧ win3_7.index t (1 : Fin 3) = 0 ∧ win3_7.index t (2 : Fin 3) = 0) :=
  (by decide +kernel : ∀ t : Fin grid3.N, _)

/-! ## Each input block read off its array -/

theorem blk_feat (c : Dev nD) (t : Fin cfg3.N) (b : Fin 32) (hb : b.val = t.val) (p : Fin 128) (d : Fin 256) :
    (iblk3 V c 0 t : S1x128x256.Idx → EReal) (ix3 0 p d) = (V c main_v52 : A3 32 128 256) (ix3 b p d) := by
  unfold iblk3
  rw [View.read_apply]
  show V c main_v52 (((cfg3.win 0).blk t).view.emb (ix3 0 p d)) = V c main_v52 (ix3 b p d)
  refine congrArg (V c main_v52) (funext fun a => Fin.ext ?_)
  obtain ⟨⟨e0, e1, e2⟩, -⟩ := idx_facts t
  match a with
  | ⟨0, _⟩ => show win3_0.index t (0 : Fin 3) * 1 + 1 * (0 : Nat) = b.val; omega
  | ⟨1, _⟩ => show win3_0.index t (1 : Fin 3) * 128 + 1 * p.val = p.val; omega
  | ⟨2, _⟩ => show win3_0.index t (2 : Fin 3) * 256 + 1 * d.val = d.val; omega

theorem blk_obj (c : Dev nD) (t : Fin cfg3.N) (b : Fin 32) (hb : b.val = t.val) (o : Fin 128) (p : Fin 128) :
    (iblk3 V c 1 t : S1x128x128.Idx → EReal) (ix3 0 o p) = (V c main_v19 : A3 32 128 128) (ix3 b o p) := by
  unfold iblk3
  rw [View.read_apply]
  show V c main_v19 (((cfg3.win 1).blk t).view.emb (ix3 0 o p)) = V c main_v19 (ix3 b o p)
  refine congrArg (V c main_v19) (funext fun a => Fin.ext ?_)
  obtain ⟨-, ⟨e0, e1, e2⟩, -⟩ := idx_facts t
  match a with
  | ⟨0, _⟩ => show win3_1.index t (0 : Fin 3) * 1 + 1 * (0 : Nat) = b.val; omega
  | ⟨1, _⟩ => show win3_1.index t (1 : Fin 3) * 128 + 1 * o.val = o.val; omega
  | ⟨2, _⟩ => show win3_1.index t (2 : Fin 3) * 128 + 1 * p.val = p.val; omega

theorem blk_rel (c : Dev nD) (t : Fin cfg3.N) (b : Fin 32) (hb : b.val = t.val) (o : Fin 128) (r : Fin 32) :
    (iblk3 V c 2 t : S1x128x32.Idx → EReal) (ix3 0 o r) = (V c main_v20 : A3 32 128 32) (ix3 b o r) := by
  unfold iblk3
  rw [View.read_apply]
  show V c main_v20 (((cfg3.win 2).blk t).view.emb (ix3 0 o r)) = V c main_v20 (ix3 b o r)
  refine congrArg (V c main_v20) (funext fun a => Fin.ext ?_)
  obtain ⟨-, -, ⟨e0, e1, e2⟩, -⟩ := idx_facts t
  match a with
  | ⟨0, _⟩ => show win3_2.index t (0 : Fin 3) * 1 + 1 * (0 : Nat) = b.val; omega
  | ⟨1, _⟩ => show win3_2.index t (1 : Fin 3) * 128 + 1 * o.val = o.val; omega
  | ⟨2, _⟩ => show win3_2.index t (2 : Fin 3) * 32 + 1 * r.val = r.val; omega

theorem blk_w1 (c : Dev nD) (t : Fin cfg3.N) (d : Fin 256) (f : Fin 256) :
    (iblk3 V c 3 t : S256x256.Idx → EReal) (ix2 d f) = (V c main_v67 : A2 256 256) (ix2 d f) := by
  unfold iblk3
  rw [View.read_apply]
  show V c main_v67 (((cfg3.win 3).blk t).view.emb (ix2 d f)) = V c main_v67 (ix2 d f)
  refine congrArg (V c main_v67) (funext fun a => Fin.ext ?_)
  obtain ⟨-, -, -, ⟨e0, e1⟩, -⟩ := idx_facts t
  match a with
  | ⟨0, _⟩ => show win3_3.index t (0 : Fin 2) * 256 + 1 * d.val = d.val; omega
  | ⟨1, _⟩ => show win3_3.index t (1 : Fin 2) * 256 + 1 * f.val = f.val; omega

theorem blk_bias (c : Dev nD) (t : Fin cfg3.N) (f : Fin 256) :
    (iblk3 V c 4 t : S1x256.Idx → EReal) (ix2 0 f) = (V c main_v65 : A2 1 256) (ix2 0 f) := by
  unfold iblk3
  rw [View.read_apply]
  show V c main_v65 (((cfg3.win 4).blk t).view.emb (ix2 0 f)) = V c main_v65 (ix2 0 f)
  refine congrArg (V c main_v65) (funext fun a => Fin.ext ?_)
  obtain ⟨-, -, -, -, ⟨e0, e1⟩, -⟩ := idx_facts t
  match a with
  | ⟨0, _⟩ => show win3_4.index t (0 : Fin 2) * 1 + 1 * (0 : Nat) = (0 : Nat); omega
  | ⟨1, _⟩ => show win3_4.index t (1 : Fin 2) * 256 + 1 * f.val = f.val; omega

theorem blk_w2 (c : Dev nD) (t : Fin cfg3.N) (d : Fin 256) (f : Fin 256) :
    (iblk3 V c 5 t : S256x256.Idx → EReal) (ix2 d f) = (V c main_v54 : A2 256 256) (ix2 d f) := by
  unfold iblk3
  rw [View.read_apply]
  show V c main_v54 (((cfg3.win 5).blk t).view.emb (ix2 d f)) = V c main_v54 (ix2 d f)
  refine congrArg (V c main_v54) (funext fun a => Fin.ext ?_)
  obtain ⟨-, -, -, -, -, ⟨e0, e1⟩, -⟩ := idx_facts t
  match a with
  | ⟨0, _⟩ => show win3_5.index t (0 : Fin 2) * 256 + 1 * d.val = d.val; omega
  | ⟨1, _⟩ => show win3_5.index t (1 : Fin 2) * 256 + 1 * f.val = f.val; omega

theorem blk_zb (c : Dev nD) (t : Fin cfg3.N) (r : Fin 32) (f : Fin 256) :
    (iblk3 V c 6 t : S32x256.Idx → EReal) (ix2 r f) = (V c main_v62 : A2 32 256) (ix2 r f) := by
  unfold iblk3
  rw [View.read_apply]
  show V c main_v62 (((cfg3.win 6).blk t).view.emb (ix2 r f)) = V c main_v62 (ix2 r f)
  refine congrArg (V c main_v62) (funext fun a => Fin.ext ?_)
  obtain ⟨-, -, -, -, -, -, ⟨e0, e1⟩, -⟩ := idx_facts t
  match a with
  | ⟨0, _⟩ => show win3_6.index t (0 : Fin 2) * 32 + 1 * r.val = r.val; omega
  | ⟨1, _⟩ => show win3_6.index t (1 : Fin 2) * 256 + 1 * f.val = f.val; omega

/-! ## What a point writes back, and the whole array -/

/-- The step's result over the arrays the region is entered with. -/
abbrev G (c : Dev nD) : A3 32 128 256 :=
  depthArr (V c main_v52) (V c main_v19) (V c main_v20) (V c main_v67) (V c main_v65) (V c main_v54) (V c main_v62)

/-- What point t writes back is batch entry t's block of the step's result. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 V c).after 7 t) = _
  rw [after3_7]
  unfold out3_7
  rw [View.canon_unit_zero hz3]
  simp only [View.ld_unit_zero (S := S1x128x256) hz3, View.ld_unit_zero (S := S1x128x128) hz3,
    View.ld_unit_zero (S := S1x128x32) hz3, View.ld_unit_zero (S := S256x256) hz2, View.ld_unit_zero (S := S1x256) hz2,
    View.ld_unit_zero (S := S32x256) hz2]
  rw [ValStep.pay3_eq]
  have ht : t.val < 32 := lt_of_lt_of_eq t.isLt N_3
  funext j
  have hj0 : (j 0).val < 1 := (j 0).isLt
  obtain ⟨-, -, -, -, -, -, -, ⟨e0, e1, e2⟩⟩ := idx_facts t
  have hx : (cfg3.win 7).xinj (grid3.coords t) j = (ix3 0 (j 1) (j 2) : S1x128x256.Idx) := funext fun a => Fin.ext (by
    match a with
    | ⟨0, _⟩ => show (j 0).val = 0; omega
    | ⟨1, _⟩ => rfl
    | ⟨2, _⟩ => rfl)
  have hemb : ((cfg3.win 7).blk t).view.emb j = (ix3 ⟨t.val, ht⟩ (j 1) (j 2) : S32x128x256.Idx) := funext fun a => Fin.ext (by
    match a with
    | ⟨0, _⟩ => show win3_7.index t (0 : Fin 3) * 1 + 1 * (j 0).val = t.val; omega
    | ⟨1, _⟩ => show win3_7.index t (1 : Fin 3) * 128 + 1 * (j 1).val = (j 1).val; omega
    | ⟨2, _⟩ => show win3_7.index t (2 : Fin 3) * 256 + 1 * (j 2).val = (j 2).val; omega)
  rw [View.read_apply, hemb]
  show k1_pay1 (F := Ideal) (iblk3 V c 0 t) (iblk3 V c 1 t) (iblk3 V c 2 t) (iblk3 V c 3 t) (iblk3 V c 4 t)
      (iblk3 V c 5 t) (iblk3 V c 6 t) ((cfg3.win 7).xinj (grid3.coords t) j) = _
  rw [hx]
  refine (ValStep.pay_apply _ _ _ _ _ _ _ (j 1) (j 2)).trans ?_
  show _ = depthAt (V c main_v52) (V c main_v19) (V c main_v20) (V c main_v67) (V c main_v65) (V c main_v54) (V c main_v62) ⟨t.val, ht⟩ (j 1) (j 2)
  unfold depthAt
  refine congrArg Ideal.tanh ?_
  refine congrArg₂ (· + ·) (congrArg₂ (· + ·) (congrArg₂ (· + ·) (congrArg₂ (· + ·) ?_ ?_) ?_) ?_) ?_
  · exact Finset.sum_congr rfl fun d _ => congrArg₂ (· * ·) (blk_feat V c t ⟨t.val, ht⟩ rfl (j 1) d) (blk_w1 V c t d (j 2))
  · exact blk_bias V c t (j 2)
  · exact Finset.sum_congr rfl fun p _ => congrArg₂ (· * ·) (blk_obj V c t ⟨t.val, ht⟩ rfl (j 1) p)
      (Finset.sum_congr rfl fun d _ => congrArg₂ (· * ·) (blk_feat V c t ⟨t.val, ht⟩ rfl p d) (blk_w2 V c t d (j 2)))
  · exact Finset.sum_congr rfl fun r _ => congrArg₂ (· * ·) (blk_rel V c t ⟨t.val, ht⟩ rfl (j 1) r) (blk_zb V c t r (j 2))
  · exact blk_feat V c t ⟨t.val, ht⟩ rfl (j 1) (j 2)

/-- An index of the output array is in point t's block iff each coordinate is in the block's range on its axis. -/
theorem mem_blk (t : Fin cfg3.N) (i : S32x128x256.Idx) :
    i ∈ ((cfg3.win 7).blk t).view.set ↔ ∀ a : Fin 3, win3_7.index t a * S1x128x256.size a ≤ (i a).val
      ∧ (i a).val < win3_7.index t a * S1x128x256.size a + S1x128x256.size a := by
  show i ∈ ((View.whole main_v68).slice (win3_7.rect t)).set ↔ _
  rw [View.set_slice_whole, Rect.mem_set_unit]
  exact Iff.rfl

/-- The 32 blocks fill the output array: batch entry b is point b's. -/
theorem cover (i : S32x128x256.Idx) :
    ∃ t : Fin cfg3.N, (cfg3.win 7).flush t = true ∧ i ∈ ((cfg3.win 7).blk t).view.set := by
  have hi0 : (i 0).val < 32 := (i 0).isLt
  have hi1 : (i 1).val < 128 := (i 1).isLt
  have hi2 : (i 2).val < 256 := (i 2).isLt
  have hT : (i 0).val < cfg3.N := lt_of_lt_of_eq hi0 N_3.symm
  refine ⟨⟨(i 0).val, hT⟩, flush3_7 _, ?_⟩
  rw [mem_blk]
  obtain ⟨-, -, -, -, -, -, -, ⟨e0, e1, e2⟩⟩ := idx_facts ⟨(i 0).val, hT⟩
  have e0' : win3_7.index ⟨(i 0).val, hT⟩ (0 : Fin 3) = (i 0).val := e0
  intro a
  match a with
  | ⟨0, _⟩ => show win3_7.index ⟨(i 0).val, hT⟩ (0 : Fin 3) * 1 ≤ (i 0).val ∧ (i 0).val < win3_7.index ⟨(i 0).val, hT⟩ (0 : Fin 3) * 1 + 1; omega
  | ⟨1, _⟩ => show win3_7.index ⟨(i 0).val, hT⟩ (1 : Fin 3) * 128 ≤ (i 1).val ∧ (i 1).val < win3_7.index ⟨(i 0).val, hT⟩ (1 : Fin 3) * 128 + 128; omega
  | ⟨2, _⟩ => show win3_7.index ⟨(i 0).val, hT⟩ (2 : Fin 3) * 256 ≤ (i 2).val ∧ (i 2).val < win3_7.index ⟨(i 0).val, hT⟩ (2 : Fin 3) * 256 + 256; omega

/-- The output array after the run is the step's result over the arrays the region is entered with. -/
theorem final3 (c : Dev nD) :
    (dat3 (F := Ideal) V c).arrAt 7 cfg3.N
      = depthArr (V c main_v52) (V c main_v19) (V c main_v20) (V c main_v67) (V c main_v65) (V c main_v54) (V c main_v62) :=
  (dat3 (F := Ideal) V c).arrAt_eq_of_cover 7 (G V c) (fun t _ => flushed_eq V c t) (cover)

end Cert.KernelIdeal.Val3

end
-- ==== Proof.KIHostSelA.lean ====
/-
  The host stretches that build the selection matrix, each read as one array expression over the buffers it starts
  from: the three index vectors and the divisor; the floor division of the pair index by 32; the table "pair n
  belongs to object p"; the remainder of the pair index modulo 32; the table "pair n has relation r", the zero
  padding and the concatenation of the three.
-/
import proofs.«144859_j68152541053088_1_alg».proof.Proof.Gen.KernelIdeal.Regions
import Idealize.ShloMosaic.Lib.StableHlo.Run
import Idealize.ShloMosaic.Lib.ValueIdx

noncomputable section

namespace Cert.KernelIdeal.HostSel

open Cert.KernelIdeal Cert.KernelIdeal.Gen Idealize.ShloMosaic Idealize.ShloMosaic.TcCoe Idealize.ShloMosaic.StableHlo

/-- A scalar spread over the 4096 × 1 column. -/
abbrev spread {α : Type} (c : S_.Idx → α) : S4096x1.Idx → α := broadcastInDim S4096x1 ![] bcast_S_S4096x1 c

/-- Floor division of every entry of the column x by the scalar c, as the host spells it: the truncated quotient,
    less one where the signs differ and the truncated remainder is not zero. -/
def floorDivArr (x : IVec S4096x1 32) (c : IVec S_ 32) : IVec S4096x1 32 :=
  select
    (andi (cmpi .ne (signi x) (spread (signi c)))
          (cmpi .ne (Host.remsi x (spread c)) (spread (constantI S_ 32 0#32))))
    (subi (Host.divsi x (spread c)) (spread (constantI S_ 32 1#32)))
    (Host.divsi x (spread c))

/-- The divisor the host's remainder uses: one in place of zero. -/
def remDivArr (c : IVec S_ 32) : IVec S_ 32 :=
  select (cmpi .eq c (constantI S_ 32 0#32)) (constantI S_ 32 1#32) c

/-- The remainder of every entry of the column x modulo the scalar c, as the host spells it: the truncated
    remainder, plus the divisor where the remainder is not zero and its sign differs from the divisor's. -/
def remArr (x : IVec S4096x1 32) (c : IVec S_ 32) : IVec S4096x1 32 :=
  select
    (andi
      (cmpi .ne (cmpi .slt (Host.remsi x (spread (remDivArr c))) (spread (constantI S_ 32 0#32)))
                (spread (cmpi .slt (remDivArr c) (constantI S_ 32 0#32))))
      (cmpi .ne (Host.remsi x (spread (remDivArr c))) (spread (constantI S_ 32 0#32))))
    (addi (Host.remsi x (spread (remDivArr c))) (spread (remDivArr c)))
    (Host.remsi x (spread (remDivArr c)))

/-- The 0/1 table "row entry equals column entry" of a column and a row of words, as bf16 values. -/
def eqTable128 (col : IVec S4096x1 32) (row : IVec S1x128 32) : FVec Ideal S4096x128 .bf16 :=
  uitofp (F := Ideal) .bf16
    (cmpi .eq (broadcastInDim S4096x128 ![0, 1] bcast_S4096x1_S4096x128_0_1 col)
              (broadcastInDim S4096x128 ![0, 1] bcast_S1x128_S4096x128_0_1 row))
def eqTable32 (col : IVec S4096x1 32) (row : IVec S1x32 32) : FVec Ideal S4096x32 .bf16 :=
  uitofp (F := Ideal) .bf16
    (cmpi .eq (broadcastInDim S4096x32 ![0, 1] bcast_S4096x1_S4096x32_0_1 col)
              (broadcastInDim S4096x32 ![0, 1] bcast_S1x32_S4096x32_0_1 row))

/-- The three tables side by side: 128 + 32 + 96 columns. -/
def catTable (t0 : FVec Ideal S4096x128 .bf16) (t1 : FVec Ideal S4096x32 .bf16) : FVec Ideal S4096x256 .bf16 :=
  concatenate S4096x256 1
    [⟨S4096x128, t0⟩, ⟨S4096x32, t1⟩,
     ⟨S4096x96, broadcastInDim S4096x96 ![] bcast_S_S4096x96 (constant (F := Ideal) S_ .bf16 0x0000#16)⟩]
    concatenates_S4096x128_S4096x32_S4096x96_S4096x256_d1

variable (W : Valuation τ sig (Elt Ideal))

/-! ### First stretch: the three index vectors and the divisor -/

theorem s0_v1 : (StableHlo.after (hostOps0 (F := Ideal)) W (Proc.devRef .tc main_v1) : IVec S4096x1 32)
    = shapeCast S4096x1 (iotaInDim S4096 32 0) shapeCasts_S4096_S4096x1 := by
  after_results; all_goals rfl

theorem s0_v3 : (StableHlo.after (hostOps0 (F := Ideal)) W (Proc.devRef .tc main_v3) : IVec S1x128 32)
    = shapeCast S1x128 (iotaInDim S128 32 0) shapeCasts_S128_S1x128 := by
  after_results; all_goals rfl

theorem s0_v5 : (StableHlo.after (hostOps0 (F := Ideal)) W (Proc.devRef .tc main_v5) : IVec S1x32 32)
    = shapeCast S1x32 (iotaInDim S32 32 0) shapeCasts_S32_S1x32 := by
  after_results; all_goals rfl

theorem s0_c : (StableHlo.after (hostOps0 (F := Ideal)) W (Proc.devRef .tc main_c) : IVec S_ 32)
    = constantI S_ 32 32#32 := by
  after_results; all_goals rfl

/-! ### Second stretch: the floor division -/

set_option maxHeartbeats 2000000 in
theorem s1_v6 : (StableHlo.after (hostOps0_1 (F := Ideal)) W (Proc.devRef .tc main_v6) : IVec S4096x1 32)
    = floorDivArr (W (Proc.devRef .tc main_v1)) (W (Proc.devRef .tc main_c)) := by
  after_results_simp; all_goals rfl

theorem s1_v1 : StableHlo.after (hostOps0_1 (F := Ideal)) W (Proc.devRef .tc main_v1) = W (Proc.devRef .tc main_v1) :=
  StableHlo.after_of_writes_sub hostOps0_1 W hostOps0_1_writes (by decide)
theorem s1_v3 : StableHlo.after (hostOps0_1 (F := Ideal)) W (Proc.devRef .tc main_v3) = W (Proc.devRef .tc main_v3) :=
  StableHlo.after_of_writes_sub hostOps0_1 W hostOps0_1_writes (by decide)
theorem s1_v5 : StableHlo.after (hostOps0_1 (F := Ideal)) W (Proc.devRef .tc main_v5) = W (Proc.devRef .tc main_v5) :=
  StableHlo.after_of_writes_sub hostOps0_1 W hostOps0_1_writes (by decide)

/-! ### Third stretch: the object table and the second divisor -/

theorem s2_v10 : (StableHlo.after (hostOps0_2 (F := Ideal)) W (Proc.devRef .tc main_v10) : FVec Ideal S4096x128 .bf16)
    = eqTable128 (W (Proc.devRef .tc main_v6)) (W (Proc.devRef .tc main_v3)) := by
  after_results; all_goals rfl

theorem s2_c0 : (StableHlo.after (hostOps0_2 (F := Ideal)) W (Proc.devRef .tc main_c_0) : IVec S_ 32)
    = constantI S_ 32 32#32 := by
  after_results; all_goals rfl

theorem s2_v1 : StableHlo.after (hostOps0_2 (F := Ideal)) W (Proc.devRef .tc main_v1) = W (Proc.devRef .tc main_v1) :=
  StableHlo.after_of_writes_sub hostOps0_2 W hostOps0_2_writes (by decide)
theorem s2_v5 : StableHlo.after (hostOps0_2 (F := Ideal)) W (Proc.devRef .tc main_v5) = W (Proc.devRef .tc main_v5) :=
  StableHlo.after_of_writes_sub hostOps0_2 W hostOps0_2_writes (by decide)

/-! ### Fourth stretch: the remainder -/

set_option maxHeartbeats 2000000 in
theorem s3_v11 : (StableHlo.after (hostOps0_3 (F := Ideal)) W (Proc.devRef .tc main_v11) : IVec S4096x1 32)
    = remArr (W (Proc.devRef .tc main_v1)) (W (Proc.devRef .tc main_c_0)) := by
  after_results_simp; all_goals rfl

theorem s3_v10 : StableHlo.after (hostOps0_3 (F := Ideal)) W (Proc.devRef .tc main_v10) = W (Proc.devRef .tc main_v10) :=
  StableHlo.after_of_writes_sub hostOps0_3 W hostOps0_3_writes (by decide)
theorem s3_v5 : StableHlo.after (hostOps0_3 (F := Ideal)) W (Proc.devRef .tc main_v5) = W (Proc.devRef .tc main_v5) :=
  StableHlo.after_of_writes_sub hostOps0_3 W hostOps0_3_writes (by decide)

/-! ### Fifth stretch: the relation table, the padding and the concatenation -/

theorem s4_v17 : (StableHlo.after (hostOps0_4 (F := Ideal)) W (Proc.devRef .tc main_v17) : FVec Ideal S4096x256 .bf16)
    = catTable (W (Proc.devRef .tc main_v10)) (eqTable32 (W (Proc.devRef .tc main_v11)) (W (Proc.devRef .tc main_v5))) := by
  after_results; all_goals rfl

end Cert.KernelIdeal.HostSel

end
-- ==== Proof.KIHostSelW.lean ====
/-
  Word arithmetic behind the host's selection matrix: for a pair index n below 4096 held as a 32-bit word, the
  host's floor division by 32 (truncated quotient, corrected by one when the signs differ and the remainder is not
  zero) is the word of n / 32, and the host's remainder modulo 32 (truncated remainder, shifted by the divisor when
  its sign differs from the divisor's and it is not zero) is the word of n % 32.  Both are closed facts about
  4096 words, checked one by one.
-/
import Idealize.ShloMosaic.PureOps.Vector
import Idealize.ShloMosaic.Lib.Decide

namespace Cert.KernelIdeal.HostSel

open Idealize.ShloMosaic

/-- The sign of a word: 0, -1 or 1. -/
def signW (x : BitVec 32) : BitVec 32 := if x = 0 then 0 else if x.msb then -1 else 1

/-- Floor division of words as the host spells it: the truncated quotient, less one when the operands' signs
    differ and the truncated remainder is not zero. -/
def fdWord (x c : BitVec 32) : BitVec 32 :=
  Scalar.select
    (IntOp.andi (IntOp.cmpi .ne (signW x) (signW c)) (IntOp.cmpi .ne (IntOp.remsi .host x c) 0#32))
    (IntOp.subi (IntOp.divsi .host x c) 1#32)
    (IntOp.divsi .host x c)

/-- The divisor the host's remainder uses: one in place of zero. -/
def remDiv (c : BitVec 32) : BitVec 32 := Scalar.select (IntOp.cmpi .eq c 0#32) 1#32 c

/-- The remainder of words as the host spells it: the truncated remainder, plus the divisor when the remainder is
    not zero and its sign differs from the divisor's. -/
def remWord (x c : BitVec 32) : BitVec 32 :=
  Scalar.select
    (IntOp.andi
      (IntOp.cmpi .ne (IntOp.cmpi .slt (IntOp.remsi .host x (remDiv c)) 0#32) (IntOp.cmpi .slt (remDiv c) 0#32))
      (IntOp.cmpi .ne (IntOp.remsi .host x (remDiv c)) 0#32))
    (IntOp.addi (IntOp.remsi .host x (remDiv c)) (remDiv c))
    (IntOp.remsi .host x (remDiv c))

theorem fdWord_ofNat : ∀ n : Fin 4096, fdWord (BitVec.ofNat 32 n.val) 32#32 = BitVec.ofNat 32 (n.val / 32) := by
  decide +kernel

theorem remWord_ofNat : ∀ n : Fin 4096, remWord (BitVec.ofNat 32 n.val) 32#32 = BitVec.ofNat 32 (n.val % 32) := by
  decide +kernel

end Cert.KernelIdeal.HostSel
-- ==== Proof.KIHostSel.lean ====
/-
  The selection matrix the host builds before the first region, read at an index.

  The host forms the pair-index column n = 0 … 4095, its floor quotient by 32 and its remainder modulo 32, compares
  them with the object-index row 0 … 127 and the relation-index row 0 … 31, converts the two 0/1 tables to bf16 and
  lays them side by side with 96 columns of zeros.  Entry (n, j) of the result is therefore 1 exactly where
  j < 128 and n / 32 = j, or 128 ≤ j < 160 and n % 32 = j - 128, and 0 elsewhere: the selection matrix's entry.
-/
import proofs.«144859_j68152541053088_1_alg».proof.Proof.KIHostSelA
import proofs.«144859_j68152541053088_1_alg».proof.Proof.KIHostSelW
import proofs.«144859_j68152541053088_1_alg».proof.Proof.SpecK
import Idealize.ShloMosaic.Lib.Pipeline.Value
import Idealize.ShloMosaic.Lib.ValueLayout
import Idealize.ShloMosaic.Lib.IdealHost

noncomputable section

namespace Cert.KernelIdeal.HostSel

open Cert.KernelIdeal Cert.KernelIdeal.Gen Cert.Gcn Idealize.ShloMosaic Idealize.ShloMosaic.TcCoe Idealize.ShloMosaic.StableHlo
open Idealize.ShloMosaic.ValueIdx

/-! ### The pieces read at an index -/

/-- A spread scalar is the constant column. -/
theorem spread_eq {α : Type} (d : S_.Idx → α) : spread d = fun _ => d ix0 :=
  funext fun j => broadcastInDim_scalar_apply _ d j

theorem floorDivArr_apply (x : IVec S4096x1 32) (c : IVec S_ 32) (i : S4096x1.Idx) :
    floorDivArr x c i = fdWord (x i) (c ix0) := by
  unfold floorDivArr
  simp only [spread_eq]
  rfl

theorem remArr_apply (x : IVec S4096x1 32) (c : IVec S_ 32) (i : S4096x1.Idx) :
    remArr x c i = remWord (x i) (c ix0) := by
  unfold remArr
  simp only [spread_eq]
  rfl

/-- The pair-index column reads the pair index as a word. -/
theorem col_apply (n : Fin 4096) (u : Fin 1) :
    shapeCast S4096x1 (iotaInDim S4096 32 0) shapeCasts_S4096_S4096x1 (ix2 n u) = BitVec.ofNat 32 n.val := by
  rw [shapeCast_apply (iotaInDim S4096 32 0) shapeCasts_S4096_S4096x1 (ix2 n u) (ix1 n) (by
    have hu : u.val = 0 := by omega
    rw [Shape.rowMajor_val_two, Shape.rowMajor_val_one]
    show n.val = n.val * 1 + u.val
    omega)]
  rfl

/-- The object-index row reads the object index as a word. -/
theorem row128_apply (u : Fin 1) (p : Fin 128) :
    shapeCast S1x128 (iotaInDim S128 32 0) shapeCasts_S128_S1x128 (ix2 u p) = BitVec.ofNat 32 p.val := by
  rw [shapeCast_a_1a_apply]; rfl

/-- The relation-index row reads the relation index as a word. -/
theorem row32_apply (u : Fin 1) (r : Fin 32) :
    shapeCast S1x32 (iotaInDim S32 32 0) shapeCasts_S32_S1x32 (ix2 u r) = BitVec.ofNat 32 r.val := by
  rw [shapeCast_a_1a_apply]; rfl

theorem bcol128_apply {α : Type} (x : S4096x1.Idx → α) (n : Fin 4096) (p : Fin 128) :
    broadcastInDim S4096x128 ![0, 1] bcast_S4096x1_S4096x128_0_1 x (ix2 n p) = x (ix2 n 0) :=
  broadcastInDim_apply _ _ x (ix2 n p) (ix2 n 0) (by intro a; fin_cases a <;> rfl)

theorem brow128_apply {α : Type} (x : S1x128.Idx → α) (n : Fin 4096) (p : Fin 128) :
    broadcastInDim S4096x128 ![0, 1] bcast_S1x128_S4096x128_0_1 x (ix2 n p) = x (ix2 0 p) :=
  broadcastInDim_apply _ _ x (ix2 n p) (ix2 0 p) (by intro a; fin_cases a <;> rfl)

theorem bcol32_apply {α : Type} (x : S4096x1.Idx → α) (n : Fin 4096) (r : Fin 32) :
    broadcastInDim S4096x32 ![0, 1] bcast_S4096x1_S4096x32_0_1 x (ix2 n r) = x (ix2 n 0) :=
  broadcastInDim_apply _ _ x (ix2 n r) (ix2 n 0) (by intro a; fin_cases a <;> rfl)

theorem brow32_apply {α : Type} (x : S1x32.Idx → α) (n : Fin 4096) (r : Fin 32) :
    broadcastInDim S4096x32 ![0, 1] bcast_S1x32_S4096x32_0_1 x (ix2 n r) = x (ix2 0 r) :=
  broadcastInDim_apply _ _ x (ix2 n r) (ix2 0 r) (by intro a; fin_cases a <;> rfl)

/-- The equality test of two words below 2³², as a bf16 value: one where the numbers agree, zero elsewhere. -/
theorem cmpiEq_ofNat (a b : Nat) (ha : a < 2 ^ 32) (hb : b < 2 ^ 32) :
    (((IntOp.cmpi .eq (BitVec.ofNat 32 a) (BitVec.ofNat 32 b)).toNat : ℝ) : EReal) = if a = b then 1 else 0 := by
  show (((BitVec.ofBool (BitVec.ofNat 32 a == BitVec.ofNat 32 b)).toNat : ℝ) : EReal) = _
  by_cases h : a = b
  · subst h; simp
  · have hne : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this
    simp [h, hne]

theorem eqTable128_apply (col : IVec S4096x1 32) (row : IVec S1x128 32) (n : Fin 4096) (p : Fin 128) :
    eqTable128 col row (ix2 n p)
      = (((IntOp.cmpi .eq (col (ix2 n 0)) (row (ix2 0 p))).toNat : ℝ) : EReal) := by
  show (((IntOp.cmpi .eq (broadcastInDim S4096x128 ![0, 1] bcast_S4096x1_S4096x128_0_1 col (ix2 n p))
      (broadcastInDim S4096x128 ![0, 1] bcast_S1x128_S4096x128_0_1 row (ix2 n p))).toNat : ℝ) : EReal) = _
  rw [bcol128_apply, brow128_apply]

theorem eqTable32_apply (col : IVec S4096x1 32) (row : IVec S1x32 32) (n : Fin 4096) (r : Fin 32) :
    eqTable32 col row (ix2 n r)
      = (((IntOp.cmpi .eq (col (ix2 n 0)) (row (ix2 0 r))).toNat : ℝ) : EReal) := by
  show (((IntOp.cmpi .eq (broadcastInDim S4096x32 ![0, 1] bcast_S4096x1_S4096x32_0_1 col (ix2 n r))
      (broadcastInDim S4096x32 ![0, 1] bcast_S1x32_S4096x32_0_1 row (ix2 n r))).toNat : ℝ) : EReal) = _
  rw [bcol32_apply, brow32_apply]

/-! ### The two tables are the selection matrices -/

/-- The object table: entry (n, p) is one where n / 32 = p. -/
theorem objTable_apply (n : Fin 4096) (p : Fin 128) :
    eqTable128
        (floorDivArr (shapeCast S4096x1 (iotaInDim S4096 32 0) shapeCasts_S4096_S4096x1) (constantI S_ 32 32#32))
        (shapeCast S1x128 (iotaInDim S128 32 0) shapeCasts_S128_S1x128) (ix2 n p)
      = selObj n p := by
  rw [eqTable128_apply, floorDivArr_apply, col_apply, row128_apply]
  show (((IntOp.cmpi .eq (fdWord (BitVec.ofNat 32 n.val) 32#32) (BitVec.ofNat 32 p.val)).toNat : ℝ) : EReal) = _
  rw [fdWord_ofNat n, cmpiEq_ofNat _ _ (by have := n.isLt; omega) (by have := p.isLt; omega)]
  rfl

/-- The relation table: entry (n, r) is one where n % 32 = r. -/
theorem relTable_apply (n : Fin 4096) (r : Fin 32) :
    eqTable32
        (remArr (shapeCast S4096x1 (iotaInDim S4096 32 0) shapeCasts_S4096_S4096x1) (constantI S_ 32 32#32))
        (shapeCast S1x32 (iotaInDim S32 32 0) shapeCasts_S32_S1x32) (ix2 n r)
      = selRel n r := by
  rw [eqTable32_apply, remArr_apply, col_apply, row32_apply]
  show (((IntOp.cmpi .eq (remWord (BitVec.ofNat 32 n.val) 32#32) (BitVec.ofNat 32 r.val)).toNat : ℝ) : EReal) = _
  rw [remWord_ofNat n, cmpiEq_ofNat _ _ (by have := n.isLt; omega) (by have := r.isLt; omega)]
  rfl

/-! ### The concatenation read at an index -/

theorem catTable_apply (t0 : FVec Ideal S4096x128 .bf16) (t1 : FVec Ideal S4096x32 .bf16) (n : Fin 4096) (j : Fin 256) :
    catTable t0 t1 (ix2 n j) =
      if h : j.val < 128 then t0 (ix2 n ⟨j.val, h⟩)
      else if h2 : j.val < 160 then t1 (ix2 n ⟨j.val - 128, by omega⟩)
      else 0 := by
  unfold catTable
  split_ifs with h h2
  · exact concatenate_apply_piece (1 : Fin S4096x256.rank) _ _ (ix2 n j) 0 (by show 0 < 3; omega) S4096x128 t0 rfl rfl 0 rfl
      (ix2 n ⟨j.val, h⟩) (by intro b hb; fin_cases b <;> first | rfl | exact absurd rfl hb) (by show 0 + j.val = j.val; omega)
  · exact concatenate_apply_piece (1 : Fin S4096x256.rank) _ _ (ix2 n j) 1 (by show 1 < 3; omega) S4096x32 t1 rfl rfl 128 rfl
      (ix2 n ⟨j.val - 128, by omega⟩) (by intro b hb; fin_cases b <;> first | rfl | exact absurd rfl hb)
      (by show 128 + (j.val - 128) = j.val; omega)
  · have hj := j.isLt
    rw [concatenate_apply_piece (1 : Fin S4096x256.rank) _ _ (ix2 n j) 2 (by show 2 < 3; omega) S4096x96
      (broadcastInDim S4096x96 ![] bcast_S_S4096x96 (constant (F := Ideal) S_ .bf16 0x0000#16)) rfl rfl 160 rfl
      (ix2 n ⟨j.val - 160, by omega⟩) (by intro b hb; fin_cases b <;> first | rfl | exact absurd rfl hb)
      (by show 160 + (j.val - 160) = j.val; omega)]
    rw [broadcastInDim_scalar_apply]
    exact Ideal.ofBits_zero_bf16

/-! ### The selection matrix -/

/-- The matrix the host builds, read at (n, j): the selection matrix's entry. -/
theorem sel_apply (U : Valuation τ sig (Elt Ideal)) (n : Fin 4096) (j : Fin 256) :
    (StableHlo.after (hostOps0_4 (F := Ideal)) (StableHlo.after (hostOps0_3 (F := Ideal))
      (StableHlo.after (hostOps0_2 (F := Ideal)) (StableHlo.after (hostOps0_1 (F := Ideal))
        (StableHlo.after (hostOps0 (F := Ideal)) U)))) (Proc.devRef .tc main_v17) : FVec Ideal S4096x256 .bf16) (ix2 n j)
      = stEntry n j := by
  rw [s4_v17, s3_v10, s3_v5, s3_v11, s2_v10, s2_v1, s2_v5, s2_c0, s1_v6, s1_v1, s1_v3, s1_v5, s0_v1, s0_v3, s0_v5, s0_c]
  rw [catTable_apply]
  unfold stEntry
  split_ifs with h h2
  · exact objTable_apply n ⟨j.val, h⟩
  · exact relTable_apply n ⟨j.val - 128, by omega⟩
  · rfl

end Cert.KernelIdeal.HostSel

end
-- ==== Proof.KIHostLib.lean ====
/-
  How the operations of the host stretches between the pipelines read at an index: a slab of a stacked weight or bias
  array cut out by a slice and flattened by a reshape, a bias row broadcast over the rows of a matrix, and the small
  matrix product of the relation embeddings with the lower rows of a weight slab. Each lemma is stated over any operand
  and any slab offset, so that the three depth steps instantiate the same lemmas.
-/
import proofs.«144859_j68152541053088_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HostLib

open Cert.KernelIdeal Cert.KernelIdeal.Gen Idealize.ShloMosaic Idealize.ShloMosaic.TcCoe Idealize.ShloMosaic.StableHlo

section Layout
variable {α : Type}

/-- Rows 0 … 255 of slab `i` of a [3,320,256] array, flattened to a [256,256] matrix. -/
theorem slab_upper_apply (x : S3x320x256.Idx → α) (i0 : Nat) (h : S3x320x256.Slices ![i0, 0, 0] S1x256x256) (i : Fin 3)
    (hi : i.val = i0) (d f : Fin 256) :
    shapeCast _ (extractStridedSlice S1x256x256 ![i0, 0, 0] x h) shapeCasts_S1x256x256_S256x256 (ValueIdx.ix2 d f)
      = x (ValueIdx.ix3 i ⟨d.val, by have := d.isLt; omega⟩ f) := by
  refine (shapeCast_apply _ shapeCasts_S1x256x256_S256x256 (ValueIdx.ix2 d f) (ValueIdx.ix3 (0 : Fin 1) d f) ?_).trans ?_
  · rewrite [Shape.rowMajor_val_three, Shape.rowMajor_val_two]
    show (0 * 256 + d.val) * 256 + f.val = d.val * 256 + f.val
    omega
  · exact extractStridedSlice_apply ![i0, 0, 0] x h _ _ (fun a => match a with
      | ⟨0, _⟩ => by show i.val = i0 + 0; omega
      | ⟨1, _⟩ => by show d.val = 0 + d.val; omega
      | ⟨2, _⟩ => by show f.val = 0 + f.val; omega)

/-- Rows 256 … 319 of slab `i` of a [3,320,256] array, flattened to a [64,256] matrix. -/
theorem slab_lower_apply (x : S3x320x256.Idx → α) (i0 : Nat) (h : S3x320x256.Slices ![i0, 256, 0] S1x64x256) (i : Fin 3)
    (hi : i.val = i0) (e : Fin 64) (f : Fin 256) :
    shapeCast _ (extractStridedSlice S1x64x256 ![i0, 256, 0] x h) shapeCasts_S1x64x256_S64x256 (ValueIdx.ix2 e f)
      = x (ValueIdx.ix3 i ⟨256 + e.val, by have := e.isLt; omega⟩ f) := by
  refine (shapeCast_apply _ shapeCasts_S1x64x256_S64x256 (ValueIdx.ix2 e f) (ValueIdx.ix3 (0 : Fin 1) e f) ?_).trans ?_
  · rewrite [Shape.rowMajor_val_three, Shape.rowMajor_val_two]
    show (0 * 64 + e.val) * 256 + f.val = e.val * 256 + f.val
    omega
  · exact extractStridedSlice_apply ![i0, 256, 0] x h _ _ (fun a => match a with
      | ⟨0, _⟩ => by show i.val = i0 + 0; omega
      | ⟨1, _⟩ => by show 256 + e.val = 256 + e.val; rfl
      | ⟨2, _⟩ => by show f.val = 0 + f.val; omega)

/-- Slab `i` of a [3,256,256] array, flattened to a [256,256] matrix. -/
theorem slab_sq_apply (x : S3x256x256.Idx → α) (i0 : Nat) (h : S3x256x256.Slices ![i0, 0, 0] S1x256x256) (i : Fin 3)
    (hi : i.val = i0) (d f : Fin 256) :
    shapeCast _ (extractStridedSlice S1x256x256 ![i0, 0, 0] x h) shapeCasts_S1x256x256_S256x256 (ValueIdx.ix2 d f)
      = x (ValueIdx.ix3 i d f) := by
  refine (shapeCast_apply _ shapeCasts_S1x256x256_S256x256 (ValueIdx.ix2 d f) (ValueIdx.ix3 (0 : Fin 1) d f) ?_).trans ?_
  · rewrite [Shape.rowMajor_val_three, Shape.rowMajor_val_two]
    show (0 * 256 + d.val) * 256 + f.val = d.val * 256 + f.val
    omega
  · exact extractStridedSlice_apply ![i0, 0, 0] x h _ _ (fun a => match a with
      | ⟨0, _⟩ => by show i.val = i0 + 0; omega
      | ⟨1, _⟩ => by show d.val = 0 + d.val; omega
      | ⟨2, _⟩ => by show f.val = 0 + f.val; omega)

/-- Row `i` of a [3,256] array, as a vector. -/
theorem row_vec_apply (x : S3x256.Idx → α) (i0 : Nat) (h : S3x256.Slices ![i0, 0] S1x256) (i : Fin 3) (hi : i.val = i0)
    (f : Fin 256) :
    shapeCast _ (extractStridedSlice S1x256 ![i0, 0] x h) shapeCasts_S1x256_S256 (ValueIdx.ix1 f) = x (ValueIdx.ix2 i f) := by
  refine (shapeCast_apply _ shapeCasts_S1x256_S256 (ValueIdx.ix1 f) (ValueIdx.ix2 (0 : Fin 1) f) ?_).trans ?_
  · rewrite [Shape.rowMajor_val_two, Shape.rowMajor_val_one]
    show 0 * 256 + f.val = f.val
    omega
  · exact extractStridedSlice_apply ![i0, 0] x h _ _ (fun a => match a with
      | ⟨0, _⟩ => by show i.val = i0 + 0; omega
      | ⟨1, _⟩ => by show f.val = 0 + f.val; omega)

/-- Row `i` of a [3,256] array, as a vector and then again as a one-row matrix. -/
theorem row_mat_apply (x : S3x256.Idx → α) (i0 : Nat) (h : S3x256.Slices ![i0, 0] S1x256) (i : Fin 3) (hi : i.val = i0)
    (f : Fin 256) :
    shapeCast _ (shapeCast _ (extractStridedSlice S1x256 ![i0, 0] x h) shapeCasts_S1x256_S256) shapeCasts_S256_S1x256
        (ValueIdx.ix2 (0 : Fin 1) f) = x (ValueIdx.ix2 i f) := by
  refine (shapeCast_apply _ shapeCasts_S256_S1x256 (ValueIdx.ix2 (0 : Fin 1) f) (ValueIdx.ix1 f) ?_).trans
    (row_vec_apply x i0 h i hi f)
  rewrite [Shape.rowMajor_val_two, Shape.rowMajor_val_one]
  show f.val = 0 * 256 + f.val
  omega

/-- Row `i` of a [3,256] array, repeated over the 32 rows of a matrix. -/
theorem row_bcast_apply (x : S3x256.Idx → α) (i0 : Nat) (h : S3x256.Slices ![i0, 0] S1x256) (i : Fin 3) (hi : i.val = i0)
    (r : Fin 32) (f : Fin 256) :
    broadcastInDim S32x256 ![0, 1] bcast_S1x256_S32x256_0_1
        (broadcastInDim S1x256 ![1] bcast_S256_S1x256_1
          (shapeCast _ (extractStridedSlice S1x256 ![i0, 0] x h) shapeCasts_S1x256_S256)) (ValueIdx.ix2 r f)
      = x (ValueIdx.ix2 i f) := by
  refine (broadcastInDim_apply _ bcast_S1x256_S32x256_0_1 _ (ValueIdx.ix2 r f) (ValueIdx.ix2 (0 : Fin 1) f) (fun a => match a with
    | ⟨0, _⟩ => by show 0 = if (1 : Nat) = 1 then 0 else r.val; rw [if_pos rfl]
    | ⟨1, _⟩ => by show f.val = if (256 : Nat) = 1 then 0 else f.val; rw [if_neg (by decide)])).trans ?_
  refine (broadcastInDim_apply _ bcast_S256_S1x256_1 _ (ValueIdx.ix2 (0 : Fin 1) f) (ValueIdx.ix1 f) (fun a => match a with
    | ⟨0, _⟩ => by show f.val = if (256 : Nat) = 1 then 0 else f.val; rw [if_neg (by decide)])).trans ?_
  exact row_vec_apply x i0 h i hi f

end Layout

/-- At the real-valued instance an elementwise sum of two arrays reads as the sum of the two entries. -/
theorem addf_apply {s : Shape} (x y : s.Idx → EReal) (i : s.Idx) :
    addf (F := Ideal) (φ := .f32) x y i = x i + y i := rfl

/-! ## The [32,64] × [64,256] product -/

theorem dlhs_0 (j : S32x256.Idx) (q : dot_S32x64_S64x256_S32x256_1_0_0_1_n_n.contr.Idx) :
    (dot_S32x64_S64x256_S32x256_1_0_0_1_n_n.lhsIdx j q 0).val = (j 0).val := by
  unfold DotDims.lhsIdx
  rw [dif_neg (show ¬(0 : Fin S32x64.rank) ∈ dot_S32x64_S64x256_S32x256_1_0_0_1_n_n.lhsBatch by decide), dif_pos (show (0 : Fin S32x64.rank) ∈ dot_S32x64_S64x256_S32x256_1_0_0_1_n_n.lhsNonContracting by decide)]
  rfl
theorem dlhs_1 (j : S32x256.Idx) (q : dot_S32x64_S64x256_S32x256_1_0_0_1_n_n.contr.Idx) :
    (dot_S32x64_S64x256_S32x256_1_0_0_1_n_n.lhsIdx j q 1).val = (q ⟨0, by decide⟩).val :=
  dot_S32x64_S64x256_S32x256_1_0_0_1_n_n.lhsIdx_val_of_single rfl j q
theorem drhs_0 (j : S32x256.Idx) (q : dot_S32x64_S64x256_S32x256_1_0_0_1_n_n.contr.Idx) :
    (dot_S32x64_S64x256_S32x256_1_0_0_1_n_n.rhsIdx j q 0).val = (q ⟨0, by decide⟩).val :=
  dot_S32x64_S64x256_S32x256_1_0_0_1_n_n.rhsIdx_val_of_single rfl j q
theorem drhs_1 (j : S32x256.Idx) (q : dot_S32x64_S64x256_S32x256_1_0_0_1_n_n.contr.Idx) :
    (dot_S32x64_S64x256_S32x256_1_0_0_1_n_n.rhsIdx j q 1).val = (j 1).val := by
  unfold DotDims.rhsIdx
  rw [dif_neg (show ¬(1 : Fin S64x256.rank) ∈ dot_S32x64_S64x256_S32x256_1_0_0_1_n_n.rhsBatch by decide), dif_pos (show (1 : Fin S64x256.rank) ∈ dot_S32x64_S64x256_S32x256_1_0_0_1_n_n.rhsNonContracting by decide)]
  rfl

/-- At the real-valued instance the product's element (r, f) is the sum over the 64 contracted positions. -/
theorem dot_apply (l : (⟨S32x64, .f32⟩ : BufTy).Contents (Elt Ideal)) (r : (⟨S64x256, .f32⟩ : BufTy).Contents (Elt Ideal))
    (prec : Option ContractPrecision) (a : Fin 32) (f : Fin 256) :
    Host.dotGeneral (F := Ideal) (φ₁ := .f32) (φ₂ := .f32) dot_S32x64_S64x256_S32x256_1_0_0_1_n_n prec l r (ValueIdx.ix2 a f)
      = ∑ e : Fin 64, l (ValueIdx.ix2 a e) * r (ValueIdx.ix2 e f) := by
  simp only [Host.dotGeneral]
  rw [Ideal.dotGeneral_apply, ← Equiv.sum_comp (ValueIdx.contrEquiv1 dot_S32x64_S64x256_S32x256_1_0_0_1_n_n 64 rfl rfl).symm]
  refine Finset.sum_congr rfl fun k _ => ?_
  have hk := ValueIdx.contrEquiv1_symm_val dot_S32x64_S64x256_S32x256_1_0_0_1_n_n 64 rfl rfl k
  have el : dot_S32x64_S64x256_S32x256_1_0_0_1_n_n.lhsIdx (ValueIdx.ix2 a f) ((ValueIdx.contrEquiv1 dot_S32x64_S64x256_S32x256_1_0_0_1_n_n 64 rfl rfl).symm k) = ValueIdx.ix2 a k := funext fun c => Fin.ext (by
    match c with
    | ⟨0, _⟩ => exact dlhs_0 _ _
    | ⟨1, _⟩ => exact (dlhs_1 _ _).trans hk)
  have er : dot_S32x64_S64x256_S32x256_1_0_0_1_n_n.rhsIdx (ValueIdx.ix2 a f) ((ValueIdx.contrEquiv1 dot_S32x64_S64x256_S32x256_1_0_0_1_n_n 64 rfl rfl).symm k) = ValueIdx.ix2 k f := funext fun c => Fin.ext (by
    match c with
    | ⟨0, _⟩ => exact (drhs_0 _ _).trans hk
    | ⟨1, _⟩ => exact drhs_1 _ _)
  rw [el, er]

end Cert.KernelIdeal.HostLib

end
-- ==== Proof.KIHost1.lean ====
/-
  The host stretch before the first depth step's pipeline, read at an index: the two column blocks of the packed adjacency
  contractions, and the first slabs of the weights and biases, each as the entry of the program's arguments it is.
-/
import proofs.«144859_j68152541053088_1_alg».proof.Proof.KIHostLib
import proofs.«144859_j68152541053088_1_alg».proof.Proof.Spec

set_option maxRecDepth 16384

noncomputable section

namespace Cert.KernelIdeal.Host1

open Cert.KernelIdeal Cert.KernelIdeal.Gen Cert.Gcn Idealize.ShloMosaic Idealize.ShloMosaic.TcCoe Idealize.ShloMosaic.StableHlo
open Cert.KernelIdeal.HostLib

section Cols
variable {α : Type}

/-- Columns 0 … 127 of a [32,128,256] array. -/
theorem cols_lo_apply (x : S32x128x256.Idx → α) (b : Fin 32) (o : Fin 128) (p : Fin 128) :
    extractStridedSlice S32x128x128 ![0, 0, 0] x slices_S32x128x256_S32x128x128_0_0_0 (ValueIdx.ix3 b o p)
      = x (ValueIdx.ix3 b o ⟨p.val, by have := p.isLt; omega⟩) :=
  extractStridedSlice_apply ![0, 0, 0] x slices_S32x128x256_S32x128x128_0_0_0 _ _ (fun a => match a with
    | ⟨0, _⟩ => by show b.val = 0 + b.val; omega
    | ⟨1, _⟩ => by show o.val = 0 + o.val; omega
    | ⟨2, _⟩ => by show p.val = 0 + p.val; omega)

/-- Columns 128 … 159 of a [32,128,256] array. -/
theorem cols_hi_apply (x : S32x128x256.Idx → α) (b : Fin 32) (o : Fin 128) (r : Fin 32) :
    extractStridedSlice S32x128x32 ![0, 0, 128] x slices_S32x128x256_S32x128x32_0_0_128 (ValueIdx.ix3 b o r)
      = x (ValueIdx.ix3 b o ⟨128 + r.val, by have := r.isLt; omega⟩) :=
  extractStridedSlice_apply ![0, 0, 128] x slices_S32x128x256_S32x128x32_0_0_128 _ _ (fun a => match a with
    | ⟨0, _⟩ => by show b.val = 0 + b.val; omega
    | ⟨1, _⟩ => by show o.val = 0 + o.val; omega
    | ⟨2, _⟩ => by show 128 + r.val = 128 + r.val; rfl)

end Cols

variable (U : Valuation τ sig (Elt Ideal))

/-- Columns 0 … 127 of the packed array. -/
theorem v19_apply (b : Fin 32) (o : Fin 128) (p : Fin 128) :
    (StableHlo.after hostOps1 U (Proc.devRef .tc main_v19) : (⟨S32x128x128, .f32⟩ : BufTy).Contents (Elt Ideal)) (ValueIdx.ix3 b o p)
      = (U (Proc.devRef .tc main_v18) : (⟨S32x128x256, .f32⟩ : BufTy).Contents (Elt Ideal))
          (ValueIdx.ix3 b o ⟨p.val, by have := p.isLt; omega⟩) := by
  have e : (StableHlo.after hostOps1 U (Proc.devRef .tc main_v19) : (⟨S32x128x128, .f32⟩ : BufTy).Contents (Elt Ideal))
      = extractStridedSlice S32x128x128 ![0, 0, 0]
          (U (Proc.devRef .tc main_v18) : (⟨S32x128x256, .f32⟩ : BufTy).Contents (Elt Ideal)) slices_S32x128x256_S32x128x128_0_0_0 := by
    after_results
    all_goals rfl
  rw [e]
  exact cols_lo_apply _ b o p

/-- Columns 128 … 159 of the packed array. -/
theorem v20_apply (b : Fin 32) (o : Fin 128) (r : Fin 32) :
    (StableHlo.after hostOps1 U (Proc.devRef .tc main_v20) : (⟨S32x128x32, .f32⟩ : BufTy).Contents (Elt Ideal)) (ValueIdx.ix3 b o r)
      = (U (Proc.devRef .tc main_v18) : (⟨S32x128x256, .f32⟩ : BufTy).Contents (Elt Ideal))
          (ValueIdx.ix3 b o ⟨128 + r.val, by have := r.isLt; omega⟩) := by
  have e : (StableHlo.after hostOps1 U (Proc.devRef .tc main_v20) : (⟨S32x128x32, .f32⟩ : BufTy).Contents (Elt Ideal))
      = extractStridedSlice S32x128x32 ![0, 0, 128]
          (U (Proc.devRef .tc main_v18) : (⟨S32x128x256, .f32⟩ : BufTy).Contents (Elt Ideal)) slices_S32x128x256_S32x128x32_0_0_128 := by
    after_results
    all_goals rfl
  rw [e]
  exact cols_hi_apply _ b o r

/-- The upper 256 rows of slab 0 of the relational weight array. -/
theorem v22_apply (d f : Fin 256) :
    (StableHlo.after hostOps1 U (Proc.devRef .tc main_v22) : (⟨S256x256, .f32⟩ : BufTy).Contents (Elt Ideal)) (ValueIdx.ix2 d f)
      = (U (Proc.devRef .tc main_arg5) : (⟨S3x320x256, .f32⟩ : BufTy).Contents (Elt Ideal))
          (ValueIdx.ix3 (0 : Fin 3) ⟨d.val, by have := d.isLt; omega⟩ f) := by
  have e : (StableHlo.after hostOps1 U (Proc.devRef .tc main_v22) : (⟨S256x256, .f32⟩ : BufTy).Contents (Elt Ideal))
      = shapeCast _ (extractStridedSlice S1x256x256 ![0, 0, 0]
          (U (Proc.devRef .tc main_arg5) : (⟨S3x320x256, .f32⟩ : BufTy).Contents (Elt Ideal)) slices_S3x320x256_S1x256x256_0_0_0)
          shapeCasts_S1x256x256_S256x256 := by
    after_results
    all_goals rfl
  rw [e]
  exact slab_upper_apply _ 0 slices_S3x320x256_S1x256x256_0_0_0 (0 : Fin 3) rfl d f

/-- The relation embeddings through the lower 64 rows of slab 0 of the relational weight array, plus row 0 of its bias. -/
theorem v30_apply (r : Fin 32) (f : Fin 256) :
    (StableHlo.after hostOps1 U (Proc.devRef .tc main_v30) : (⟨S32x256, .f32⟩ : BufTy).Contents (Elt Ideal)) (ValueIdx.ix2 r f)
      = (∑ e : Fin 64, un2 (n0 := 32) (n1 := 64) (U (Proc.devRef .tc main_arg2)) r e
            * un3 (n0 := 3) (n1 := 320) (n2 := 256) (U (Proc.devRef .tc main_arg5)) (0 : Fin 3) ⟨256 + e.val, by have := e.isLt; omega⟩ f)
          + un2 (n0 := 3) (n1 := 256) (U (Proc.devRef .tc main_arg6)) (0 : Fin 3) f := by
  have e : (StableHlo.after hostOps1 U (Proc.devRef .tc main_v30) : (⟨S32x256, .f32⟩ : BufTy).Contents (Elt Ideal))
      = addf
          (Host.dotGeneral (F := Ideal) (φ₁ := .f32) (φ₂ := .f32) dot_S32x64_S64x256_S32x256_1_0_0_1_n_n (some .fp32)
            (U (Proc.devRef .tc main_arg2) : (⟨S32x64, .f32⟩ : BufTy).Contents (Elt Ideal))
            (shapeCast _ (extractStridedSlice S1x64x256 ![0, 256, 0]
              (U (Proc.devRef .tc main_arg5) : (⟨S3x320x256, .f32⟩ : BufTy).Contents (Elt Ideal)) slices_S3x320x256_S1x64x256_0_256_0)
              shapeCasts_S1x64x256_S64x256))
          (broadcastInDim S32x256 ![0, 1] bcast_S1x256_S32x256_0_1
            (broadcastInDim S1x256 ![1] bcast_S256_S1x256_1
              (shapeCast _ (extractStridedSlice S1x256 ![0, 0]
                (U (Proc.devRef .tc main_arg6) : (⟨S3x256, .f32⟩ : BufTy).Contents (Elt Ideal)) slices_S3x256_S1x256_0_0)
                shapeCasts_S1x256_S256))) := by
    after_results
    all_goals rfl
  rw [e]
  refine (addf_apply _ _ _).trans (congrArg₂ (· + ·) ?_ ?_)
  · refine (dot_apply _ _ _ r f).trans (Finset.sum_congr rfl fun e _ => ?_)
    exact congrArg (HMul.hMul _) (slab_lower_apply _ 0 slices_S3x320x256_S1x64x256_0_256_0 (0 : Fin 3) rfl e f)
  · exact row_bcast_apply _ 0 slices_S3x256_S1x256_0_0 (0 : Fin 3) rfl r f

/-- Row 0 of the self map's bias, as a one-row matrix. -/
theorem v33_apply (f : Fin 256) :
    (StableHlo.after hostOps1 U (Proc.devRef .tc main_v33) : (⟨S1x256, .f32⟩ : BufTy).Contents (Elt Ideal)) (ValueIdx.ix2 (0 : Fin 1) f)
      = (U (Proc.devRef .tc main_arg4) : (⟨S3x256, .f32⟩ : BufTy).Contents (Elt Ideal)) (ValueIdx.ix2 (0 : Fin 3) f) := by
  have e : (StableHlo.after hostOps1 U (Proc.devRef .tc main_v33) : (⟨S1x256, .f32⟩ : BufTy).Contents (Elt Ideal))
      = shapeCast _ (shapeCast _ (extractStridedSlice S1x256 ![0, 0]
          (U (Proc.devRef .tc main_arg4) : (⟨S3x256, .f32⟩ : BufTy).Contents (Elt Ideal)) slices_S3x256_S1x256_0_0)
          shapeCasts_S1x256_S256) shapeCasts_S256_S1x256 := by
    after_results
    all_goals rfl
  rw [e]
  exact row_mat_apply _ 0 slices_S3x256_S1x256_0_0 (0 : Fin 3) rfl f

/-- Slab 0 of the self map's weight array. -/
theorem v35_apply (d f : Fin 256) :
    (StableHlo.after hostOps1 U (Proc.devRef .tc main_v35) : (⟨S256x256, .f32⟩ : BufTy).Contents (Elt Ideal)) (ValueIdx.ix2 d f)
      = (U (Proc.devRef .tc main_arg3) : (⟨S3x256x256, .f32⟩ : BufTy).Contents (Elt Ideal)) (ValueIdx.ix3 (0 : Fin 3) d f) := by
  have e : (StableHlo.after hostOps1 U (Proc.devRef .tc main_v35) : (⟨S256x256, .f32⟩ : BufTy).Contents (Elt Ideal))
      = shapeCast _ (extractStridedSlice S1x256x256 ![0, 0, 0]
          (U (Proc.devRef .tc main_arg3) : (⟨S3x256x256, .f32⟩ : BufTy).Contents (Elt Ideal)) slices_S3x256x256_S1x256x256_0_0_0)
          shapeCasts_S1x256x256_S256x256 := by
    after_results
    all_goals rfl
  rw [e]
  exact slab_sq_apply _ 0 slices_S3x256x256_S1x256x256_0_0_0 (0 : Fin 3) rfl d f

end Cert.KernelIdeal.Host1

end
-- ==== Proof.KIHost2.lean ====
/-
  The host stretch before the second depth step's pipeline, read at an index: the second slabs of the weights and biases,
  each as the entry of the program's arguments it is.
-/
import proofs.«144859_j68152541053088_1_alg».proof.Proof.KIHostLib
import proofs.«144859_j68152541053088_1_alg».proof.Proof.Spec

set_option maxRecDepth 16384

noncomputable section

namespace Cert.KernelIdeal.Host2

open Cert.KernelIdeal Cert.KernelIdeal.Gen Cert.Gcn Idealize.ShloMosaic Idealize.ShloMosaic.TcCoe Idealize.ShloMosaic.StableHlo
open Cert.KernelIdeal.HostLib

variable (U : Valuation τ sig (Elt Ideal))

/-- The upper 256 rows of slab 1 of the relational weight array. -/
theorem v38_apply (d f : Fin 256) :
    (StableHlo.after hostOps2 U (Proc.devRef .tc main_v38) : (⟨S256x256, .f32⟩ : BufTy).Contents (Elt Ideal)) (ValueIdx.ix2 d f)
      = (U (Proc.devRef .tc main_arg5) : (⟨S3x320x256, .f32⟩ : BufTy).Contents (Elt Ideal))
          (ValueIdx.ix3 (1 : Fin 3) ⟨d.val, by have := d.isLt; omega⟩ f) := by
  have e : (StableHlo.after hostOps2 U (Proc.devRef .tc main_v38) : (⟨S256x256, .f32⟩ : BufTy).Contents (Elt Ideal))
      = shapeCast _ (extractStridedSlice S1x256x256 ![1, 0, 0]
          (U (Proc.devRef .tc main_arg5) : (⟨S3x320x256, .f32⟩ : BufTy).Contents (Elt Ideal)) slices_S3x320x256_S1x256x256_1_0_0)
          shapeCasts_S1x256x256_S256x256 := by
    after_results
    all_goals rfl
  rw [e]
  exact slab_upper_apply _ 1 slices_S3x320x256_S1x256x256_1_0_0 (1 : Fin 3) rfl d f

/-- The relation embeddings through the lower 64 rows of slab 1 of the relational weight array, plus row 1 of its bias. -/
theorem v46_apply (r : Fin 32) (f : Fin 256) :
    (StableHlo.after hostOps2 U (Proc.devRef .tc main_v46) : (⟨S32x256, .f32⟩ : BufTy).Contents (Elt Ideal)) (ValueIdx.ix2 r f)
      = (∑ e : Fin 64, un2 (n0 := 32) (n1 := 64) (U (Proc.devRef .tc main_arg2)) r e
            * un3 (n0 := 3) (n1 := 320) (n2 := 256) (U (Proc.devRef .tc main_arg5)) (1 : Fin 3) ⟨256 + e.val, by have := e.isLt; omega⟩ f)
          + un2 (n0 := 3) (n1 := 256) (U (Proc.devRef .tc main_arg6)) (1 : Fin 3) f := by
  have e : (StableHlo.after hostOps2 U (Proc.devRef .tc main_v46) : (⟨S32x256, .f32⟩ : BufTy).Contents (Elt Ideal))
      = addf
          (Host.dotGeneral (F := Ideal) (φ₁ := .f32) (φ₂ := .f32) dot_S32x64_S64x256_S32x256_1_0_0_1_n_n (some .fp32)
            (U (Proc.devRef .tc main_arg2) : (⟨S32x64, .f32⟩ : BufTy).Contents (Elt Ideal))
            (shapeCast _ (extractStridedSlice S1x64x256 ![1, 256, 0]
              (U (Proc.devRef .tc main_arg5) : (⟨S3x320x256, .f32⟩ : BufTy).Contents (Elt Ideal)) slices_S3x320x256_S1x64x256_1_256_0)
              shapeCasts_S1x64x256_S64x256))
          (broadcastInDim S32x256 ![0, 1] bcast_S1x256_S32x256_0_1
            (broadcastInDim S1x256 ![1] bcast_S256_S1x256_1
              (shapeCast _ (extractStridedSlice S1x256 ![1, 0]
                (U (Proc.devRef .tc main_arg6) : (⟨S3x256, .f32⟩ : BufTy).Contents (Elt Ideal)) slices_S3x256_S1x256_1_0)
                shapeCasts_S1x256_S256))) := by
    after_results
    all_goals rfl
  rw [e]
  refine (addf_apply _ _ _).trans (congrArg₂ (· + ·) ?_ ?_)
  · refine (dot_apply _ _ _ r f).trans (Finset.sum_congr rfl fun e _ => ?_)
    exact congrArg (HMul.hMul _) (slab_lower_apply _ 1 slices_S3x320x256_S1x64x256_1_256_0 (1 : Fin 3) rfl e f)
  · exact row_bcast_apply _ 1 slices_S3x256_S1x256_1_0 (1 : Fin 3) rfl r f

/-- Row 1 of the self map's bias, as a one-row matrix. -/
theorem v49_apply (f : Fin 256) :
    (StableHlo.after hostOps2 U (Proc.devRef .tc main_v49) : (⟨S1x256, .f32⟩ : BufTy).Contents (Elt Ideal)) (ValueIdx.ix2 (0 : Fin 1) f)
      = (U (Proc.devRef .tc main_arg4) : (⟨S3x256, .f32⟩ : BufTy).Contents (Elt Ideal)) (ValueIdx.ix2 (1 : Fin 3) f) := by
  have e : (StableHlo.after hostOps2 U (Proc.devRef .tc main_v49) : (⟨S1x256, .f32⟩ : BufTy).Contents (Elt Ideal))
      = shapeCast _ (shapeCast _ (extractStridedSlice S1x256 ![1, 0]
          (U (Proc.devRef .tc main_arg4) : (⟨S3x256, .f32⟩ : BufTy).Contents (Elt Ideal)) slices_S3x256_S1x256_1_0)
          shapeCasts_S1x256_S256) shapeCasts_S256_S1x256 := by
    after_results
    all_goals rfl
  rw [e]
  exact row_mat_apply _ 1 slices_S3x256_S1x256_1_0 (1 : Fin 3) rfl f

/-- Slab 1 of the self map's weight array. -/
theorem v51_apply (d f : Fin 256) :
    (StableHlo.after hostOps2 U (Proc.devRef .tc main_v51) : (⟨S256x256, .f32⟩ : BufTy).Contents (Elt Ideal)) (ValueIdx.ix2 d f)
      = (U (Proc.devRef .tc main_arg3) : (⟨S3x256x256, .f32⟩ : BufTy).Contents (Elt Ideal)) (ValueIdx.ix3 (1 : Fin 3) d f) := by
  have e : (StableHlo.after hostOps2 U (Proc.devRef .tc main_v51) : (⟨S256x256, .f32⟩ : BufTy).Contents (Elt Ideal))
      = shapeCast _ (extractStridedSlice S1x256x256 ![1, 0, 0]
          (U (Proc.devRef .tc main_arg3) : (⟨S3x256x256, .f32⟩ : BufTy).Contents (Elt Ideal)) slices_S3x256x256_S1x256x256_1_0_0)
          shapeCasts_S1x256x256_S256x256 := by
    after_results
    all_goals rfl
  rw [e]
  exact slab_sq_apply _ 1 slices_S3x256x256_S1x256x256_1_0_0 (1 : Fin 3) rfl d f

end Cert.KernelIdeal.Host2

end
-- ==== Proof.KIHost3.lean ====
/-
  The host stretch before the third depth step's pipeline, read at an index: the third slabs of the weights and biases,
  each as the entry of the program's arguments it is.
-/
import proofs.«144859_j68152541053088_1_alg».proof.Proof.KIHostLib
import proofs.«144859_j68152541053088_1_alg».proof.Proof.Spec

set_option maxRecDepth 16384

noncomputable section

namespace Cert.KernelIdeal.Host3

open Cert.KernelIdeal Cert.KernelIdeal.Gen Cert.Gcn Idealize.ShloMosaic Idealize.ShloMosaic.TcCoe Idealize.ShloMosaic.StableHlo
open Cert.KernelIdeal.HostLib

variable (U : Valuation τ sig (Elt Ideal))

/-- The upper 256 rows of slab 2 of the relational weight array. -/
theorem v54_apply (d f : Fin 256) :
    (StableHlo.after hostOps3 U (Proc.devRef .tc main_v54) : (⟨S256x256, .f32⟩ : BufTy).Contents (Elt Ideal)) (ValueIdx.ix2 d f)
      = (U (Proc.devRef .tc main_arg5) : (⟨S3x320x256, .f32⟩ : BufTy).Contents (Elt Ideal))
          (ValueIdx.ix3 (2 : Fin 3) ⟨d.val, by have := d.isLt; omega⟩ f) := by
  have e : (StableHlo.after hostOps3 U (Proc.devRef .tc main_v54) : (⟨S256x256, .f32⟩ : BufTy).Contents (Elt Ideal))
      = shapeCast _ (extractStridedSlice S1x256x256 ![2, 0, 0]
          (U (Proc.devRef .tc main_arg5) : (⟨S3x320x256, .f32⟩ : BufTy).Contents (Elt Ideal)) slices_S3x320x256_S1x256x256_2_0_0)
          shapeCasts_S1x256x256_S256x256 := by
    after_results
    all_goals rfl
  rw [e]
  exact slab_upper_apply _ 2 slices_S3x320x256_S1x256x256_2_0_0 (2 : Fin 3) rfl d f

/-- The relation embeddings through the lower 64 rows of slab 2 of the relational weight array, plus row 2 of its bias. -/
theorem v62_apply (r : Fin 32) (f : Fin 256) :
    (StableHlo.after hostOps3 U (Proc.devRef .tc main_v62) : (⟨S32x256, .f32⟩ : BufTy).Contents (Elt Ideal)) (ValueIdx.ix2 r f)
      = (∑ e : Fin 64, un2 (n0 := 32) (n1 := 64) (U (Proc.devRef .tc main_arg2)) r e
            * un3 (n0 := 3) (n1 := 320) (n2 := 256) (U (Proc.devRef .tc main_arg5)) (2 : Fin 3) ⟨256 + e.val, by have := e.isLt; omega⟩ f)
          + un2 (n0 := 3) (n1 := 256) (U (Proc.devRef .tc main_arg6)) (2 : Fin 3) f := by
  have e : (StableHlo.after hostOps3 U (Proc.devRef .tc main_v62) : (⟨S32x256, .f32⟩ : BufTy).Contents (Elt Ideal))
      = addf
          (Host.dotGeneral (F := Ideal) (φ₁ := .f32) (φ₂ := .f32) dot_S32x64_S64x256_S32x256_1_0_0_1_n_n (some .fp32)
            (U (Proc.devRef .tc main_arg2) : (⟨S32x64, .f32⟩ : BufTy).Contents (Elt Ideal))
            (shapeCast _ (extractStridedSlice S1x64x256 ![2, 256, 0]
              (U (Proc.devRef .tc main_arg5) : (⟨S3x320x256, .f32⟩ : BufTy).Contents (Elt Ideal)) slices_S3x320x256_S1x64x256_2_256_0)
              shapeCasts_S1x64x256_S64x256))
          (broadcastInDim S32x256 ![0, 1] bcast_S1x256_S32x256_0_1
            (broadcastInDim S1x256 ![1] bcast_S256_S1x256_1
              (shapeCast _ (extractStridedSlice S1x256 ![2, 0]
                (U (Proc.devRef .tc main_arg6) : (⟨S3x256, .f32⟩ : BufTy).Contents (Elt Ideal)) slices_S3x256_S1x256_2_0)
                shapeCasts_S1x256_S256))) := by
    after_results
    all_goals rfl
  rw [e]
  refine (addf_apply _ _ _).trans (congrArg₂ (· + ·) ?_ ?_)
  · refine (dot_apply _ _ _ r f).trans (Finset.sum_congr rfl fun e _ => ?_)
    exact congrArg (HMul.hMul _) (slab_lower_apply _ 2 slices_S3x320x256_S1x64x256_2_256_0 (2 : Fin 3) rfl e f)
  · exact row_bcast_apply _ 2 slices_S3x256_S1x256_2_0 (2 : Fin 3) rfl r f

/-- Row 2 of the self map's bias, as a one-row matrix. -/
theorem v65_apply (f : Fin 256) :
    (StableHlo.after hostOps3 U (Proc.devRef .tc main_v65) : (⟨S1x256, .f32⟩ : BufTy).Contents (Elt Ideal)) (ValueIdx.ix2 (0 : Fin 1) f)
      = (U (Proc.devRef .tc main_arg4) : (⟨S3x256, .f32⟩ : BufTy).Contents (Elt Ideal)) (ValueIdx.ix2 (2 : Fin 3) f) := by
  have e : (StableHlo.after hostOps3 U (Proc.devRef .tc main_v65) : (⟨S1x256, .f32⟩ : BufTy).Contents (Elt Ideal))
      = shapeCast _ (shapeCast _ (extractStridedSlice S1x256 ![2, 0]
          (U (Proc.devRef .tc main_arg4) : (⟨S3x256, .f32⟩ : BufTy).Contents (Elt Ideal)) slices_S3x256_S1x256_2_0)
          shapeCasts_S1x256_S256) shapeCasts_S256_S1x256 := by
    after_results
    all_goals rfl
  rw [e]
  exact row_mat_apply _ 2 slices_S3x256_S1x256_2_0 (2 : Fin 3) rfl f

/-- Slab 2 of the self map's weight array. -/
theorem v67_apply (d f : Fin 256) :
    (StableHlo.after hostOps3 U (Proc.devRef .tc main_v67) : (⟨S256x256, .f32⟩ : BufTy).Contents (Elt Ideal)) (ValueIdx.ix2 d f)
      = (U (Proc.devRef .tc main_arg3) : (⟨S3x256x256, .f32⟩ : BufTy).Contents (Elt Ideal)) (ValueIdx.ix3 (2 : Fin 3) d f) := by
  have e : (StableHlo.after hostOps3 U (Proc.devRef .tc main_v67) : (⟨S256x256, .f32⟩ : BufTy).Contents (Elt Ideal))
      = shapeCast _ (extractStridedSlice S1x256x256 ![2, 0, 0]
          (U (Proc.devRef .tc main_arg3) : (⟨S3x256x256, .f32⟩ : BufTy).Contents (Elt Ideal)) slices_S3x256x256_S1x256x256_2_0_0)
          shapeCasts_S1x256x256_S256x256 := by
    after_results
    all_goals rfl
  rw [e]
  exact slab_sq_apply _ 2 slices_S3x256x256_S1x256x256_2_0_0 (2 : Fin 3) rfl d f

end Cert.KernelIdeal.Host3

end
-- ==== Proof.SpecKLaw.lean ====
/-
  The kernels' array-level results against the specification's kernel-side step.

  * The adjacency times the selection matrix, read in its first 128 columns, is the adjacency summed over each object's relations
    (`adjObj`); read in columns 128–159 it is the adjacency summed over each relation's objects (`adjRel`).
  * A depth step's array-level function (`depthArr`), at operands that are those two reduced tensors and the step's slices of the
    parameter arrays, is the specification's `kerStep`.
-/
import proofs.«144859_j68152541053088_1_alg».proof.Proof.SpecK

noncomputable section

namespace Cert.Gcn

open Idealize.ShloMosaic Idealize.ShloMosaic.ValueIdx

/-- The selection matrix as an array. -/
def stArr : A2 4096 256 := fun i => stEntry (i 0) (i 1)

theorem stArr_apply (n : Fin 4096) (j : Fin 256) : stArr (ix2 n j) = stEntry n j := rfl

theorem reduce_obj (A : A3 32 128 4096) (st : A2 4096 256) (hst : ∀ n j, st (ix2 n j) = stEntry n j)
    (b : Fin 32) (o : Fin 128) (p : Fin 128) :
    reduceAt A st b o ⟨p.val, by have := p.isLt; omega⟩ = adjObj (un3 A) b o p := by
  unfold reduceAt adjObj
  refine Finset.sum_congr rfl fun n _ => ?_
  rw [hst]
  unfold stEntry
  rw [dif_pos (show (⟨p.val, _⟩ : Fin 256).val < 128 from p.isLt)]

theorem reduce_rel (A : A3 32 128 4096) (st : A2 4096 256) (hst : ∀ n j, st (ix2 n j) = stEntry n j)
    (b : Fin 32) (o : Fin 128) (r : Fin 32) :
    reduceAt A st b o ⟨128 + r.val, by have := r.isLt; omega⟩ = adjRel (un3 A) b o r := by
  unfold reduceAt adjRel
  refine Finset.sum_congr rfl fun n _ => ?_
  rw [hst]
  unfold stEntry
  have h1 : ¬ (⟨128 + r.val, by have := r.isLt; omega⟩ : Fin 256).val < 128 := by show ¬ 128 + r.val < 128; omega
  have h2 : (⟨128 + r.val, by have := r.isLt; omega⟩ : Fin 256).val < 160 := by show 128 + r.val < 160; have := r.isLt; omega
  rw [dif_neg h1, dif_pos h2]
  congr 2
  apply Fin.ext
  show 128 + r.val - 128 = r.val
  omega

section
variable (A : Fin 32 → Fin 128 → Fin 4096 → EReal) (rel : Fin 32 → Fin 64 → EReal)
  (W1 : Fin 3 → Fin 256 → Fin 256 → EReal) (b1 : Fin 3 → Fin 256 → EReal)
  (W2 : Fin 3 → Fin 320 → Fin 256 → EReal) (b2 : Fin 3 → Fin 256 → EReal)

/-- A depth step's array-level function at operands that ARE the specification's tensors is `kerStep`. -/
theorem depthArr_eq_kerStep (i : Fin 3) (x : A3 32 128 256) (as : A3 32 128 128) (ar : A3 32 128 32) (w1 : A2 256 256)
    (bb : A2 1 256) (w2a : A2 256 256) (zb : A2 32 256)
    (has : ∀ b o p, as (ix3 b o p) = adjObj A b o p) (har : ∀ b o r, ar (ix3 b o r) = adjRel A b o r)
    (hw1 : ∀ d f, w1 (ix2 d f) = W1 i d f) (hbb : ∀ f, bb (ix2 0 f) = b1 i f)
    (hw2a : ∀ (d : Fin 256) f, w2a (ix2 d f) = W2 i ⟨d.val, by have := d.isLt; omega⟩ f)
    (hzb : ∀ r f, zb (ix2 r f) = (∑ e : Fin 64, rel r e * W2 i ⟨256 + e.val, by have := e.isLt; omega⟩ f) + b2 i f) :
    depthArr x as ar w1 bb w2a zb = fun j => kerStep A rel W1 b1 W2 b2 i (un3 x) (j 0) (j 1) (j 2) := by
  funext j
  obtain ⟨b, o, f, rfl⟩ : ∃ (b : Fin 32) (o : Fin 128) (f : Fin 256), j = ix3 b o f := ⟨j 0, j 1, j 2, eq_ix3 j⟩
  show depthAt x as ar w1 bb w2a zb b o f = kerStep A rel W1 b1 W2 b2 i (un3 x) b o f
  unfold depthAt kerStep
  simp only [has, har, hw1, hbb, hw2a, hzb]

/-- The specification's kernel-side step as a function from feature arrays to feature arrays. -/
def kerArr (i : Fin 3) (x : A3 32 128 256) : A3 32 128 256 :=
  fun j => kerStep A rel W1 b1 W2 b2 i (un3 x) (j 0) (j 1) (j 2)

theorem depthArr_eq_kerArr (i : Fin 3) (x : A3 32 128 256) (as : A3 32 128 128) (ar : A3 32 128 32) (w1 : A2 256 256)
    (bb : A2 1 256) (w2a : A2 256 256) (zb : A2 32 256)
    (has : ∀ b o p, as (ix3 b o p) = adjObj A b o p) (har : ∀ b o r, ar (ix3 b o r) = adjRel A b o r)
    (hw1 : ∀ d f, w1 (ix2 d f) = W1 i d f) (hbb : ∀ f, bb (ix2 0 f) = b1 i f)
    (hw2a : ∀ (d : Fin 256) f, w2a (ix2 d f) = W2 i ⟨d.val, by have := d.isLt; omega⟩ f)
    (hzb : ∀ r f, zb (ix2 r f) = (∑ e : Fin 64, rel r e * W2 i ⟨256 + e.val, by have := e.isLt; omega⟩ f) + b2 i f) :
    depthArr x as ar w1 bb w2a zb = kerArr A rel W1 b1 W2 b2 i x :=
  depthArr_eq_kerStep A rel W1 b1 W2 b2 i x as ar w1 bb w2a zb has har hw1 hbb hw2a hzb

/-- Three array-level steps are the specification's three kernel-side steps. -/
theorem kerArr3 (x : A3 32 128 256) :
    kerArr A rel W1 b1 W2 b2 2 (kerArr A rel W1 b1 W2 b2 1 (kerArr A rel W1 b1 W2 b2 0 x))
      = fun j => ker3 A rel W1 b1 W2 b2 (un3 x) (j 0) (j 1) (j 2) := rfl

end

end Cert.Gcn

end
-- ==== Proof.KIChain.lean ====
/-
  The kernel program's result array, read back from the run's last boundary to the argument arrays: three kernel-side depth steps.

  The selection matrix the first stretches build has the entries the specification gives it; pipeline 0 leaves the adjacency times
  that matrix; the stretch after it cuts the product's first 128 columns — the adjacency summed over each object's relations — and
  the next 32 — summed over each relation's objects; each depth step's stretch cuts that step's slices of the parameter arrays and
  forms the relation embeddings' image under the lower rows of the relational map plus its bias; each depth step's pipeline leaves
  the step's function of its operands, which at these operands is the specification's kernel-side step of the previous features.
-/
import proofs.«144859_j68152541053088_1_alg».proof.Proof.KIKeep
import proofs.«144859_j68152541053088_1_alg».proof.Proof.KIValue0
import proofs.«144859_j68152541053088_1_alg».proof.Proof.KIValue1
import proofs.«144859_j68152541053088_1_alg».proof.Proof.KIValue2
import proofs.«144859_j68152541053088_1_alg».proof.Proof.KIValue3
import proofs.«144859_j68152541053088_1_alg».proof.Proof.KIHostSel
import proofs.«144859_j68152541053088_1_alg».proof.Proof.KIHost1
import proofs.«144859_j68152541053088_1_alg».proof.Proof.KIHost2
import proofs.«144859_j68152541053088_1_alg».proof.Proof.KIHost3
import proofs.«144859_j68152541053088_1_alg».proof.Proof.SpecKLaw

set_option maxRecDepth 16384

noncomputable section

namespace Cert.KernelIdeal.Chain

open Cert.KernelIdeal Cert.KernelIdeal.Gen Cert.KernelIdeal.Fr Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The argument arrays as the specification's tensors -/

abbrev tX : Feat := un3 (m ((c : Thread nD τ).loc main_arg0) : (⟨S32x128x256, .f32⟩ : BufTy).Contents (Elt Ideal))
abbrev tA : Fin 32 → Fin 128 → Fin 4096 → EReal := un3 (m ((c : Thread nD τ).loc main_arg1) : (⟨S32x128x4096, .f32⟩ : BufTy).Contents (Elt Ideal))
abbrev tRel : Fin 32 → Fin 64 → EReal := un2 (m ((c : Thread nD τ).loc main_arg2) : (⟨S32x64, .f32⟩ : BufTy).Contents (Elt Ideal))
abbrev tW1 : Fin 3 → Fin 256 → Fin 256 → EReal := un3 (m ((c : Thread nD τ).loc main_arg3) : (⟨S3x256x256, .f32⟩ : BufTy).Contents (Elt Ideal))
abbrev tB1 : Fin 3 → Fin 256 → EReal := un2 (m ((c : Thread nD τ).loc main_arg4) : (⟨S3x256, .f32⟩ : BufTy).Contents (Elt Ideal))
abbrev tW2 : Fin 3 → Fin 320 → Fin 256 → EReal := un3 (m ((c : Thread nD τ).loc main_arg5) : (⟨S3x320x256, .f32⟩ : BufTy).Contents (Elt Ideal))
abbrev tB2 : Fin 3 → Fin 256 → EReal := un2 (m ((c : Thread nD τ).loc main_arg6) : (⟨S3x256, .f32⟩ : BufTy).Contents (Elt Ideal))

/-! ## The reduced adjacency -/

/-- The selection matrix at pipeline 0's entry. -/
theorem sel_at (n : Fin 4096) (j : Fin 256) : (B5 m ρ c (Proc.devRef .tc main_v17) : (⟨S4096x256, .bf16⟩ : BufTy).Contents (Elt Ideal)) (ix2 n j) = stEntry n j :=
  HostSel.sel_apply (B0 m ρ c) n j

/-- Pipeline 0's result: the adjacency times the selection matrix. -/
theorem packed_at (b : Fin 32) (o : Fin 128) (j : Fin 256) :
    (B6 m ρ c (Proc.devRef .tc main_v18) : (⟨S32x128x256, .f32⟩ : BufTy).Contents (Elt Ideal)) (ix3 b o j)
      = reduceAt (m ((c : Thread nD τ).loc main_arg1) : (⟨S32x128x4096, .f32⟩ : BufTy).Contents (Elt Ideal)) (B5 m ρ c (Proc.devRef .tc main_v17) : (⟨S4096x256, .bf16⟩ : BufTy).Contents (Elt Ideal)) b o j := by
  have h := congrFun ((B6_v18 m ρ c).trans (Val0.final0 (C5 m ρ) c)) (ix3 b o j)
  refine h.trans ?_
  show reduceAt (C5 m ρ c main_arg1) (C5 m ρ c main_v17) b o j = _
  exact congrArg (fun A => reduceAt A (C5 m ρ c main_v17) b o j) (B5_main_arg1 m ρ c)

/-- The first 128 columns: the adjacency summed over each object's relations. -/
theorem obj_at (b : Fin 32) (o : Fin 128) (p : Fin 128) :
    (B7 m ρ c (Proc.devRef .tc main_v19) : (⟨S32x128x128, .f32⟩ : BufTy).Contents (Elt Ideal)) (ix3 b o p) = adjObj (tA m c) b o p :=
  (Host1.v19_apply (B6 m ρ c) b o p).trans ((packed_at m ρ c b o _).trans (reduce_obj _ _ (sel_at m ρ c) b o p))

/-- Columns 128 to 159: the adjacency summed over each relation's objects. -/
theorem rel_at (b : Fin 32) (o : Fin 128) (r : Fin 32) :
    (B7 m ρ c (Proc.devRef .tc main_v20) : (⟨S32x128x32, .f32⟩ : BufTy).Contents (Elt Ideal)) (ix3 b o r) = adjRel (tA m c) b o r :=
  (Host1.v20_apply (B6 m ρ c) b o r).trans ((packed_at m ρ c b o _).trans (reduce_rel _ _ (sel_at m ρ c) b o r))

/-! ## Depth step 0 -/

theorem w1_0 (dd f : Fin 256) : (B7 m ρ c (Proc.devRef .tc main_v35) : (⟨S256x256, .f32⟩ : BufTy).Contents (Elt Ideal)) (ix2 dd f) = tW1 m c 0 dd f :=
  (Host1.v35_apply (B6 m ρ c) dd f).trans (congrFun (B6_main_arg3 m ρ c) _)
theorem bb_0 (f : Fin 256) : (B7 m ρ c (Proc.devRef .tc main_v33) : (⟨S1x256, .f32⟩ : BufTy).Contents (Elt Ideal)) (ix2 (0 : Fin 1) f) = tB1 m c 0 f :=
  (Host1.v33_apply (B6 m ρ c) f).trans (congrFun (B6_main_arg4 m ρ c) _)
theorem w2a_0 (dd f : Fin 256) : (B7 m ρ c (Proc.devRef .tc main_v22) : (⟨S256x256, .f32⟩ : BufTy).Contents (Elt Ideal)) (ix2 dd f) = tW2 m c 0 ⟨dd.val, by have := dd.isLt; omega⟩ f :=
  (Host1.v22_apply (B6 m ρ c) dd f).trans (congrFun (B6_main_arg5 m ρ c) _)
theorem zb_0 (r : Fin 32) (f : Fin 256) : (B7 m ρ c (Proc.devRef .tc main_v30) : (⟨S32x256, .f32⟩ : BufTy).Contents (Elt Ideal)) (ix2 r f)
      = (∑ e : Fin 64, tRel m c r e * tW2 m c 0 ⟨256 + e.val, by have := e.isLt; omega⟩ f) + tB2 m c 0 f := by
  refine (Host1.v30_apply (B6 m ρ c) r f).trans ?_
  rw [B6_main_arg2 m ρ c, B6_main_arg5 m ρ c, B6_main_arg6 m ρ c]
/-! ## Depth step 1 -/

theorem w1_1 (dd f : Fin 256) : (B9 m ρ c (Proc.devRef .tc main_v51) : (⟨S256x256, .f32⟩ : BufTy).Contents (Elt Ideal)) (ix2 dd f) = tW1 m c 1 dd f :=
  (Host2.v51_apply (B8 m ρ c) dd f).trans (congrFun (B8_main_arg3 m ρ c) _)
theorem bb_1 (f : Fin 256) : (B9 m ρ c (Proc.devRef .tc main_v49) : (⟨S1x256, .f32⟩ : BufTy).Contents (Elt Ideal)) (ix2 (0 : Fin 1) f) = tB1 m c 1 f :=
  (Host2.v49_apply (B8 m ρ c) f).trans (congrFun (B8_main_arg4 m ρ c) _)
theorem w2a_1 (dd f : Fin 256) : (B9 m ρ c (Proc.devRef .tc main_v38) : (⟨S256x256, .f32⟩ : BufTy).Contents (Elt Ideal)) (ix2 dd f) = tW2 m c 1 ⟨dd.val, by have := dd.isLt; omega⟩ f :=
  (Host2.v38_apply (B8 m ρ c) dd f).trans (congrFun (B8_main_arg5 m ρ c) _)
theorem zb_1 (r : Fin 32) (f : Fin 256) : (B9 m ρ c (Proc.devRef .tc main_v46) : (⟨S32x256, .f32⟩ : BufTy).Contents (Elt Ideal)) (ix2 r f)
      = (∑ e : Fin 64, tRel m c r e * tW2 m c 1 ⟨256 + e.val, by have := e.isLt; omega⟩ f) + tB2 m c 1 f := by
  refine (Host2.v46_apply (B8 m ρ c) r f).trans ?_
  rw [B8_main_arg2 m ρ c, B8_main_arg5 m ρ c, B8_main_arg6 m ρ c]
/-! ## Depth step 2 -/

theorem w1_2 (dd f : Fin 256) : (B11 m ρ c (Proc.devRef .tc main_v67) : (⟨S256x256, .f32⟩ : BufTy).Contents (Elt Ideal)) (ix2 dd f) = tW1 m c 2 dd f :=
  (Host3.v67_apply (B10 m ρ c) dd f).trans (congrFun (B10_main_arg3 m ρ c) _)
theorem bb_2 (f : Fin 256) : (B11 m ρ c (Proc.devRef .tc main_v65) : (⟨S1x256, .f32⟩ : BufTy).Contents (Elt Ideal)) (ix2 (0 : Fin 1) f) = tB1 m c 2 f :=
  (Host3.v65_apply (B10 m ρ c) f).trans (congrFun (B10_main_arg4 m ρ c) _)
theorem w2a_2 (dd f : Fin 256) : (B11 m ρ c (Proc.devRef .tc main_v54) : (⟨S256x256, .f32⟩ : BufTy).Contents (Elt Ideal)) (ix2 dd f) = tW2 m c 2 ⟨dd.val, by have := dd.isLt; omega⟩ f :=
  (Host3.v54_apply (B10 m ρ c) dd f).trans (congrFun (B10_main_arg5 m ρ c) _)
theorem zb_2 (r : Fin 32) (f : Fin 256) : (B11 m ρ c (Proc.devRef .tc main_v62) : (⟨S32x256, .f32⟩ : BufTy).Contents (Elt Ideal)) (ix2 r f)
      = (∑ e : Fin 64, tRel m c r e * tW2 m c 2 ⟨256 + e.val, by have := e.isLt; omega⟩ f) + tB2 m c 2 f := by
  refine (Host3.v62_apply (B10 m ρ c) r f).trans ?_
  rw [B10_main_arg2 m ρ c, B10_main_arg5 m ρ c, B10_main_arg6 m ρ c]

/-! ## The features after each depth step -/

theorem feat0 : (B7 m ρ c (Proc.devRef .tc main_arg0) : (⟨S32x128x256, .f32⟩ : BufTy).Contents (Elt Ideal)) = (m ((c : Thread nD τ).loc main_arg0) : (⟨S32x128x256, .f32⟩ : BufTy).Contents (Elt Ideal)) :=
  (B7_of m ρ c main_arg0 (by decide)).trans (B6_main_arg0 m ρ c)

theorem feat1 : (B8 m ρ c (Proc.devRef .tc main_v36) : (⟨S32x128x256, .f32⟩ : BufTy).Contents (Elt Ideal)) = kerArr (tA m c) (tRel m c) (tW1 m c) (tB1 m c) (tW2 m c) (tB2 m c) 0 (m ((c : Thread nD τ).loc main_arg0) : (⟨S32x128x256, .f32⟩ : BufTy).Contents (Elt Ideal)) := by
  have e1 := (B8_v36 m ρ c).trans (Val1.final1 (C7 m ρ) c)
  have e2 := depthArr_eq_kerArr (tA m c) (tRel m c) (tW1 m c) (tB1 m c) (tW2 m c) (tB2 m c) 0
    (C7 m ρ c main_arg0) (C7 m ρ c main_v19) (C7 m ρ c main_v20) (C7 m ρ c main_v35) (C7 m ρ c main_v33) (C7 m ρ c main_v22) (C7 m ρ c main_v30)
    (obj_at m ρ c) (rel_at m ρ c) (w1_0 m ρ c) (bb_0 m ρ c) (w2a_0 m ρ c) (zb_0 m ρ c)
  exact e1.trans (e2.trans (congrArg (kerArr (tA m c) (tRel m c) (tW1 m c) (tB1 m c) (tW2 m c) (tB2 m c) 0 ) (feat0 m ρ c)))

theorem feat2 : (B10 m ρ c (Proc.devRef .tc main_v52) : (⟨S32x128x256, .f32⟩ : BufTy).Contents (Elt Ideal)) = kerArr (tA m c) (tRel m c) (tW1 m c) (tB1 m c) (tW2 m c) (tB2 m c) 1 (kerArr (tA m c) (tRel m c) (tW1 m c) (tB1 m c) (tW2 m c) (tB2 m c) 0 (m ((c : Thread nD τ).loc main_arg0) : (⟨S32x128x256, .f32⟩ : BufTy).Contents (Elt Ideal))) := by
  have e1 := (B10_v52 m ρ c).trans (Val2.final2 (C9 m ρ) c)
  have e2 := depthArr_eq_kerArr (tA m c) (tRel m c) (tW1 m c) (tB1 m c) (tW2 m c) (tB2 m c) 1
    (C9 m ρ c main_v36) (C9 m ρ c main_v19) (C9 m ρ c main_v20) (C9 m ρ c main_v51) (C9 m ρ c main_v49) (C9 m ρ c main_v38) (C9 m ρ c main_v46)
    (fun b o p => (congrFun (B9_v19 m ρ c) _).trans (obj_at m ρ c b o p))
    (fun b o r => (congrFun (B9_v20 m ρ c) _).trans (rel_at m ρ c b o r))
    (w1_1 m ρ c) (bb_1 m ρ c) (w2a_1 m ρ c) (zb_1 m ρ c)
  exact e1.trans (e2.trans (congrArg (kerArr (tA m c) (tRel m c) (tW1 m c) (tB1 m c) (tW2 m c) (tB2 m c) 1 ) ((B9_v36 m ρ c).trans (feat1 m ρ c))))

theorem feat3 : (B12 m ρ c (Proc.devRef .tc main_v68) : (⟨S32x128x256, .f32⟩ : BufTy).Contents (Elt Ideal))
    = fun j => ker3 (tA m c) (tRel m c) (tW1 m c) (tB1 m c) (tW2 m c) (tB2 m c) (tX m c) (j 0) (j 1) (j 2) := by
  have e1 := (B12_v68 m ρ c).trans (Val3.final3 (C11 m ρ) c)
  have e2 := depthArr_eq_kerArr (tA m c) (tRel m c) (tW1 m c) (tB1 m c) (tW2 m c) (tB2 m c) 2
    (C11 m ρ c main_v52) (C11 m ρ c main_v19) (C11 m ρ c main_v20) (C11 m ρ c main_v67) (C11 m ρ c main_v65) (C11 m ρ c main_v54) (C11 m ρ c main_v62)
    (fun b o p => (congrFun (B11_v19 m ρ c) _).trans (obj_at m ρ c b o p))
    (fun b o r => (congrFun (B11_v20 m ρ c) _).trans (rel_at m ρ c b o r))
    (w1_2 m ρ c) (bb_2 m ρ c) (w2a_2 m ρ c) (zb_2 m ρ c)
  exact e1.trans (e2.trans ((congrArg (kerArr (tA m c) (tRel m c) (tW1 m c) (tB1 m c) (tW2 m c) (tB2 m c) 2 ) ((B11_v52 m ρ c).trans (feat2 m ρ c))).trans
    (kerArr3 (tA m c) (tRel m c) (tW1 m c) (tB1 m c) (tW2 m c) (tB2 m c) (m ((c : Thread nD τ).loc main_arg0) : (⟨S32x128x256, .f32⟩ : BufTy).Contents (Elt Ideal)))))

end Cert.KernelIdeal.Chain

end
-- ==== Proof.lean ====
/-
  The certificate of the relational graph layer (three depth steps of: repeat features over relations, append the relation
  embedding, linear map, aggregate by the adjacency tensor, self linear map, residual, tanh) against its reference.

  The kernel program reduces the 64 MiB adjacency ONCE against two 0/1 selection matrices ("pair n belongs to object n / 32", "pair n
  has relation n % 32"), packed in one 4096 × 256 matrix, and then runs each depth step on the two small reduced tensors; the
  reference sums over the 4096 (object, relation) pairs in every step. On the extended reals the two are one function when the
  inputs are finite: the sum over pairs n = 32·p + r splits into the sum over objects p and the sum over relations r, and the
  product distributes over the sum of the two halves of the linear map (`Cert.Gcn.ker3_eq_ref3`; distributivity is where finiteness
  is used, and tanh returns a real number whatever it is given, so the later steps' inputs are finite too).

  * The three frames: the kernel program (at the bit-exact and at the ideal instance) runs as twelve items — host stretches and four
    pipelines — and its argument arrays end as launched; the reference's frame is its run with the result dropped.
  * `preserves`: the ideal pass rewrote nothing, the conjunct is `True`.
  * `algebraic`: the kernel program's result array is three kernel-side depth steps of the arguments (the run's last boundary read
    back through the pipelines' output functions and the host stretches), the reference's result is three reference-side steps, and
    the two agree by the law above.
-/
import proofs.«144859_j68152541053088_1_alg».proof.Defs
import proofs.«144859_j68152541053088_1_alg».proof.Proof.Gen.Kernel
import proofs.«144859_j68152541053088_1_alg».proof.Proof.Gen.KernelIdeal
import proofs.«144859_j68152541053088_1_alg».proof.Proof.Gen.ReferenceIdeal
import proofs.«144859_j68152541053088_1_alg».proof.Proof.Gen.Pre_finite_inputs
import proofs.«144859_j68152541053088_1_alg».proof.Proof.KernelRun
import proofs.«144859_j68152541053088_1_alg».proof.Proof.KernelIdealRun
import proofs.«144859_j68152541053088_1_alg».proof.Proof.RefValue
import proofs.«144859_j68152541053088_1_alg».proof.Proof.SpecLaw
import proofs.«144859_j68152541053088_1_alg».proof.Proof.PreFin
import proofs.«144859_j68152541053088_1_alg».proof.Proof.KIChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, of which the precondition holds: the kernel program's result array is three kernel-side
    depth steps of the arguments (`Chain.feat3`), which on finite inputs are three reference-side steps (`ker3_eq_ref3`), which is what
    the reference's result array holds (`RefValue.run_spec`). -/
theorem algebraic : Cert.algebraic_KernelIdeal_ReferenceIdeal := by
  intro m ρ m' ρ' hpre hagree
  refine ⟨fun c => (fun j => Cert.Gcn.ref3 (Cert.KernelIdeal.Chain.tA m c) (Cert.KernelIdeal.Chain.tRel m c) (Cert.KernelIdeal.Chain.tW1 m c)
      (Cert.KernelIdeal.Chain.tB1 m c) (Cert.KernelIdeal.Chain.tW2 m c) (Cert.KernelIdeal.Chain.tB2 m c) (Cert.KernelIdeal.Chain.tX m c) (j 0) (j 1) (j 2)), ?_, ?_⟩
  · refine (θ_run Cert.KernelIdeal.defs _ _).mono (fun r h c => ?_) (Cert.KernelIdeal.Fr.run_all m ρ)
    obtain ⟨f0, f1, f2, f3, f4, f5, f6⟩ := Cert.PreFin.reals_of_pre _ _ _ _ _ _ _ (hpre c)
    refine ⟨?_, (h c _ (Cert.KernelIdeal.Fr.mem_uc Cert.KernelIdeal.main_arg0 (by decide))).trans (Cert.KernelIdeal.Fr.B12_main_arg0 m ρ c),
      (h c _ (Cert.KernelIdeal.Fr.mem_uc Cert.KernelIdeal.main_arg1 (by decide))).trans (Cert.KernelIdeal.Fr.B12_main_arg1 m ρ c),
      (h c _ (Cert.KernelIdeal.Fr.mem_uc Cert.KernelIdeal.main_arg2 (by decide))).trans (Cert.KernelIdeal.Fr.B12_main_arg2 m ρ c),
      (h c _ (Cert.KernelIdeal.Fr.mem_uc Cert.KernelIdeal.main_arg3 (by decide))).trans (Cert.KernelIdeal.Fr.B12_main_arg3 m ρ c),
      (h c _ (Cert.KernelIdeal.Fr.mem_uc Cert.KernelIdeal.main_arg4 (by decide))).trans (Cert.KernelIdeal.Fr.B12_main_arg4 m ρ c),
      (h c _ (Cert.KernelIdeal.Fr.mem_uc Cert.KernelIdeal.main_arg5 (by decide))).trans (Cert.KernelIdeal.Fr.B12_main_arg5 m ρ c),
      (h c _ (Cert.KernelIdeal.Fr.mem_uc Cert.KernelIdeal.main_arg6 (by decide))).trans (Cert.KernelIdeal.Fr.B12_main_arg6 m ρ c)⟩
    refine (h c _ (Cert.KernelIdeal.Fr.mem_uc Cert.KernelIdeal.main_v68 (by decide))).trans ((Cert.KernelIdeal.Chain.feat3 m ρ c).trans ?_)
    funext j
    exact congrFun (congrFun (congrFun (Cert.Gcn.ker3_eq_ref3 _ _ _ _ _ _
      (fun a b d => f1 _) (fun a b => f2 _) (fun a b d => f5 _) (fun a b => f6 _) _ (fun a b d => f0 _)) (j 0)) (j 1)) (j 2)
  · refine (θ_run Cert.ReferenceIdeal.defs _ _).mono (fun r h c => ⟨(h c).1.trans ?_, (h c).2⟩) (Cert.ReferenceIdeal.RefValue.run_spec m' ρ')
    obtain ⟨e0, e1, e2, e3, e4, e5, e6⟩ := hagree c
    rw [e0, e1, e2, e3, e4, e5, e6]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
